-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S300000 : Shape := ⟨1, ![300000]⟩
abbrev S100000x1 : Shape := ⟨2, ![100000, 1]⟩
abbrev S20000x1 : Shape := ⟨2, ![20000, 1]⟩
abbrev S256x256 : Shape := ⟨2, ![256, 256]⟩
abbrev S256 : Shape := ⟨1, ![256]⟩
abbrev S4x256x256 : Shape := ⟨3, ![4, 256, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S20000x1 : S_.BroadcastsInDim S20000x1 (![] : Fin 0 → Fin S20000x1.rank)
  reducesTo_S20000x1_S_d0_1 : S20000x1.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part2 {F : FTy → Type} [FloatOps F] (main_arg9 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg6 : FVec F S256 .f32) (main_arg7 : FVec F S4x256x256 .f32) (main_arg8 : FVec F S256x256 .f32) (main_arg9 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S4x256x256 .f32 := Host.absf main_arg7
  let main_cst_8 : FVec F S_ .f32 := constant S_ .f32 0x7F800000#32
  let main_v25 : FVec F S4x256x256 .f32 := broadcastInDim S4x256x256 ![] bcast_S_S4x256x256 main_cst_8
  let main_v26 : IVec S4x256x256 1 := cmpf .olt main_v24 main_v25
  let main_c_9 : IVec S_ 1 := constantI S_ 1 1#1
  let main_v27 : IVec S_ 1 := (fun x v => Host.reduce IntOp.andi x v reducesTo_S4x256x256_S_d0_1_2 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_v33

def fn {F : FTy → Type} [FloatOps F] (main_arg0 : FVec F S100000x256 .f32) (main_arg1 : IVec S300000 32) (main_arg2 : IVec S300000 32) (main_arg3 : FVec F S100000x1 .f32) (main_arg4 : FVec F S20000x1 .f32) (main_arg5 : FVec F S256x256 .f32) (main_arg6 : FVec F S256 .f32) (main_arg7 : FVec F S4x256x256 .f32) (main_arg8 : FVec F S256x256 .f32) (main_arg9 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x1 .f32 := Host.absf main_arg3
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S20000x1 .f32 := Host.absf main_arg4
  let main_cst_2 : FVec F S_ .f32 := constant S_ .f32 0x7F800000#32
  let main_v10 : FVec F S20000x1 .f32 := broadcastInDim S20000x1 ![] bcast_S_S20000x1 main_cst_2
  let main_v11 : IVec S20000x1 1 := cmpf .olt main_v9 main_v10
  let main_c_3 : IVec S_ 1 := constantI S_ 1 1#1
  let main_v12 : IVec S_ 1 := (fun x v => Host.reduce IntOp.andi x v reducesTo_S20000x1_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_v13 main_v16
-- ==== Kernel.lean ====
abbrev S100000x256 : Shape := ⟨2, ![100000, 256]⟩
abbrev S300000 : Shape := ⟨1, ![300000]⟩
abbrev S100000x1 : Shape := ⟨2, ![100000, 1]⟩
abbrev S20000x1 : Shape := ⟨2, ![20000, 1]⟩
abbrev S256x256 : Shape := ⟨2, ![256, 256]⟩
abbrev S256 : Shape := ⟨1, ![256]⟩
abbrev S4x256x256 : Shape := ⟨3, ![4, 256, 256]⟩
abbrev S1x256 : Shape := ⟨2, ![1, 256]⟩
abbrev S4000x256 : Shape := ⟨2, ![4000, 256]⟩
abbrev S_ : Shape := ⟨0, ![]⟩
abbrev S300000x1 : Shape := ⟨2, ![300000, 1]⟩
abbrev S300000x256 : Shape := ⟨2, ![300000, 256]⟩
abbrev S20000x256 : Shape := ⟨2, ![20000, 256]⟩
abbrev S1x256x256 : Shape := ⟨3, ![1, 256, 256]⟩
abbrev S2000x256 : Shape := ⟨2, ![2000, 256]⟩
abbrev S2000x1 : Shape := ⟨2, ![2000, 1]⟩

abbrev nBuf : Space → Nat
  | .hbm => 166
  | .vmem => 46
  | .smem => 0
  | _ => 0

abbrev hbmTy0_0 (i : Nat) : BufTy := match i % 128 with
  | 0 => ⟨S100000x256, .f32⟩
  | 1 => ⟨S300000, .i32⟩
  | 2 => ⟨S300000, .i32⟩
  | 3 => ⟨S100000x1, .f32⟩
  | 4 => ⟨S20000x1, .f32⟩
  | 5 => ⟨S256x256, .f32⟩
  | 6 => ⟨S256, .f32⟩
  | 7 => ⟨S4x256x256, .f32⟩
  | 8 => ⟨S256x256, .f32⟩
  | 9 => ⟨S256, .f32⟩
  | 10 => ⟨S256x256, .f32⟩
  | 11 => ⟨S256x256, .f32⟩
  | 12 => ⟨S1x256, .f32⟩
  | 13 => ⟨S1x256, .f32⟩
  | 14 => ⟨S100000x256, .f32⟩
  | 15 => ⟨S100000x256, .bf16⟩
  | 16 => ⟨S_, .f32⟩
  | 17 => ⟨S300000x1, .f32⟩
  | 18 => ⟨S_, .f32⟩
  | 19 => ⟨S20000x1, .f32⟩
  | 20 => ⟨S300000x1, .i32⟩
  | 21 => ⟨S20000x1, .f32⟩
  | 22 => ⟨S_, .f32⟩
  | 23 => ⟨S20000x1, .f32⟩
  | 24 => ⟨S20000x1, .f32⟩
  | 25 => ⟨S20000x1, .f32⟩
  | 26 => ⟨S_, .i32⟩
  | 27 => ⟨S300000, .i32⟩
  | 28 => ⟨S300000, .i1⟩
  | 29 => ⟨S_, .i32⟩
  | 30 => ⟨S300000, .i32⟩
  | 31 => ⟨S300000, .i32⟩
  | 32 => ⟨S300000, .i32⟩
  | 33 => ⟨S300000x1, .i32⟩
  | 34 => ⟨S300000x256, .bf16⟩
  | 35 => ⟨S300000x256, .f32⟩
  | 36 => ⟨S_, .f32⟩
  | 37 => ⟨S20000x256, .f32⟩
  | 38 => ⟨S300000x1, .i32⟩
  | 39 => ⟨S20000x256, .f32⟩
  | 40 => ⟨S20000x256, .f32⟩
  | 41 => ⟨S20000x256, .f32⟩
  | 42 => ⟨S20000x256, .bf16⟩
  | 43 => ⟨S_, .i32⟩
  | 44 => ⟨S300000, .i32⟩
  | 45 => ⟨S300000, .i1⟩
  | 46 => ⟨S_, .i32⟩
  | 47 => ⟨S300000, .i32⟩
  | 48 => ⟨S300000, .i32⟩
  | 49 => ⟨S300000, .i32⟩
  | 50 => ⟨S300000x1, .i32⟩
  | 51 => ⟨S300000x256, .bf16⟩
  | 52 => ⟨S300000x256, .f32⟩
  | 53 => ⟨S_, .f32⟩
  | 54 => ⟨S100000x256, .f32⟩
  | 55 => ⟨S300000x1, .i32⟩
  | 56 => ⟨S100000x256, .f32⟩
  | 57 => ⟨S1x256x256, .f32⟩
  | 58 => ⟨S256x256, .f32⟩
  | 59 => ⟨S256x256, .f32⟩
  | 60 => ⟨S100000x256, .bf16⟩
  | 61 => ⟨S_, .i32⟩
  | 62 => ⟨S300000, .i32⟩
  | 63 => ⟨S300000, .i1⟩
  | 64 => ⟨S_, .i32⟩
  | 65 => ⟨S300000, .i32⟩
  | 66 => ⟨S300000, .i32⟩
  | 67 => ⟨S300000, .i32⟩
  | 68 => ⟨S300000x1, .i32⟩
  | 69 => ⟨S300000x256, .bf16⟩
  | 70 => ⟨S300000x256, .f32⟩
  | 71 => ⟨S_, .f32⟩
  | 72 => ⟨S20000x256, .f32⟩
  | 73 => ⟨S300000x1, .i32⟩
  | 74 => ⟨S20000x256, .f32⟩
  | 75 => ⟨S20000x256, .f32⟩
  | 76 => ⟨S20000x256, .f32⟩
  | 77 => ⟨S20000x256, .bf16⟩
  | 78 => ⟨S_, .i32⟩
  | 79 => ⟨S300000, .i32⟩
  | 80 => ⟨S300000, .i1⟩
  | 81 => ⟨S_, .i32⟩
  | 82 => ⟨S300000, .i32⟩
  | 83 => ⟨S300000, .i32⟩
  | 84 => ⟨S300000, .i32⟩
  | 85 => ⟨S300000x1, .i32⟩
  | 86 => ⟨S300000x256, .bf16⟩
  | 87 => ⟨S300000x256, .f32⟩
  | 88 => ⟨S_, .f32⟩
  | 89 => ⟨S100000x256, .f32⟩
  | 90 => ⟨S300000x1, .i32⟩
  | 91 => ⟨S100000x256, .f32⟩
  | 92 => ⟨S1x256x256, .f32⟩
  | 93 => ⟨S256x256, .f32⟩
  | 94 => ⟨S256x256, .f32⟩
  | 95 => ⟨S100000x256, .bf16⟩
  | 96 => ⟨S_, .i32⟩
  | 97 => ⟨S300000, .i32⟩
  | 98 => ⟨S300000, .i1⟩
  | 99 => ⟨S_, .i32⟩
  | 100 => ⟨S300000, .i32⟩
  | 101 => ⟨S300000, .i32⟩
  | 102 => ⟨S300000, .i32⟩
  | 103 => ⟨S300000x1, .i32⟩
  | 104 => ⟨S300000x256, .bf16⟩
  | 105 => ⟨S300000x256, .f32⟩
  | 106 => ⟨S_, .f32⟩
  | 107 => ⟨S20000x256, .f32⟩
  | 108 => ⟨S300000x1, .i32⟩
  | 109 => ⟨S20000x256, .f32⟩
  | 110 => ⟨S20000x256, .f32⟩
  | 111 => ⟨S20000x256, .f32⟩
  | 112 => ⟨S20000x256, .bf16⟩
  | 113 => ⟨S_, .i32⟩
  | 114 => ⟨S300000, .i32⟩
  | 115 => ⟨S300000, .i1⟩
  | 116 => ⟨S_, .i32⟩
  | 117 => ⟨S300000, .i32⟩
  | 118 => ⟨S300000, .i32⟩
  | 119 => ⟨S300000, .i32⟩
  | 120 => ⟨S300000x1, .i32⟩
  | 121 => ⟨S300000x256, .bf16⟩
  | 122 => ⟨S300000x256, .f32⟩
  | 123 => ⟨S_, .f32⟩
  | 124 => ⟨S100000x256, .f32⟩
  | 125 => ⟨S300000x1, .i32⟩
  | 126 => ⟨S100000x256, .f32⟩
  | 127 => ⟨S1x256x256, .f32⟩
  | _ => ⟨S100000x256, .f32⟩

abbrev hbmTy0_1 (i : Nat) : BufTy := match i % 128 with
  | 0 => ⟨S256x256, .f32⟩
  | 1 => ⟨S256x256, .f32⟩
  | 2 => ⟨S100000x256, .bf16⟩
  | 3 => ⟨S_, .i32⟩
  | 4 => ⟨S300000, .i32⟩
  | 5 => ⟨S300000, .i1⟩
  | 6 => ⟨S_, .i32⟩
  | 7 => ⟨S300000, .i32⟩
  | 8 => ⟨S300000, .i32⟩
  | 9 => ⟨S300000, .i32⟩
  | 10 => ⟨S300000x1, .i32⟩
  | 11 => ⟨S300000x256, .bf16⟩
  | 12 => ⟨S300000x256, .f32⟩
  | 13 => ⟨S_, .f32⟩
  | 14 => ⟨S20000x256, .f32⟩
  | 15 => ⟨S300000x1, .i32⟩
  | 16 => ⟨S20000x256, .f32⟩
  | 17 => ⟨S20000x256, .f32⟩
  | 18 => ⟨S20000x256, .f32⟩
  | 19 => ⟨S20000x256, .bf16⟩
  | 20 => ⟨S_, .i32⟩
  | 21 => ⟨S300000, .i32⟩
  | 22 => ⟨S300000, .i1⟩
  | 23 => ⟨S_, .i32⟩
  | 24 => ⟨S300000, .i32⟩
  | 25 => ⟨S300000, .i32⟩
  | 26 => ⟨S300000, .i32⟩
  | 27 => ⟨S300000x1, .i32⟩
  | 28 => ⟨S300000x256, .bf16⟩
  | 29 => ⟨S300000x256, .f32⟩
  | 30 => ⟨S_, .f32⟩
  | 31 => ⟨S100000x256, .f32⟩
  | 32 => ⟨S300000x1, .i32⟩
  | 33 => ⟨S100000x256, .f32⟩
  | 34 => ⟨S1x256x256, .f32⟩
  | 35 => ⟨S256x256, .f32⟩
  | 36 => ⟨S256x256, .f32⟩
  | 37 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S256x256, .f32⟩
  | .local _ .vmem, ⟨3, _⟩ => ⟨S1x256, .f32⟩
  | .local _ .vmem, ⟨4, _⟩ => ⟨S4000x256, .f32⟩
  | .local _ .vmem, ⟨5, _⟩ => ⟨S4000x256, .f32⟩
  | .local _ .vmem, ⟨6, _⟩ => ⟨S4000x256, .bf16⟩
  | .local _ .vmem, ⟨7, _⟩ => ⟨S4000x256, .bf16⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x1, .f32⟩
  | .local _ .vmem, ⟨13, _⟩ => ⟨S2000x1, .f32⟩
  | .local _ .vmem, ⟨14, _⟩ => ⟨S256x256, .f32⟩
  | .local _ .vmem, ⟨15, _⟩ => ⟨S2000x256, .bf16⟩
  | .local _ .vmem, ⟨16, _⟩ => ⟨S2000x256, .bf16⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x1, .f32⟩
  | .local _ .vmem, ⟨22, _⟩ => ⟨S2000x1, .f32⟩
  | .local _ .vmem, ⟨23, _⟩ => ⟨S256x256, .f32⟩
  | .local _ .vmem, ⟨24, _⟩ => ⟨S2000x256, .bf16⟩
  | .local _ .vmem, ⟨25, _⟩ => ⟨S2000x256, .bf16⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x1, .f32⟩
  | .local _ .vmem, ⟨31, _⟩ => ⟨S2000x1, .f32⟩
  | .local _ .vmem, ⟨32, _⟩ => ⟨S256x256, .f32⟩
  | .local _ .vmem, ⟨33, _⟩ => ⟨S2000x256, .bf16⟩
  | .local _ .vmem, ⟨34, _⟩ => ⟨S2000x256, .bf16⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x1, .f32⟩
  | .local _ .vmem, ⟨40, _⟩ => ⟨S2000x1, .f32⟩
  | .local _ .vmem, ⟨41, _⟩ => ⟨S256x256, .f32⟩
  | .local _ .vmem, ⟨42, _⟩ => ⟨S256x256, .f32⟩
  | .local _ .vmem, ⟨43, _⟩ => ⟨S1x256, .f32⟩
  | .local _ .vmem, ⟨44, _⟩ => ⟨S2000x256, .f32⟩
  | .local _ .vmem, ⟨45, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_v70 : Ref sig .tc := ⟨.hbm, 97, rfl⟩
abbrev main_v71 : Ref sig .tc := ⟨.hbm, 98, rfl⟩
abbrev main_c_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_16 : Ref sig .tc := ⟨.hbm, 113, rfl⟩
abbrev main_v84 : Ref sig .tc := ⟨.hbm, 114, rfl⟩
abbrev main_v85 : Ref sig .tc := ⟨.hbm, 115, rfl⟩
abbrev main_c_17 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_18 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_c_19 : Ref sig .tc := ⟨.hbm, 131, rfl⟩
abbrev main_v99 : Ref sig .tc := ⟨.hbm, 132, rfl⟩
abbrev main_v100 : Ref sig .tc := ⟨.hbm, 133, rfl⟩
abbrev main_c_20 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_21 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_c_22 : Ref sig .tc := ⟨.hbm, 148, rfl⟩
abbrev main_v113 : Ref sig .tc := ⟨.hbm, 149, rfl⟩
abbrev main_v114 : Ref sig .tc := ⟨.hbm, 150, rfl⟩
abbrev main_c_23 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_24 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem4_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  transposes_S256x256_S256x256_1_0 : S256x256.Transposes [1, 0] S256x256
  shapeCasts_S256_S1x256 : S256.ShapeCasts S1x256
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  packedbf16_S4000x256_S4000x256_0_0 : (Rect.unit (s := S4000x256) ![0, 0] S4000x256.size inb_S4000x256_S4000x256_0_0).PackedRows (EltTy.packing .bf16)
  bcast_S_S300000x1 : S_.BroadcastsInDim S300000x1 (![] : Fin 0 → Fin S300000x1.rank)
  bcast_S_S20000x1 : S_.BroadcastsInDim S20000x1 (![] : Fin 0 → Fin S20000x1.rank)
  bcast_S300000_S300000x1_0 : S300000.BroadcastsInDim S300000x1 (![0] : Fin 1 → Fin S300000x1.rank)
  bcast_S_S300000 : S_.BroadcastsInDim S300000 (![] : Fin 0 → Fin S300000.rank)
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  bcast_S_S100000x256 : S_.BroadcastsInDim S100000x256 (![] : Fin 0 → Fin S100000x256.rank)
  slices_S4x256x256_S1x256x256_0_0_0 : S4x256x256.Slices ![0, 0, 0] S1x256x256
  shapeCasts_S1x256x256_S256x256 : S1x256x256.ShapeCasts S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  broadcasts_S2000x1_S2000x256 : S2000x1.Broadcasts S2000x256
  packedbf16_S2000x256_S2000x256_0_0 : (Rect.unit (s := S2000x256) ![0, 0] S2000x256.size inb_S2000x256_S2000x256_0_0).PackedRows (EltTy.packing .bf16)
  slices_S4x256x256_S1x256x256_1_0_0 : S4x256x256.Slices ![1, 0, 0] S1x256x256
  slices_S4x256x256_S1x256x256_2_0_0 : S4x256x256.Slices ![2, 0, 0] S1x256x256
  slices_S4x256x256_S1x256x256_3_0_0 : S4x256x256.Slices ![3, 0, 0] S1x256x256
  broadcasts_S1x256_S2000x256 : S1x256.Broadcasts S2000x256
  dot_S4000x256_S256x256_S4000x256_1_0_0_1_n_n_wf : DotDims.WF S4000x256 S256x256 S4000x256 [1] [0] [0] [1] [] []
  scatter_S20000x1_S300000x1_S300000x1_1_0_0_1_wf : ScatterDims.WF S20000x1 S300000x1 S300000x1 [1] [0] [0] 1
  gather_S100000x256_S300000x1_S300000x256_1_0_n_n_0_1_1256_wf : GatherDims.WF S100000x256 S300000x1 S300000x256 [1] [0] [] [0] [] 1 ![1, 256]
  scatter_S20000x256_S300000x1_S300000x256_1_0_0_1_wf : ScatterDims.WF S20000x256 S300000x1 S300000x256 [1] [0] [0] 1
  gather_S20000x256_S300000x1_S300000x256_1_0_n_n_0_1_1256_wf : GatherDims.WF S20000x256 S300000x1 S300000x256 [1] [0] [] [0] [] 1 ![1, 256]
  scatter_S100000x256_S300000x1_S300000x256_1_0_0_1_wf : ScatterDims.WF S100000x256 S300000x1 S300000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S100000x256.size a
  hwx0_3 : ∀ i : grid0.Coords, EltTy.bits .f32 = 32 ∨ (Rect.block (s := S100000x256) S4000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x256.size a ≤ S100000x256.size a
  hwx0_4 : ∀ i : grid0.Coords, EltTy.bits .bf16 = 32 ∨ (Rect.block (s := S100000x256) S4000x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S100000x256.size a
  hwx1_4 : ∀ i : grid1.Coords, EltTy.bits .bf16 = 32 ∨ (Rect.block (s := S100000x256) S2000x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S100000x256.size a
  hwx2_4 : ∀ i : grid2.Coords, EltTy.bits .bf16 = 32 ∨ (Rect.block (s := S100000x256) S2000x256.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .f32 = 32 ∨ (Rect.block (s := S100000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S100000x256.size a
  hwx3_4 : ∀ i : grid3.Coords, EltTy.bits .bf16 = 32 ∨ (Rect.block (s := S100000x256) S2000x256.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S100000x256.size a
  hwx4_1 : ∀ i : grid4.Coords, EltTy.bits .f32 = 32 ∨ (Rect.block (s := S100000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x256.size a ≤ S100000x256.size a
  hwx4_6 : ∀ i : grid4.Coords, EltTy.bits .f32 = 32 ∨ (Rect.block (s := S100000x256) S2000x256.size (cc4_transform_6 i) (hinb4_6 i)).WholeWords (EltTy.packing .f32)

variable [Facts₀]

def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S20000x1_S300000x1_S300000x1_1_0_0_1 : ScatterDims S20000x1 S300000x1 S300000x1 where
  updateWindowDims := [1]
  insertedWindowDims := [0]
  scatterDimsToOperandDims := [0]
  indexVectorDim := 1
  wf := scatter_S20000x1_S300000x1_S300000x1_1_0_0_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S20000x256_S300000x1_S300000x256_1_0_0_1 : ScatterDims S20000x256 S300000x1 S300000x256 where
  updateWindowDims := [1]
  insertedWindowDims := [0]
  scatterDimsToOperandDims := [0]
  indexVectorDim := 1
  wf := scatter_S20000x256_S300000x1_S300000x256_1_0_0_1_wf
def gather_S20000x256_S300000x1_S300000x256_1_0_n_n_0_1_1256 : GatherDims S20000x256 S300000x1 S300000x256 where
  offsetDims := [1]
  collapsedSliceDims := [0]
  operandBatchingDims := []
  startIndicesBatchingDims := []
  startIndexMap := [0]
  indexVectorDim := 1
  sliceSizes := ![1, 256]
  wf := gather_S20000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S4000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S4000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v36) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v65) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4_0) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v68) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v94) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4_0) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v97) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v98) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v123) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4_0) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg3) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v126) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v1) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v3) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v127) S2000x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x256 : Shape := ⟨2, ![100000, 256]⟩
abbrev S300000 : Shape := ⟨1, ![300000]⟩
abbrev S100000x1 : Shape := ⟨2, ![100000, 1]⟩
abbrev S20000x1 : Shape := ⟨2, ![20000, 1]⟩
abbrev S256x256 : Shape := ⟨2, ![256, 256]⟩
abbrev S256 : Shape := ⟨1, ![256]⟩
abbrev S4x256x256 : Shape := ⟨3, ![4, 256, 256]⟩
abbrev S1x256 : Shape := ⟨2, ![1, 256]⟩
abbrev S_ : Shape := ⟨0, ![]⟩
abbrev S300000x1 : Shape := ⟨2, ![300000, 1]⟩
abbrev S300000x256 : Shape := ⟨2, ![300000, 256]⟩
abbrev S20000x256 : Shape := ⟨2, ![20000, 256]⟩
abbrev S1x256x256 : Shape := ⟨3, ![1, 256, 256]⟩

abbrev nBuf : Space → Nat
  | .hbm => 244
  | .vmem => 0
  | .smem => 0
  | _ => 0

abbrev hbmTy0_0 (i : Nat) : BufTy := match i % 128 with
  | 0 => ⟨S100000x256, .f32⟩
  | 1 => ⟨S300000, .i32⟩
  | 2 => ⟨S300000, .i32⟩
  | 3 => ⟨S100000x1, .f32⟩
  | 4 => ⟨S20000x1, .f32⟩
  | 5 => ⟨S256x256, .f32⟩
  | 6 => ⟨S256, .f32⟩
  | 7 => ⟨S4x256x256, .f32⟩
  | 8 => ⟨S256x256, .f32⟩
  | 9 => ⟨S256, .f32⟩
  | 10 => ⟨S256x256, .f32⟩
  | 11 => ⟨S100000x256, .f32⟩
  | 12 => ⟨S1x256, .f32⟩
  | 13 => ⟨S100000x256, .f32⟩
  | 14 => ⟨S100000x256, .f32⟩
  | 15 => ⟨S_, .f32⟩
  | 16 => ⟨S100000x256, .f32⟩
  | 17 => ⟨S100000x256, .f32⟩
  | 18 => ⟨S_, .f32⟩
  | 19 => ⟨S300000x1, .f32⟩
  | 20 => ⟨S_, .f32⟩
  | 21 => ⟨S20000x1, .f32⟩
  | 22 => ⟨S300000x1, .i32⟩
  | 23 => ⟨S20000x1, .f32⟩
  | 24 => ⟨S_, .f32⟩
  | 25 => ⟨S20000x1, .f32⟩
  | 26 => ⟨S20000x1, .f32⟩
  | 27 => ⟨S_, .i32⟩
  | 28 => ⟨S300000, .i32⟩
  | 29 => ⟨S300000, .i1⟩
  | 30 => ⟨S_, .i32⟩
  | 31 => ⟨S300000, .i32⟩
  | 32 => ⟨S300000, .i32⟩
  | 33 => ⟨S300000, .i32⟩
  | 34 => ⟨S300000x1, .i32⟩
  | 35 => ⟨S300000x256, .f32⟩
  | 36 => ⟨S_, .f32⟩
  | 37 => ⟨S20000x256, .f32⟩
  | 38 => ⟨S300000x1, .i32⟩
  | 39 => ⟨S20000x256, .f32⟩
  | 40 => ⟨S20000x256, .f32⟩
  | 41 => ⟨S20000x256, .f32⟩
  | 42 => ⟨S20000x256, .f32⟩
  | 43 => ⟨S20000x256, .f32⟩
  | 44 => ⟨S_, .i32⟩
  | 45 => ⟨S300000, .i32⟩
  | 46 => ⟨S300000, .i1⟩
  | 47 => ⟨S_, .i32⟩
  | 48 => ⟨S300000, .i32⟩
  | 49 => ⟨S300000, .i32⟩
  | 50 => ⟨S300000, .i32⟩
  | 51 => ⟨S300000x1, .i32⟩
  | 52 => ⟨S300000x256, .f32⟩
  | 53 => ⟨S_, .f32⟩
  | 54 => ⟨S100000x256, .f32⟩
  | 55 => ⟨S300000x1, .i32⟩
  | 56 => ⟨S100000x256, .f32⟩
  | 57 => ⟨S100000x256, .f32⟩
  | 58 => ⟨S100000x256, .f32⟩
  | 59 => ⟨S_, .f32⟩
  | 60 => ⟨S100000x256, .f32⟩
  | 61 => ⟨S100000x256, .f32⟩
  | 62 => ⟨S_, .f32⟩
  | 63 => ⟨S100000x256, .f32⟩
  | 64 => ⟨S100000x256, .f32⟩
  | 65 => ⟨S100000x256, .f32⟩
  | 66 => ⟨S_, .f32⟩
  | 67 => ⟨S100000x256, .f32⟩
  | 68 => ⟨S100000x256, .f32⟩
  | 69 => ⟨S1x256x256, .f32⟩
  | 70 => ⟨S256x256, .f32⟩
  | 71 => ⟨S256x256, .f32⟩
  | 72 => ⟨S100000x256, .f32⟩
  | 73 => ⟨S_, .f32⟩
  | 74 => ⟨S100000x256, .f32⟩
  | 75 => ⟨S100000x256, .f32⟩
  | 76 => ⟨S100000x256, .f32⟩
  | 77 => ⟨S_, .f32⟩
  | 78 => ⟨S100000x256, .f32⟩
  | 79 => ⟨S100000x256, .f32⟩
  | 80 => ⟨S_, .i32⟩
  | 81 => ⟨S300000, .i32⟩
  | 82 => ⟨S300000, .i1⟩
  | 83 => ⟨S_, .i32⟩
  | 84 => ⟨S300000, .i32⟩
  | 85 => ⟨S300000, .i32⟩
  | 86 => ⟨S300000, .i32⟩
  | 87 => ⟨S300000x1, .i32⟩
  | 88 => ⟨S300000x256, .f32⟩
  | 89 => ⟨S_, .f32⟩
  | 90 => ⟨S20000x256, .f32⟩
  | 91 => ⟨S300000x1, .i32⟩
  | 92 => ⟨S20000x256, .f32⟩
  | 93 => ⟨S20000x256, .f32⟩
  | 94 => ⟨S20000x256, .f32⟩
  | 95 => ⟨S20000x256, .f32⟩
  | 96 => ⟨S20000x256, .f32⟩
  | 97 => ⟨S_, .i32⟩
  | 98 => ⟨S300000, .i32⟩
  | 99 => ⟨S300000, .i1⟩
  | 100 => ⟨S_, .i32⟩
  | 101 => ⟨S300000, .i32⟩
  | 102 => ⟨S300000, .i32⟩
  | 103 => ⟨S300000, .i32⟩
  | 104 => ⟨S300000x1, .i32⟩
  | 105 => ⟨S300000x256, .f32⟩
  | 106 => ⟨S_, .f32⟩
  | 107 => ⟨S100000x256, .f32⟩
  | 108 => ⟨S300000x1, .i32⟩
  | 109 => ⟨S100000x256, .f32⟩
  | 110 => ⟨S100000x256, .f32⟩
  | 111 => ⟨S100000x256, .f32⟩
  | 112 => ⟨S_, .f32⟩
  | 113 => ⟨S100000x256, .f32⟩
  | 114 => ⟨S100000x256, .f32⟩
  | 115 => ⟨S_, .f32⟩
  | 116 => ⟨S100000x256, .f32⟩
  | 117 => ⟨S100000x256, .f32⟩
  | 118 => ⟨S100000x256, .f32⟩
  | 119 => ⟨S_, .f32⟩
  | 120 => ⟨S100000x256, .f32⟩
  | 121 => ⟨S100000x256, .f32⟩
  | 122 => ⟨S1x256x256, .f32⟩
  | 123 => ⟨S256x256, .f32⟩
  | 124 => ⟨S256x256, .f32⟩
  | 125 => ⟨S100000x256, .f32⟩
  | 126 => ⟨S_, .f32⟩
  | 127 => ⟨S100000x256, .f32⟩
  | _ => ⟨S100000x256, .f32⟩

abbrev hbmTy0_1 (i : Nat) : BufTy := match i % 128 with
  | 0 => ⟨S100000x256, .f32⟩
  | 1 => ⟨S100000x256, .f32⟩
  | 2 => ⟨S_, .f32⟩
  | 3 => ⟨S100000x256, .f32⟩
  | 4 => ⟨S100000x256, .f32⟩
  | 5 => ⟨S_, .i32⟩
  | 6 => ⟨S300000, .i32⟩
  | 7 => ⟨S300000, .i1⟩
  | 8 => ⟨S_, .i32⟩
  | 9 => ⟨S300000, .i32⟩
  | 10 => ⟨S300000, .i32⟩
  | 11 => ⟨S300000, .i32⟩
  | 12 => ⟨S300000x1, .i32⟩
  | 13 => ⟨S300000x256, .f32⟩
  | 14 => ⟨S_, .f32⟩
  | 15 => ⟨S20000x256, .f32⟩
  | 16 => ⟨S300000x1, .i32⟩
  | 17 => ⟨S20000x256, .f32⟩
  | 18 => ⟨S20000x256, .f32⟩
  | 19 => ⟨S20000x256, .f32⟩
  | 20 => ⟨S20000x256, .f32⟩
  | 21 => ⟨S20000x256, .f32⟩
  | 22 => ⟨S_, .i32⟩
  | 23 => ⟨S300000, .i32⟩
  | 24 => ⟨S300000, .i1⟩
  | 25 => ⟨S_, .i32⟩
  | 26 => ⟨S300000, .i32⟩
  | 27 => ⟨S300000, .i32⟩
  | 28 => ⟨S300000, .i32⟩
  | 29 => ⟨S300000x1, .i32⟩
  | 30 => ⟨S300000x256, .f32⟩
  | 31 => ⟨S_, .f32⟩
  | 32 => ⟨S100000x256, .f32⟩
  | 33 => ⟨S300000x1, .i32⟩
  | 34 => ⟨S100000x256, .f32⟩
  | 35 => ⟨S100000x256, .f32⟩
  | 36 => ⟨S100000x256, .f32⟩
  | 37 => ⟨S_, .f32⟩
  | 38 => ⟨S100000x256, .f32⟩
  | 39 => ⟨S100000x256, .f32⟩
  | 40 => ⟨S_, .f32⟩
  | 41 => ⟨S100000x256, .f32⟩
  | 42 => ⟨S100000x256, .f32⟩
  | 43 => ⟨S100000x256, .f32⟩
  | 44 => ⟨S_, .f32⟩
  | 45 => ⟨S100000x256, .f32⟩
  | 46 => ⟨S100000x256, .f32⟩
  | 47 => ⟨S1x256x256, .f32⟩
  | 48 => ⟨S256x256, .f32⟩
  | 49 => ⟨S256x256, .f32⟩
  | 50 => ⟨S100000x256, .f32⟩
  | 51 => ⟨S_, .f32⟩
  | 52 => ⟨S100000x256, .f32⟩
  | 53 => ⟨S100000x256, .f32⟩
  | 54 => ⟨S100000x256, .f32⟩
  | 55 => ⟨S_, .f32⟩
  | 56 => ⟨S100000x256, .f32⟩
  | 57 => ⟨S100000x256, .f32⟩
  | 58 => ⟨S_, .i32⟩
  | 59 => ⟨S300000, .i32⟩
  | 60 => ⟨S300000, .i1⟩
  | 61 => ⟨S_, .i32⟩
  | 62 => ⟨S300000, .i32⟩
  | 63 => ⟨S300000, .i32⟩
  | 64 => ⟨S300000, .i32⟩
  | 65 => ⟨S300000x1, .i32⟩
  | 66 => ⟨S300000x256, .f32⟩
  | 67 => ⟨S_, .f32⟩
  | 68 => ⟨S20000x256, .f32⟩
  | 69 => ⟨S300000x1, .i32⟩
  | 70 => ⟨S20000x256, .f32⟩
  | 71 => ⟨S20000x256, .f32⟩
  | 72 => ⟨S20000x256, .f32⟩
  | 73 => ⟨S20000x256, .f32⟩
  | 74 => ⟨S20000x256, .f32⟩
  | 75 => ⟨S_, .i32⟩
  | 76 => ⟨S300000, .i32⟩
  | 77 => ⟨S300000, .i1⟩
  | 78 => ⟨S_, .i32⟩
  | 79 => ⟨S300000, .i32⟩
  | 80 => ⟨S300000, .i32⟩
  | 81 => ⟨S300000, .i32⟩
  | 82 => ⟨S300000x1, .i32⟩
  | 83 => ⟨S300000x256, .f32⟩
  | 84 => ⟨S_, .f32⟩
  | 85 => ⟨S100000x256, .f32⟩
  | 86 => ⟨S300000x1, .i32⟩
  | 87 => ⟨S100000x256, .f32⟩
  | 88 => ⟨S100000x256, .f32⟩
  | 89 => ⟨S100000x256, .f32⟩
  | 90 => ⟨S_, .f32⟩
  | 91 => ⟨S100000x256, .f32⟩
  | 92 => ⟨S100000x256, .f32⟩
  | 93 => ⟨S_, .f32⟩
  | 94 => ⟨S100000x256, .f32⟩
  | 95 => ⟨S100000x256, .f32⟩
  | 96 => ⟨S100000x256, .f32⟩
  | 97 => ⟨S_, .f32⟩
  | 98 => ⟨S100000x256, .f32⟩
  | 99 => ⟨S100000x256, .f32⟩
  | 100 => ⟨S1x256x256, .f32⟩
  | 101 => ⟨S256x256, .f32⟩
  | 102 => ⟨S256x256, .f32⟩
  | 103 => ⟨S100000x256, .f32⟩
  | 104 => ⟨S_, .f32⟩
  | 105 => ⟨S100000x256, .f32⟩
  | 106 => ⟨S100000x256, .f32⟩
  | 107 => ⟨S100000x256, .f32⟩
  | 108 => ⟨S_, .f32⟩
  | 109 => ⟨S100000x256, .f32⟩
  | 110 => ⟨S100000x256, .f32⟩
  | 111 => ⟨S256x256, .f32⟩
  | 112 => ⟨S100000x256, .f32⟩
  | 113 => ⟨S1x256, .f32⟩
  | 114 => ⟨S100000x256, .f32⟩
  | 115 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call1_cst : Ref sig .tc := ⟨.hbm, 77, rfl⟩
abbrev main_call1_v0 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_c_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_14 : Ref sig .tc := ⟨.hbm, 97, rfl⟩
abbrev main_v67 : Ref sig .tc := ⟨.hbm, 98, rfl⟩
abbrev main_v68 : Ref sig .tc := ⟨.hbm, 99, rfl⟩
abbrev main_c_15 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_16 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_17 : Ref sig .tc := ⟨.hbm, 112, rfl⟩
abbrev main_v79 : Ref sig .tc := ⟨.hbm, 113, rfl⟩
abbrev main_v80 : Ref sig .tc := ⟨.hbm, 114, rfl⟩
abbrev main_cst_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_19 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_20 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_call2_cst : Ref sig .tc := ⟨.hbm, 130, rfl⟩
abbrev main_call2_v0 : Ref sig .tc := ⟨.hbm, 131, rfl⟩
abbrev main_v93 : Ref sig .tc := ⟨.hbm, 132, rfl⟩
abbrev main_c_21 : Ref sig .tc := ⟨.hbm, 133, rfl⟩
abbrev main_v94 : Ref sig .tc := ⟨.hbm, 134, rfl⟩
abbrev main_v95 : Ref sig .tc := ⟨.hbm, 135, rfl⟩
abbrev main_c_22 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_23 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_c_24 : Ref sig .tc := ⟨.hbm, 150, rfl⟩
abbrev main_v108 : Ref sig .tc := ⟨.hbm, 151, rfl⟩
abbrev main_v109 : Ref sig .tc := ⟨.hbm, 152, rfl⟩
abbrev main_c_25 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_26 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_27 : Ref sig .tc := ⟨.hbm, 165, rfl⟩
abbrev main_v120 : Ref sig .tc := ⟨.hbm, 166, rfl⟩
abbrev main_v121 : Ref sig .tc := ⟨.hbm, 167, rfl⟩
abbrev main_cst_28 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_29 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_30 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_call3_cst : Ref sig .tc := ⟨.hbm, 183, rfl⟩
abbrev main_call3_v0 : Ref sig .tc := ⟨.hbm, 184, rfl⟩
abbrev main_v134 : Ref sig .tc := ⟨.hbm, 185, rfl⟩
abbrev main_c_31 : Ref sig .tc := ⟨.hbm, 186, rfl⟩
abbrev main_v135 : Ref sig .tc := ⟨.hbm, 187, rfl⟩
abbrev main_v136 : Ref sig .tc := ⟨.hbm, 188, rfl⟩
abbrev main_c_32 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_33 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_c_34 : Ref sig .tc := ⟨.hbm, 203, rfl⟩
abbrev main_v149 : Ref sig .tc := ⟨.hbm, 204, rfl⟩
abbrev main_v150 : Ref sig .tc := ⟨.hbm, 205, rfl⟩
abbrev main_c_35 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_cst_36 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_cst_37 : Ref sig .tc := ⟨.hbm, 218, rfl⟩
abbrev main_v161 : Ref sig .tc := ⟨.hbm, 219, rfl⟩
abbrev main_v162 : Ref sig .tc := ⟨.hbm, 220, rfl⟩
abbrev main_cst_38 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_cst_39 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_cst_40 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_call4_cst : Ref sig .tc := ⟨.hbm, 236, rfl⟩
abbrev main_call4_v0 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S300000x1 : S_.BroadcastsInDim S300000x1 (![] : Fin 0 → Fin S300000x1.rank)
  bcast_S_S20000x1 : S_.BroadcastsInDim S20000x1 (![] : Fin 0 → Fin S20000x1.rank)
  bcast_S300000_S300000x1_0 : S300000.BroadcastsInDim S300000x1 (![0] : Fin 1 → Fin S300000x1.rank)
  bcast_S_S300000 : S_.BroadcastsInDim S300000 (![] : Fin 0 → Fin S300000.rank)
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  bcast_S100000x1_S100000x256_0_1 : S100000x1.BroadcastsInDim S100000x256 (![0, 1] : Fin 2 → Fin S100000x256.rank)
  slices_S4x256x256_S1x256x256_0_0_0 : S4x256x256.Slices ![0, 0, 0] S1x256x256
  shapeCasts_S1x256x256_S256x256 : S1x256x256.ShapeCasts S256x256
  slices_S4x256x256_S1x256x256_1_0_0 : S4x256x256.Slices ![1, 0, 0] S1x256x256
  slices_S4x256x256_S1x256x256_2_0_0 : S4x256x256.Slices ![2, 0, 0] S1x256x256
  slices_S4x256x256_S1x256x256_3_0_0 : S4x256x256.Slices ![3, 0, 0] S1x256x256
  dot_S100000x256_S256x256_S100000x256_1_0_0_1_n_n_wf : DotDims.WF S100000x256 S256x256 S100000x256 [1] [0] [0] [1] [] []
  scatter_S20000x1_S300000x1_S300000x1_1_0_0_1_wf : ScatterDims.WF S20000x1 S300000x1 S300000x1 [1] [0] [0] 1
  gather_S100000x256_S300000x1_S300000x256_1_0_n_n_0_1_1256_wf : GatherDims.WF S100000x256 S300000x1 S300000x256 [1] [0] [] [0] [] 1 ![1, 256]
  scatter_S20000x256_S300000x1_S300000x256_1_0_0_1_wf : ScatterDims.WF S20000x256 S300000x1 S300000x256 [1] [0] [0] 1
  gather_S20000x256_S300000x1_S300000x256_1_0_n_n_0_1_1256_wf : GatherDims.WF S20000x256 S300000x1 S300000x256 [1] [0] [] [0] [] 1 ![1, 256]
  scatter_S100000x256_S300000x1_S300000x256_1_0_0_1_wf : ScatterDims.WF S100000x256 S300000x1 S300000x256 [1] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S20000x1_S300000x1_S300000x1_1_0_0_1 : ScatterDims S20000x1 S300000x1 S300000x1 where
  updateWindowDims := [1]
  insertedWindowDims := [0]
  scatterDimsToOperandDims := [0]
  indexVectorDim := 1
  wf := scatter_S20000x1_S300000x1_S300000x1_1_0_0_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S20000x256_S300000x1_S300000x256_1_0_0_1 : ScatterDims S20000x256 S300000x1 S300000x256 where
  updateWindowDims := [1]
  insertedWindowDims := [0]
  scatterDimsToOperandDims := [0]
  indexVectorDim := 1
  wf := scatter_S20000x256_S300000x1_S300000x256_1_0_0_1_wf
def gather_S20000x256_S300000x1_S300000x256_1_0_n_n_0_1_1256 : GatherDims S20000x256 S300000x1 S300000x256 where
  offsetDims := [1]
  collapsedSliceDims := [0]
  operandBatchingDims := []
  startIndicesBatchingDims := []
  startIndexMap := [0]
  indexVectorDim := 1
  sliceSizes := ![1, 256]
  wf := gather_S20000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf

class Facts : Prop extends Facts₀ where

variable [Facts]
-- ==== Proof.KRun.lean ====
/-
  The idealized kernel's run, with its result named: every weakly fair execution of @main terminates, nothing faulting,
  the result array holding what the fold of the program's ten segments (five stretches of host operations, five regions)
  leaves in it, and the arguments as launched. This is the run of the generated frame certificate with the final
  contents of one more buffer read off the last segment boundary.
-/
import proofs.«159773_j77464030151241_2_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run : θ_run defs (onTc (τ := τ) (main (F := F))) ⟨m, fun _ => 0, ρ⟩ (fun r => ∀ c : Dev nD,
      r.2.mem ((c.tc : Thread nD τ).loc main_v127) = W10 m ρ c (Proc.devRef .tc main_v127)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v127 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KRun

end
-- ==== Proof.LibColRow.lean ====
/-
  A vector viewed as a one-column or a one-row matrix, spelt two ways.

  A kernel's wrapper reshapes an `[a]` vector to an `[a, 1]` column (or a `[b]` vector to a `[1, b]` row) before it
  hands it to a kernel; a jnp reference that writes `v[:, None]` or adds a bias row broadcasts the vector in
  dimensions, along axis 0 (or axis 1). Both are the same array: entry `(p, 0)` of the column is `v p`, entry `(0, q)`
  of the row is `v q`. Also here: a column broadcast in dimensions along every row's entries, and a row along every
  row, read at an index written by coordinates (the host's companions of the kernel-side broadcasts of a column and of
  a row).
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` vector broadcast in dimensions along axis 0 of `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A `[b]` vector broadcast in dimensions along axis 1 of `[1, b]` reads, at `(u, q)`, the vector at `q`. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- The column of a vector: the cast to `[a, 1]` is the broadcast in dimensions along axis 0. -/
theorem shapeCast_col_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext i
  obtain ⟨p, u, rfl⟩ : ∃ (p : Fin a) (u : Fin 1), i = ix2 p u := ⟨i 0, i 1, eq_ix2 i⟩
  rw [broadcastInDim_a_a1_apply]
  refine shapeCast_apply x hc _ _ ?_
  have hu : u.val = 0 := by omega
  rw [Shape.rowMajor_val_two, Shape.rowMajor_val_one]
  show p.val = p.val * 1 + u.val
  rw [hu, Nat.mul_one, Nat.add_zero]

/-- The row of a vector: the cast to `[1, b]` is the broadcast in dimensions along axis 1. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext i
  obtain ⟨u, q, rfl⟩ : ∃ (u : Fin 1) (q : Fin b), i = ix2 u q := ⟨i 0, i 1, eq_ix2 i⟩
  rw [broadcastInDim_b_1b_apply, shapeCast_a_1a_apply]

/-- An `[a, 1]` column broadcast in dimensions to `[a, b]` reads, at `(p, q)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast in dimensions to `[a, b]` reads, at `(p, q)`, the row's entry of column `q`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

end Idealize.ShloMosaic.ValueIdx
-- ==== Proof.Agg.lean ====
/-
  One round of message passing, vertices to hyperedges and back, as each program's host operations spell it.

  Both programs gather the rows of X at the incidence pairs' vertices, sum them per hyperedge, scale hyperedge e, gather the
  scaled rows at the pairs' hyperedges and sum them per vertex. They differ only in the scale: the kernel's program
  multiplies the hyperedge sums S by the column d / c computed once (c = max (count, 1) the hyperedge's incidence count,
  d its degree weight); the reference divides S by c and then multiplies by d. On the extended reals
  S · (d / c) = (S / c) · d whenever c ≠ 0, by associativity and commutativity of the product alone, and c ≥ 1 > 0
  whatever the count: no finiteness is used. (The kernel's program also narrows the gathered operands to a shorter float
  format and widens them back: at the exact instance both are the identity.)
-/
import proofs.«159773_j77464030151241_2_alg».proof.Proof.Gen.KernelIdeal
import proofs.«159773_j77464030151241_2_alg».proof.Proof.Gen.ReferenceIdeal
import Idealize.ShloMosaic.PureOps.Ideal.Laws
import Idealize.ShloMosaic.Lib.ValueIdx
import proofs.«159773_j77464030151241_2_alg».proof.Proof.LibColRow

noncomputable section

namespace Cert.Agg

open Idealize.ShloMosaic Idealize.ShloMosaic.ValueIdx

/-- The single-precision word 0x3F800000 denotes 1. -/
theorem ofBits_one : Ideal.ofBits .f32 0x3F800000#32 = ((1 : ℝ) : EReal) := by
  simp [Ideal.ofBits, Ideal.ieee, -EReal.coe_mul]; norm_num

/-- The scale moved across the quotient: S · (d / c) = (S / c) · d for c = max (s, 1). -/
theorem scale_law (S d s : EReal) :
    S * Ideal.div d (max s (Ideal.ofBits .f32 0x3F800000#32)) = Ideal.div S (max s (Ideal.ofBits .f32 0x3F800000#32)) * d := by
  have hc : max s (Ideal.ofBits .f32 0x3F800000#32) ≠ 0 := by
    have h1 : (0 : EReal) < Ideal.ofBits .f32 0x3F800000#32 := by rw [ofBits_one]; exact_mod_cast one_pos
    exact ne_of_gt (lt_of_lt_of_le h1 (le_max_right _ _))
  unfold Ideal.div
  rw [if_neg hc, if_neg hc, ← mul_assoc, mul_right_comm]

section K
open Cert.KernelIdeal Cert.KernelIdeal.Facts₀

/-- A gather's start indices: negative indices wrapped by the axis's extent, as a column. -/
def startK (n : BitVec 32) (v : IVec S300000 32) : IVec S300000x1 32 :=
  broadcastInDim S300000x1 ![0] bcast_S300000_S300000x1_0
    (select (cmpi .slt v (broadcastInDim S300000 ![] bcast_S_S300000 (constantI S_ 32 0#32)))
      (addi v (broadcastInDim S300000 ![] bcast_S_S300000 (constantI S_ 32 n))) v)

/-- The per-hyperedge incidence count, at least one. -/
def cntK (edg : IVec S300000 32) : FVec Ideal S20000x1 .f32 :=
  maximumf
    (Host.scatterAdd scatter_S20000x1_S300000x1_S300000x1_1_0_0_1
      (broadcastInDim S20000x1 ![] bcast_S_S20000x1 (constant (F := Ideal) S_ .f32 0x00000000#32))
      (broadcastInDim S300000x1 ![0] bcast_S300000_S300000x1_0 edg)
      (broadcastInDim S300000x1 ![] bcast_S_S300000x1 (constant (F := Ideal) S_ .f32 0x3F800000#32)))
    (broadcastInDim S20000x1 ![] bcast_S_S20000x1 (constant (F := Ideal) S_ .f32 0x3F800000#32))

/-- The kernel program's hyperedge scale d / c, computed once. -/
def scaleK (edg : IVec S300000 32) (dE : FVec Ideal S20000x1 .f32) :
    FVec Ideal S20000x1 .f32 :=
  Host.divf dE (cntK edg)

/-- The hyperedge sums of the rows of X gathered at the pairs' vertices. -/
def edgeSumK (X : FVec Ideal S100000x256 .bf16) (vtx edg : IVec S300000 32) :
    FVec Ideal S20000x256 .f32 :=
  Host.scatterAdd scatter_S20000x256_S300000x1_S300000x256_1_0_0_1
    (broadcastInDim S20000x256 ![] bcast_S_S20000x256 (constant (F := Ideal) S_ .f32 0x00000000#32))
    (broadcastInDim S300000x1 ![0] bcast_S300000_S300000x1_0 edg)
    (extf .f32 (Host.gather gather_S100000x256_S300000x1_S300000x256_1_0_n_n_0_1_1256 X (startK 100000#32 vtx)) bitsLt_bf16_f32)

/-- The vertex sums of the rows of Y gathered at the pairs' hyperedges. -/
def vertexSumK (Y : FVec Ideal S20000x256 .bf16) (vtx edg : IVec S300000 32) :
    FVec Ideal S100000x256 .f32 :=
  Host.scatterAdd scatter_S100000x256_S300000x1_S300000x256_1_0_0_1
    (broadcastInDim S100000x256 ![] bcast_S_S100000x256 (constant (F := Ideal) S_ .f32 0x00000000#32))
    (broadcastInDim S300000x1 ![0] bcast_S300000_S300000x1_0 vtx)
    (extf .f32 (Host.gather gather_S20000x256_S300000x1_S300000x256_1_0_n_n_0_1_1256 Y (startK 20000#32 edg)) bitsLt_bf16_f32)

/-- The kernel program's round: the raw vertex sums of the scaled hyperedge means. -/
def aggK (X : FVec Ideal S100000x256 .bf16) (vtx edg : IVec S300000 32)
    (sc : FVec Ideal S20000x1 .f32) : FVec Ideal S100000x256 .f32 :=
  vertexSumK (truncf .bf16 (mulf (edgeSumK X vtx edg) (broadcastInDim S20000x256 ![0, 1] bcast_S20000x1_S20000x256_0_1 sc)) bitsLt_bf16_f32) vtx edg

end K

section R
open Cert.ReferenceIdeal Cert.ReferenceIdeal.Facts₀

def startR (n : BitVec 32) (v : IVec S300000 32) : IVec S300000x1 32 :=
  broadcastInDim S300000x1 ![0] bcast_S300000_S300000x1_0
    (select (cmpi .slt v (broadcastInDim S300000 ![] bcast_S_S300000 (constantI S_ 32 0#32)))
      (addi v (broadcastInDim S300000 ![] bcast_S_S300000 (constantI S_ 32 n))) v)

def cntR (edg : IVec S300000 32) : FVec Ideal S20000x1 .f32 :=
  maximumf
    (Host.scatterAdd scatter_S20000x1_S300000x1_S300000x1_1_0_0_1
      (broadcastInDim S20000x1 ![] bcast_S_S20000x1 (constant (F := Ideal) S_ .f32 0x00000000#32))
      (broadcastInDim S300000x1 ![0] bcast_S300000_S300000x1_0 edg)
      (broadcastInDim S300000x1 ![] bcast_S_S300000x1 (constant (F := Ideal) S_ .f32 0x3F800000#32)))
    (broadcastInDim S20000x1 ![] bcast_S_S20000x1 (constant (F := Ideal) S_ .f32 0x3F800000#32))

def edgeSumR (X : FVec Ideal S100000x256 .f32) (vtx edg : IVec S300000 32) :
    FVec Ideal S20000x256 .f32 :=
  Host.scatterAdd scatter_S20000x256_S300000x1_S300000x256_1_0_0_1
    (broadcastInDim S20000x256 ![] bcast_S_S20000x256 (constant (F := Ideal) S_ .f32 0x00000000#32))
    (broadcastInDim S300000x1 ![0] bcast_S300000_S300000x1_0 edg)
    (Host.gather gather_S100000x256_S300000x1_S300000x256_1_0_n_n_0_1_1256 X (startR 100000#32 vtx))

def vertexSumR (Y : FVec Ideal S20000x256 .f32) (vtx edg : IVec S300000 32) :
    FVec Ideal S100000x256 .f32 :=
  Host.scatterAdd scatter_S100000x256_S300000x1_S300000x256_1_0_0_1
    (broadcastInDim S100000x256 ![] bcast_S_S100000x256 (constant (F := Ideal) S_ .f32 0x00000000#32))
    (broadcastInDim S300000x1 ![0] bcast_S300000_S300000x1_0 vtx)
    (Host.gather gather_S20000x256_S300000x1_S300000x256_1_0_n_n_0_1_1256 Y (startR 20000#32 edg))

/-- The reference's round: hyperedge means (the sums over the count), scaled by the degree weight, summed per vertex. -/
def aggR (X : FVec Ideal S100000x256 .f32) (vtx edg : IVec S300000 32)
    (dE : FVec Ideal S20000x1 .f32) : FVec Ideal S100000x256 .f32 :=
  vertexSumR (mulf (Host.divf (edgeSumR X vtx edg) (broadcastInDim S20000x256 ![0, 1] bcast_S20000x1_S20000x256_0_1 (cntR edg)))
    (broadcastInDim S20000x256 ![0, 1] bcast_S20000x1_S20000x256_0_1 dE)) vtx edg

end R

section Compare
open Cert.KernelIdeal

/-- The two programs' counts, hyperedge sums and vertex sums are the same operations (a narrowing or widening of the
    float format is the identity here). -/
theorem cnt_eq (edg : IVec S300000 32) : cntK edg = cntR edg := rfl
theorem edgeSum_eq (X : S100000x256.Idx → EReal) (vtx edg : IVec S300000 32) : edgeSumK X vtx edg = edgeSumR X vtx edg := rfl
theorem vertexSum_eq (Y : S20000x256.Idx → EReal) (vtx edg : IVec S300000 32) : vertexSumK Y vtx edg = vertexSumR Y vtx edg := rfl

/-- The scaled hyperedge sums, entry by entry, over ANY hyperedge sums E and raw counts s: E · (d / max (s, 1)) is
    (E / max (s, 1)) · d. -/
theorem scaled_eq (E : FVec Ideal S20000x256 .f32) (s dE : FVec Ideal S20000x1 .f32) :
    (truncf .bf16 (mulf E (broadcastInDim S20000x256 ![0, 1] Gen.bcast_S20000x1_S20000x256_0_1
        (Host.divf dE (maximumf s (broadcastInDim S20000x1 ![] Gen.bcast_S_S20000x1 (constant (F := Ideal) S_ .f32 0x3F800000#32))))))
      Gen.bitsLt_bf16_f32 : FVec Ideal S20000x256 .bf16)
    = mulf (Host.divf E (broadcastInDim S20000x256 ![0, 1] Gen.bcast_S20000x1_S20000x256_0_1
        (maximumf s (broadcastInDim S20000x1 ![] Gen.bcast_S_S20000x1 (constant (F := Ideal) S_ .f32 0x3F800000#32)))))
      (broadcastInDim S20000x256 ![0, 1] Gen.bcast_S20000x1_S20000x256_0_1 dE) := by
  funext i
  obtain ⟨p, q, rfl⟩ : ∃ (p : Fin 20000) (q : Fin 256), i = ix2 p q := ⟨i 0, i 1, eq_ix2 i⟩
  show E (ix2 p q) * broadcastInDim S20000x256 ![0, 1] Gen.bcast_S20000x1_S20000x256_0_1
        (Host.divf dE (maximumf s (broadcastInDim S20000x1 ![] Gen.bcast_S_S20000x1 (constant (F := Ideal) S_ .f32 0x3F800000#32)))) (ix2 p q)
    = Ideal.div (E (ix2 p q)) (broadcastInDim S20000x256 ![0, 1] Gen.bcast_S20000x1_S20000x256_0_1
        (maximumf s (broadcastInDim S20000x1 ![] Gen.bcast_S_S20000x1 (constant (F := Ideal) S_ .f32 0x3F800000#32))) (ix2 p q))
      * broadcastInDim S20000x256 ![0, 1] Gen.bcast_S20000x1_S20000x256_0_1 dE (ix2 p q)
  rw [broadcastInDim_a1_ab_apply, broadcastInDim_a1_ab_apply, broadcastInDim_a1_ab_apply]
  exact scale_law _ _ _

/-- One round of message passing is the same function of X in both programs: the scale moved across the quotient. -/
theorem agg_eq (X : S100000x256.Idx → EReal) (vtx edg : IVec S300000 32) (dE : FVec Ideal S20000x1 .f32) :
    aggK X vtx edg (scaleK edg dE) = aggR X vtx edg dE := by
  unfold aggK aggR
  rw [vertexSum_eq]
  refine congrArg (fun Y => vertexSumR Y vtx edg) ?_
  exact scaled_eq (edgeSumR X vtx edg) _ dE

end Compare

end Cert.Agg

end
-- ==== Proof.LibDense.lean ====
/-
  Dense layers on the extended reals, index by index.

  A matrix here is a function of a two-coordinate index into the extended reals.  `mm X W` is the
  textbook product: entry (r, j) is the sum over k of X (r, k) * W (k, j).  A matrix unit's product into a zero
  accumulator, read at an output index, is that sum (`matmul_zero_eq`), whatever the formats of the operands
  (a change of float format is the identity on the extended reals); the host's `dot_general` likewise
  (`dotGeneral_eq`).  `ssp` is the shifted softplus as the kernel spells it,
  max z 0 + log1p (exp (0 - |z - 0|)) - log 2 under a guard `z - 0 ≠ z - 0` that never fires on the
  extended reals, and `ssp_host` says that the host's spelling, with a negation in place of the subtraction
  from zero, is the same number.
-/
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx

/-- Entry (r, j) of the product of an [R, K] matrix and a [K, C] matrix: the sum over k of X (r, k) * W (k, j). -/
def mm {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- A product into the zero accumulator, with dimension numbers that contract the left operand's second axis
    with the right operand's first, is `mm` at every output index. -/
theorem matmul_zero_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision)
    (lhs : FVec Ideal ⟨2, ![R, K]⟩ φ₁) (rhs : FVec Ideal ⟨2, ![K, C]⟩ φ₂) (j : (⟨2, ![R, C]⟩ : Shape).Idx) :
    FloatOps.matmul D prec lhs rhs (constant ⟨2, ![R, C]⟩ .f32 0x00000000#32) j = mm lhs rhs j := by
  rw [Ideal.matmul_constant_zero_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- The host's product of the same operands is the same sum. -/
theorem dotGeneral_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (sched : HostSchedule)
    (lhs : FVec Ideal ⟨2, ![R, K]⟩ φ₁) (rhs : FVec Ideal ⟨2, ![K, C]⟩ φ₂) (j : (⟨2, ![R, C]⟩ : Shape).Idx) :
    FloatOps.dotGeneral D prec sched lhs rhs j = mm lhs rhs j := by
  rw [Ideal.dotGeneral_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- Two products agree at two entries when the left operands agree along the two rows and the right operands
    along the two columns. -/
theorem mm_congr {R R' K C C' : Nat} {X : (⟨2, ![R, K]⟩ : Shape).Idx → EReal} {X' : (⟨2, ![R', K]⟩ : Shape).Idx → EReal}
    {W : (⟨2, ![K, C]⟩ : Shape).Idx → EReal} {W' : (⟨2, ![K, C']⟩ : Shape).Idx → EReal}
    (i : (⟨2, ![R, C]⟩ : Shape).Idx) (i' : (⟨2, ![R', C']⟩ : Shape).Idx)
    (hX : ∀ k : Fin K, X (ix2 (i 0) k) = X' (ix2 (i' 0) k))
    (hW : ∀ k : Fin K, W (ix2 k (i 1)) = W' (ix2 k (i' 1))) : mm X W i = mm X' W' i' := by
  unfold mm
  exact Finset.sum_congr rfl fun k _ => by rw [hX k, hW k]

/-- The zero and the shift of the softplus, as the float words both programs spell. -/
abbrev z0 : EReal := Ideal.ofBits .f32 0x00000000#32
abbrev ln2 : EReal := Ideal.ofBits .f32 0x3F317218#32

/-- The shifted softplus of one extended real, in the kernel's spelling. -/
def ssp (z : EReal) : EReal :=
  Scalar.select (Ideal.cmp .one (z - z0) (z - z0)) (z + z0)
    (max z z0 + Ideal.log1p (Ideal.exp (z0 - max (z - z0) (-(z - z0))))) - ln2

/-- The host's spelling: the unordered comparison in the guard (the same comparison on a linear order) and a
    negation where the kernel subtracts from zero. -/
theorem ssp_host (z : EReal) :
    Scalar.select (Ideal.cmp .une (z - z0) (z - z0)) (z + z0)
      (max z z0 + Ideal.log1p (Ideal.exp (-(max (z - z0) (-(z - z0)))))) - ln2 = ssp z := by
  unfold ssp
  have h0 : ∀ a : EReal, z0 - a = -a := fun a => by
    show Ideal.ofBits .f32 0x00000000#32 - a = -a
    rw [Ideal.ofBits_zero_f32, zero_sub]
  rw [h0]
  rfl

/-! ## The layers of the interaction block, entry by entry

  A bias is kept as the [1, C] row both programs hand to the layer; the per-edge distance as an [E, 1] column. -/

/-- The cosine cutoff's constants, as the float words both programs spell: π/10 rounded to f32, one, one half. -/
abbrev kpi : EReal := Ideal.ofBits .f32 0x3EA0D97C#32
abbrev one : EReal := Ideal.ofBits .f32 0x3F800000#32
abbrev half : EReal := Ideal.ofBits .f32 0x3F000000#32

/-- A length-C vector as the [1, C] row a layer takes its bias as, and a length-E vector as an [E, 1] column. -/
def row {C : Nat} (b : (⟨1, ![C]⟩ : Shape).Idx → EReal) : (⟨2, ![1, C]⟩ : Shape).Idx → EReal := fun i => b (ix1 (i 1))
def col {E : Nat} (d : (⟨1, ![E]⟩ : Shape).Idx → EReal) : (⟨2, ![E, 1]⟩ : Shape).Idx → EReal := fun i => d (ix1 (i 0))

/-- A dense layer: entry (r, j) of X · W plus the bias row's entry j. -/
def lin {R K C : Nat} (X : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  fun i => mm X W i + B (ix2 (0 : Fin 1) (i 1))

/-- The cosine cutoff of row r's distance d: one half of (cos (d · π/10) + 1). -/
def cutoff {R : Nat} (D : (⟨2, ![R, 1]⟩ : Shape).Idx → EReal) (r : Fin R) : EReal :=
  half * (Ideal.cos (D (ix2 r (0 : Fin 1)) * kpi) + one)

/-- Two dense layers with the shifted softplus between them. -/
def mlp {R K C C' : Nat} (X : (⟨2, ![R, K]⟩ : Shape).Idx → EReal) (W1 : (⟨2, ![K, C]⟩ : Shape).Idx → EReal)
    (B1 : (⟨2, ![1, C]⟩ : Shape).Idx → EReal) (W2 : (⟨2, ![C, C']⟩ : Shape).Idx → EReal)
    (B2 : (⟨2, ![1, C']⟩ : Shape).Idx → EReal) : (⟨2, ![R, C']⟩ : Shape).Idx → EReal :=
  lin (fun i' => ssp (lin X W1 B1 i')) W2 B2

/-- The edge filter: the two-layer filter network of an edge's features, times the edge's cutoff. -/
def edgeFilter {E K C C' : Nat} (A : (⟨2, ![E, K]⟩ : Shape).Idx → EReal) (D : (⟨2, ![E, 1]⟩ : Shape).Idx → EReal)
    (W1 : (⟨2, ![K, C]⟩ : Shape).Idx → EReal) (B1 : (⟨2, ![1, C]⟩ : Shape).Idx → EReal)
    (W2 : (⟨2, ![C, C']⟩ : Shape).Idx → EReal) (B2 : (⟨2, ![1, C']⟩ : Shape).Idx → EReal) :
    (⟨2, ![E, C']⟩ : Shape).Idx → EReal :=
  fun i => mlp A W1 B1 W2 B2 i * cutoff D (i 0)

/-- Two dense layers agree at an entry when their inputs agree on the entry's row and their weights and biases
    on its column. -/
theorem lin_congr {R R' K C : Nat} {X : (⟨2, ![R, K]⟩ : Shape).Idx → EReal} {X' : (⟨2, ![R', K]⟩ : Shape).Idx → EReal}
    {W W' : (⟨2, ![K, C]⟩ : Shape).Idx → EReal} {B B' : (⟨2, ![1, C]⟩ : Shape).Idx → EReal}
    (i : (⟨2, ![R, C]⟩ : Shape).Idx) (i' : (⟨2, ![R', C]⟩ : Shape).Idx) (h1 : i 1 = i' 1)
    (hX : ∀ k : Fin K, X (ix2 (i 0) k) = X' (ix2 (i' 0) k)) (hW : W = W') (hB : B = B') :
    lin X W B i = lin X' W' B' i' := by
  subst hW hB
  unfold lin mm
  rw [h1]
  exact congrArg (· + B (ix2 (0 : Fin 1) (i' 1))) (Finset.sum_congr rfl fun k _ => by rw [hX k])

end Cert.Dense

end
-- ==== Proof.Spec.lean ====
/-
  The layers of the network, entry by entry, on the extended reals.

  A matrix is a function of a two-coordinate index. `proj` is the input projection max (x · Wt + b, 0); `mix` is the
  initial-residual combination 0.9 · sv · dv + 0.1 · x0 of a raw vertex sum sv, the row's degree scale dv and the anchor
  x0; `layer` is the identity-mapping update max (c1 · xi + c2 · (xi · Wt), 0) of xi = mix sv x0 dv; `fin` is the last
  update followed by the output projection. Every entry of row r of each of them depends only on row r of the row-indexed
  operands: the congruence lemmas say so, which is what lets a block of rows be computed from the block's rows alone.
-/
import Idealize.ShloMosaic.Lib.ValueIdx
import Idealize.ShloMosaic.PureOps.Ideal.Laws
import proofs.«159773_j77464030151241_2_alg».proof.Proof.LibDense

noncomputable section

namespace Cert.Spec

open Idealize.ShloMosaic Idealize.ShloMosaic.ValueIdx Cert.Dense

abbrev Mat (R C : Nat) := (⟨2, ![R, C]⟩ : Shape).Idx → EReal

abbrev zero : EReal := Ideal.ofBits .f32 0x00000000#32
abbrev c90 : EReal := Ideal.ofBits .f32 0x3F666666#32
abbrev c10 : EReal := Ideal.ofBits .f32 0x3DCCCCCD#32

/-- The input projection: max (x · Wt + b, 0). -/
def proj {R : Nat} (x : Mat R 256) (wt : Mat 256 256) (b : Mat 1 256) : Mat R 256 :=
  fun i => max (lin x wt b i) zero

/-- The initial-residual combination: (0.9 · sv) · dv + 0.1 · x0, the degree scale one entry per row. -/
def mix {R : Nat} (sv x0 : Mat R 256) (dv : Mat R 1) : Mat R 256 :=
  fun i => c90 * sv i * dv (ix2 (i 0) (0 : Fin 1)) + c10 * x0 i

/-- The identity-mapping update: max (c1 · xi + c2 · (xi · Wt), 0) of xi = mix sv x0 dv. -/
def layer {R : Nat} (c1 c2 : EReal) (sv x0 : Mat R 256) (dv : Mat R 1) (wt : Mat 256 256) : Mat R 256 :=
  fun i => max (c1 * mix sv x0 dv i + c2 * mm (mix sv x0 dv) wt i) zero

/-- The last update followed by the output projection. -/
def fin {R : Nat} (c1 c2 : EReal) (sv x0 : Mat R 256) (dv : Mat R 1) (wt wout : Mat 256 256) (b : Mat 1 256) : Mat R 256 :=
  lin (layer c1 c2 sv x0 dv wt) wout b

theorem proj_congr {R R' : Nat} {x : Mat R 256} {x' : Mat R' 256} {wt : Mat 256 256} {b : Mat 1 256}
    (i : (⟨2, ![R, 256]⟩ : Shape).Idx) (i' : (⟨2, ![R', 256]⟩ : Shape).Idx) (h1 : i 1 = i' 1)
    (hx : ∀ k : Fin 256, x (ix2 (i 0) k) = x' (ix2 (i' 0) k)) : proj x wt b i = proj x' wt b i' := by
  unfold proj
  rw [lin_congr i i' h1 hx rfl rfl]

theorem mix_congr {R R' : Nat} {sv x0 : Mat R 256} {dv : Mat R 1} {sv' x0' : Mat R' 256} {dv' : Mat R' 1}
    (p : Fin R) (p' : Fin R')
    (hsv : ∀ k : Fin 256, sv (ix2 p k) = sv' (ix2 p' k)) (hx0 : ∀ k : Fin 256, x0 (ix2 p k) = x0' (ix2 p' k))
    (hdv : dv (ix2 p (0 : Fin 1)) = dv' (ix2 p' (0 : Fin 1))) (k : Fin 256) :
    mix sv x0 dv (ix2 p k) = mix sv' x0' dv' (ix2 p' k) := by
  unfold mix
  rw [hsv k, hx0 k]
  show c90 * sv' (ix2 p' k) * dv (ix2 p (0 : Fin 1)) + c10 * x0' (ix2 p' k) = c90 * sv' (ix2 p' k) * dv' (ix2 p' (0 : Fin 1)) + c10 * x0' (ix2 p' k)
  rw [hdv]

theorem layer_congr {R R' : Nat} {c1 c2 : EReal} {sv x0 : Mat R 256} {dv : Mat R 1} {sv' x0' : Mat R' 256} {dv' : Mat R' 1}
    {wt : Mat 256 256} (p : Fin R) (p' : Fin R')
    (hsv : ∀ k : Fin 256, sv (ix2 p k) = sv' (ix2 p' k)) (hx0 : ∀ k : Fin 256, x0 (ix2 p k) = x0' (ix2 p' k))
    (hdv : dv (ix2 p (0 : Fin 1)) = dv' (ix2 p' (0 : Fin 1))) (k : Fin 256) :
    layer c1 c2 sv x0 dv wt (ix2 p k) = layer c1 c2 sv' x0' dv' wt (ix2 p' k) := by
  unfold layer
  rw [mix_congr p p' hsv hx0 hdv k,
    mm_congr (X := mix sv x0 dv) (X' := mix sv' x0' dv') (W := wt) (W' := wt) (ix2 p k) (ix2 p' k)
      (fun j => mix_congr p p' hsv hx0 hdv j) (fun _ => rfl)]

theorem fin_congr {R R' : Nat} {c1 c2 : EReal} {sv x0 : Mat R 256} {dv : Mat R 1} {sv' x0' : Mat R' 256} {dv' : Mat R' 1}
    {wt wout : Mat 256 256} {b : Mat 1 256} (p : Fin R) (p' : Fin R')
    (hsv : ∀ k : Fin 256, sv (ix2 p k) = sv' (ix2 p' k)) (hx0 : ∀ k : Fin 256, x0 (ix2 p k) = x0' (ix2 p' k))
    (hdv : dv (ix2 p (0 : Fin 1)) = dv' (ix2 p' (0 : Fin 1))) (k : Fin 256) :
    fin c1 c2 sv x0 dv wt wout b (ix2 p k) = fin c1 c2 sv' x0' dv' wt wout b (ix2 p' k) := by
  unfold fin
  exact lin_congr (ix2 p k) (ix2 p' k) rfl (fun j => layer_congr p p' hsv hx0 hdv j) rfl rfl

end Cert.Spec

end
-- ==== Proof.Net.lean ====
/-
  The whole network as the kernel program computes it, as one function of the ten arguments: the input projection, the
  hyperedge scale, four rounds of message passing each followed by the layer's update, and the output projection fused
  into the last update. The weights reach the layers transposed, the biases as one-row matrices.
-/
import proofs.«159773_j77464030151241_2_alg».proof.Proof.Gen.KernelIdeal
import proofs.«159773_j77464030151241_2_alg».proof.Proof.Agg
import proofs.«159773_j77464030151241_2_alg».proof.Proof.Spec

noncomputable section

namespace Cert.Net

open Cert.KernelIdeal Cert.KernelIdeal.Gen Cert.Agg
open Idealize.ShloMosaic

/-- A square weight, transposed. -/
def tr (w : FVec Ideal S256x256 .f32) : FVec Ideal S256x256 .f32 :=
  transpose S256x256 [1, 0] w transposes_S256x256_S256x256_1_0

/-- A bias vector as a one-row matrix. -/
def rs (b : FVec Ideal S256 .f32) : FVec Ideal S1x256 .f32 :=
  shapeCast S1x256 b shapeCasts_S256_S1x256

/-- Layer 1's weight: slice 0 of the stacked weights, as a matrix, transposed. -/
def wl0 (w : FVec Ideal S4x256x256 .f32) : FVec Ideal S256x256 .f32 :=
  transpose S256x256 [1, 0] (shapeCast S256x256 (extractStridedSlice S1x256x256 ![0, 0, 0] w slices_S4x256x256_S1x256x256_0_0_0) shapeCasts_S1x256x256_S256x256) transposes_S256x256_S256x256_1_0

/-- Layer 2's weight: slice 1 of the stacked weights, as a matrix, transposed. -/
def wl1 (w : FVec Ideal S4x256x256 .f32) : FVec Ideal S256x256 .f32 :=
  transpose S256x256 [1, 0] (shapeCast S256x256 (extractStridedSlice S1x256x256 ![1, 0, 0] w slices_S4x256x256_S1x256x256_1_0_0) shapeCasts_S1x256x256_S256x256) transposes_S256x256_S256x256_1_0

/-- Layer 3's weight: slice 2 of the stacked weights, as a matrix, transposed. -/
def wl2 (w : FVec Ideal S4x256x256 .f32) : FVec Ideal S256x256 .f32 :=
  transpose S256x256 [1, 0] (shapeCast S256x256 (extractStridedSlice S1x256x256 ![2, 0, 0] w slices_S4x256x256_S1x256x256_2_0_0) shapeCasts_S1x256x256_S256x256) transposes_S256x256_S256x256_1_0

/-- Layer 4's weight: slice 3 of the stacked weights, as a matrix, transposed. -/
def wl3 (w : FVec Ideal S4x256x256 .f32) : FVec Ideal S256x256 .f32 :=
  transpose S256x256 [1, 0] (shapeCast S256x256 (extractStridedSlice S1x256x256 ![3, 0, 0] w slices_S4x256x256_S1x256x256_3_0_0) shapeCasts_S1x256x256_S256x256) transposes_S256x256_S256x256_1_0

/-- The input projection of the arguments. -/
def X0 (x0 : FVec Ideal S100000x256 .f32) (x1 x2 : IVec S300000 32) (x3 : FVec Ideal S100000x1 .f32) (x4 : FVec Ideal S20000x1 .f32) (x5 : FVec Ideal S256x256 .f32) (x6 : FVec Ideal S256 .f32) (x7 : FVec Ideal S4x256x256 .f32) (x8 : FVec Ideal S256x256 .f32) (x9 : FVec Ideal S256 .f32) : Spec.Mat 100000 256 := Spec.proj x0 (tr x5) (rs x6)
/-- The hyperedge scale. -/
def SC (x0 : FVec Ideal S100000x256 .f32) (x1 x2 : IVec S300000 32) (x3 : FVec Ideal S100000x1 .f32) (x4 : FVec Ideal S20000x1 .f32) (x5 : FVec Ideal S256x256 .f32) (x6 : FVec Ideal S256 .f32) (x7 : FVec Ideal S4x256x256 .f32) (x8 : FVec Ideal S256x256 .f32) (x9 : FVec Ideal S256 .f32) : FVec Ideal S20000x1 .f32 := scaleK x2 x4
/-- One round of message passing of X. -/
def round (x0 : FVec Ideal S100000x256 .f32) (x1 x2 : IVec S300000 32) (x3 : FVec Ideal S100000x1 .f32) (x4 : FVec Ideal S20000x1 .f32) (x5 : FVec Ideal S256x256 .f32) (x6 : FVec Ideal S256 .f32) (x7 : FVec Ideal S4x256x256 .f32) (x8 : FVec Ideal S256x256 .f32) (x9 : FVec Ideal S256 .f32) (X : Spec.Mat 100000 256) : Spec.Mat 100000 256 := aggK X x1 x2 (SC x0 x1 x2 x3 x4 x5 x6 x7 x8 x9)
def X1 (x0 : FVec Ideal S100000x256 .f32) (x1 x2 : IVec S300000 32) (x3 : FVec Ideal S100000x1 .f32) (x4 : FVec Ideal S20000x1 .f32) (x5 : FVec Ideal S256x256 .f32) (x6 : FVec Ideal S256 .f32) (x7 : FVec Ideal S4x256x256 .f32) (x8 : FVec Ideal S256x256 .f32) (x9 : FVec Ideal S256 .f32) : Spec.Mat 100000 256 :=
  Spec.layer (Ideal.ofBits .f32 0x3F183370#32) (Ideal.ofBits .f32 0x3ECF991F#32) (round x0 x1 x2 x3 x4 x5 x6 x7 x8 x9 (X0 x0 x1 x2 x3 x4 x5 x6 x7 x8 x9)) (X0 x0 x1 x2 x3 x4 x5 x6 x7 x8 x9) x3 (wl0 x7)
def X2 (x0 : FVec Ideal S100000x256 .f32) (x1 x2 : IVec S300000 32) (x3 : FVec Ideal S100000x1 .f32) (x4 : FVec Ideal S20000x1 .f32) (x5 : FVec Ideal S256x256 .f32) (x6 : FVec Ideal S256 .f32) (x7 : FVec Ideal S4x256x256 .f32) (x8 : FVec Ideal S256x256 .f32) (x9 : FVec Ideal S256 .f32) : Spec.Mat 100000 256 :=
  Spec.layer (Ideal.ofBits .f32 0x3F46E010#32) (Ideal.ofBits .f32 0x3E647FBE#32) (round x0 x1 x2 x3 x4 x5 x6 x7 x8 x9 (X1 x0 x1 x2 x3 x4 x5 x6 x7 x8 x9)) (X0 x0 x1 x2 x3 x4 x5 x6 x7 x8 x9) x3 (wl1 x7)
def X3 (x0 : FVec Ideal S100000x256 .f32) (x1 x2 : IVec S300000 32) (x3 : FVec Ideal S100000x1 .f32) (x4 : FVec Ideal S20000x1 .f32) (x5 : FVec Ideal S256x256 .f32) (x6 : FVec Ideal S256 .f32) (x7 : FVec Ideal S4x256x256 .f32) (x8 : FVec Ideal S256x256 .f32) (x9 : FVec Ideal S256 .f32) : Spec.Mat 100000 256 :=
  Spec.layer (Ideal.ofBits .f32 0x3F588995#32) (Ideal.ofBits .f32 0x3E1DD9AD#32) (round x0 x1 x2 x3 x4 x5 x6 x7 x8 x9 (X2 x0 x1 x2 x3 x4 x5 x6 x7 x8 x9)) (X0 x0 x1 x2 x3 x4 x5 x6 x7 x8 x9) x3 (wl2 x7)
/-- The program's result. -/
def OUT (x0 : FVec Ideal S100000x256 .f32) (x1 x2 : IVec S300000 32) (x3 : FVec Ideal S100000x1 .f32) (x4 : FVec Ideal S20000x1 .f32) (x5 : FVec Ideal S256x256 .f32) (x6 : FVec Ideal S256 .f32) (x7 : FVec Ideal S4x256x256 .f32) (x8 : FVec Ideal S256x256 .f32) (x9 : FVec Ideal S256 .f32) : Spec.Mat 100000 256 :=
  Spec.fin (Ideal.ofBits .f32 0x3F61D8F9#32) (Ideal.ofBits .f32 0x3DF1383B#32) (round x0 x1 x2 x3 x4 x5 x6 x7 x8 x9 (X3 x0 x1 x2 x3 x4 x5 x6 x7 x8 x9)) (X0 x0 x1 x2 x3 x4 x5 x6 x7 x8 x9) x3
    (wl3 x7) (tr x8) (rs x9)

end Cert.Net

end
-- ==== Proof.HostOps.lean ====
/-
  The kernel program's five stretches of host operations, each read as a function of the buffer contents it starts from:
  the transposed weights and the bias rows before the first region; one round of message passing (and, in the first
  stretch, the hyperedge scale) and the layer's transposed weight before each later region; and the buffers a stretch
  does not write, which keep their contents.
-/
import proofs.«159773_j77464030151241_2_alg».proof.Proof.Gen.KernelIdeal.Launch
import proofs.«159773_j77464030151241_2_alg».proof.Proof.Agg
import proofs.«159773_j77464030151241_2_alg».proof.Proof.Net
import Idealize.ShloMosaic.Lib.StableHlo.Run

set_option maxRecDepth 16384

noncomputable section

namespace Cert.HostOps

open Cert.KernelIdeal Cert.KernelIdeal.Gen Cert.Agg Cert.Net
open Idealize.ShloMosaic Idealize.ShloMosaic.TcCoe Idealize.ShloMosaic.StableHlo Idealize.SL.Sem

/-- A buffer none of a stretch's operations writes keeps its contents. -/
macro "unwritten" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

variable (W : Valuation τ sig (Elt Ideal))

/-! ## Before the first region -/

theorem s0_v0 : StableHlo.after (hostOps0 (F := Ideal)) W (Proc.devRef .tc main_v0) = tr (W (Proc.devRef .tc main_arg5)) := by
  after_results; rfl
theorem s0_v1 : StableHlo.after (hostOps0 (F := Ideal)) W (Proc.devRef .tc main_v1) = tr (W (Proc.devRef .tc main_arg8)) := by
  after_results; rfl
theorem s0_v2 : StableHlo.after (hostOps0 (F := Ideal)) W (Proc.devRef .tc main_v2) = rs (W (Proc.devRef .tc main_arg6)) := by
  after_results; rfl
theorem s0_v3 : StableHlo.after (hostOps0 (F := Ideal)) W (Proc.devRef .tc main_v3) = rs (W (Proc.devRef .tc main_arg9)) := by
  after_results; rfl
theorem s0_main_arg0 : StableHlo.after (hostOps0 (F := Ideal)) W (Proc.devRef .tc main_arg0) = W (Proc.devRef .tc main_arg0) := by
  unwritten hostOps0
theorem s0_main_arg1 : StableHlo.after (hostOps0 (F := Ideal)) W (Proc.devRef .tc main_arg1) = W (Proc.devRef .tc main_arg1) := by
  unwritten hostOps0
theorem s0_main_arg2 : StableHlo.after (hostOps0 (F := Ideal)) W (Proc.devRef .tc main_arg2) = W (Proc.devRef .tc main_arg2) := by
  unwritten hostOps0
theorem s0_main_arg3 : StableHlo.after (hostOps0 (F := Ideal)) W (Proc.devRef .tc main_arg3) = W (Proc.devRef .tc main_arg3) := by
  unwritten hostOps0
theorem s0_main_arg4 : StableHlo.after (hostOps0 (F := Ideal)) W (Proc.devRef .tc main_arg4) = W (Proc.devRef .tc main_arg4) := by
  unwritten hostOps0
theorem s0_main_arg7 : StableHlo.after (hostOps0 (F := Ideal)) W (Proc.devRef .tc main_arg7) = W (Proc.devRef .tc main_arg7) := by
  unwritten hostOps0

/-! ## Before region 1 -/

theorem s1_sv : StableHlo.after (hostOps1 (F := Ideal)) W (Proc.devRef .tc main_v36)
    = aggK (W (Proc.devRef .tc main_v4_1)) (W (Proc.devRef .tc main_arg1)) (W (Proc.devRef .tc main_arg2)) (scaleK (W (Proc.devRef .tc main_arg2)) (W (Proc.devRef .tc main_arg4))) := by
  after_results_simp; rfl
theorem s1_wt : StableHlo.after (hostOps1 (F := Ideal)) W (Proc.devRef .tc main_v39) = wl0 (W (Proc.devRef .tc main_arg7)) := by
  after_results_simp; rfl
theorem s1_v11 : StableHlo.after (hostOps1 (F := Ideal)) W (Proc.devRef .tc main_v11) = scaleK (W (Proc.devRef .tc main_arg2)) (W (Proc.devRef .tc main_arg4)) := by
  after_results_simp; rfl
theorem s1_main_arg1 : StableHlo.after (hostOps1 (F := Ideal)) W (Proc.devRef .tc main_arg1) = W (Proc.devRef .tc main_arg1) := by
  unwritten hostOps1
theorem s1_main_arg2 : StableHlo.after (hostOps1 (F := Ideal)) W (Proc.devRef .tc main_arg2) = W (Proc.devRef .tc main_arg2) := by
  unwritten hostOps1
theorem s1_main_arg3 : StableHlo.after (hostOps1 (F := Ideal)) W (Proc.devRef .tc main_arg3) = W (Proc.devRef .tc main_arg3) := by
  unwritten hostOps1
theorem s1_main_arg7 : StableHlo.after (hostOps1 (F := Ideal)) W (Proc.devRef .tc main_arg7) = W (Proc.devRef .tc main_arg7) := by
  unwritten hostOps1
theorem s1_main_v1 : StableHlo.after (hostOps1 (F := Ideal)) W (Proc.devRef .tc main_v1) = W (Proc.devRef .tc main_v1) := by
  unwritten hostOps1
theorem s1_main_v3 : StableHlo.after (hostOps1 (F := Ideal)) W (Proc.devRef .tc main_v3) = W (Proc.devRef .tc main_v3) := by
  unwritten hostOps1
theorem s1_main_v4_0 : StableHlo.after (hostOps1 (F := Ideal)) W (Proc.devRef .tc main_v4_0) = W (Proc.devRef .tc main_v4_0) := by
  unwritten hostOps1

/-! ## Before region 2 -/

theorem s2_sv : StableHlo.after (hostOps2 (F := Ideal)) W (Proc.devRef .tc main_v65)
    = aggK (W (Proc.devRef .tc main_v40)) (W (Proc.devRef .tc main_arg1)) (W (Proc.devRef .tc main_arg2)) (W (Proc.devRef .tc main_v11)) := by
  after_results_simp; rfl
theorem s2_wt : StableHlo.after (hostOps2 (F := Ideal)) W (Proc.devRef .tc main_v68) = wl1 (W (Proc.devRef .tc main_arg7)) := by
  after_results_simp; rfl
theorem s2_main_arg1 : StableHlo.after (hostOps2 (F := Ideal)) W (Proc.devRef .tc main_arg1) = W (Proc.devRef .tc main_arg1) := by
  unwritten hostOps2
theorem s2_main_arg2 : StableHlo.after (hostOps2 (F := Ideal)) W (Proc.devRef .tc main_arg2) = W (Proc.devRef .tc main_arg2) := by
  unwritten hostOps2
theorem s2_main_arg3 : StableHlo.after (hostOps2 (F := Ideal)) W (Proc.devRef .tc main_arg3) = W (Proc.devRef .tc main_arg3) := by
  unwritten hostOps2
theorem s2_main_arg7 : StableHlo.after (hostOps2 (F := Ideal)) W (Proc.devRef .tc main_arg7) = W (Proc.devRef .tc main_arg7) := by
  unwritten hostOps2
theorem s2_main_v1 : StableHlo.after (hostOps2 (F := Ideal)) W (Proc.devRef .tc main_v1) = W (Proc.devRef .tc main_v1) := by
  unwritten hostOps2
theorem s2_main_v3 : StableHlo.after (hostOps2 (F := Ideal)) W (Proc.devRef .tc main_v3) = W (Proc.devRef .tc main_v3) := by
  unwritten hostOps2
theorem s2_main_v4_0 : StableHlo.after (hostOps2 (F := Ideal)) W (Proc.devRef .tc main_v4_0) = W (Proc.devRef .tc main_v4_0) := by
  unwritten hostOps2
theorem s2_main_v11 : StableHlo.after (hostOps2 (F := Ideal)) W (Proc.devRef .tc main_v11) = W (Proc.devRef .tc main_v11) := by
  unwritten hostOps2

/-! ## Before region 3 -/

theorem s3_sv : StableHlo.after (hostOps3 (F := Ideal)) W (Proc.devRef .tc main_v94)
    = aggK (W (Proc.devRef .tc main_v69)) (W (Proc.devRef .tc main_arg1)) (W (Proc.devRef .tc main_arg2)) (W (Proc.devRef .tc main_v11)) := by
  after_results_simp; rfl
theorem s3_wt : StableHlo.after (hostOps3 (F := Ideal)) W (Proc.devRef .tc main_v97) = wl2 (W (Proc.devRef .tc main_arg7)) := by
  after_results_simp; rfl
theorem s3_main_arg1 : StableHlo.after (hostOps3 (F := Ideal)) W (Proc.devRef .tc main_arg1) = W (Proc.devRef .tc main_arg1) := by
  unwritten hostOps3
theorem s3_main_arg2 : StableHlo.after (hostOps3 (F := Ideal)) W (Proc.devRef .tc main_arg2) = W (Proc.devRef .tc main_arg2) := by
  unwritten hostOps3
theorem s3_main_arg3 : StableHlo.after (hostOps3 (F := Ideal)) W (Proc.devRef .tc main_arg3) = W (Proc.devRef .tc main_arg3) := by
  unwritten hostOps3
theorem s3_main_arg7 : StableHlo.after (hostOps3 (F := Ideal)) W (Proc.devRef .tc main_arg7) = W (Proc.devRef .tc main_arg7) := by
  unwritten hostOps3
theorem s3_main_v1 : StableHlo.after (hostOps3 (F := Ideal)) W (Proc.devRef .tc main_v1) = W (Proc.devRef .tc main_v1) := by
  unwritten hostOps3
theorem s3_main_v3 : StableHlo.after (hostOps3 (F := Ideal)) W (Proc.devRef .tc main_v3) = W (Proc.devRef .tc main_v3) := by
  unwritten hostOps3
theorem s3_main_v4_0 : StableHlo.after (hostOps3 (F := Ideal)) W (Proc.devRef .tc main_v4_0) = W (Proc.devRef .tc main_v4_0) := by
  unwritten hostOps3
theorem s3_main_v11 : StableHlo.after (hostOps3 (F := Ideal)) W (Proc.devRef .tc main_v11) = W (Proc.devRef .tc main_v11) := by
  unwritten hostOps3

/-! ## Before region 4 -/

theorem s4_sv : StableHlo.after (hostOps4 (F := Ideal)) W (Proc.devRef .tc main_v123)
    = aggK (W (Proc.devRef .tc main_v98)) (W (Proc.devRef .tc main_arg1)) (W (Proc.devRef .tc main_arg2)) (W (Proc.devRef .tc main_v11)) := by
  after_results_simp; rfl
theorem s4_wt : StableHlo.after (hostOps4 (F := Ideal)) W (Proc.devRef .tc main_v126) = wl3 (W (Proc.devRef .tc main_arg7)) := by
  after_results_simp; rfl
theorem s4_main_arg1 : StableHlo.after (hostOps4 (F := Ideal)) W (Proc.devRef .tc main_arg1) = W (Proc.devRef .tc main_arg1) := by
  unwritten hostOps4
theorem s4_main_arg2 : StableHlo.after (hostOps4 (F := Ideal)) W (Proc.devRef .tc main_arg2) = W (Proc.devRef .tc main_arg2) := by
  unwritten hostOps4
theorem s4_main_arg3 : StableHlo.after (hostOps4 (F := Ideal)) W (Proc.devRef .tc main_arg3) = W (Proc.devRef .tc main_arg3) := by
  unwritten hostOps4
theorem s4_main_arg7 : StableHlo.after (hostOps4 (F := Ideal)) W (Proc.devRef .tc main_arg7) = W (Proc.devRef .tc main_arg7) := by
  unwritten hostOps4
theorem s4_main_v1 : StableHlo.after (hostOps4 (F := Ideal)) W (Proc.devRef .tc main_v1) = W (Proc.devRef .tc main_v1) := by
  unwritten hostOps4
theorem s4_main_v3 : StableHlo.after (hostOps4 (F := Ideal)) W (Proc.devRef .tc main_v3) = W (Proc.devRef .tc main_v3) := by
  unwritten hostOps4
theorem s4_main_v4_0 : StableHlo.after (hostOps4 (F := Ideal)) W (Proc.devRef .tc main_v4_0) = W (Proc.devRef .tc main_v4_0) := by
  unwritten hostOps4
theorem s4_main_v11 : StableHlo.after (hostOps4 (F := Ideal)) W (Proc.devRef .tc main_v11) = W (Proc.devRef .tc main_v11) := by
  unwritten hostOps4

end Cert.HostOps

end
-- ==== Proof.LibLayoutCol.lean ====
/-
  Two layout operations read at an index written by coordinates, for a column kept after a reduction along the
  rows' second axis: a vector of length a viewed as an [a, 1] column, and an [a, 1] column repeated along b columns.
  They complete the leading-unit-axis forms of the library's ValueLayout file.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Region0.lean ====
/-
  What the input-projection region leaves in its two output arrays.

  The region's grid has 25 points; point t stages rows 4000 t … 4000 t + 3999 of x [100000, 256], the whole transposed
  weight [256, 256] and the whole bias row [1, 256], and writes back one [4000, 256] block to each of two output arrays:
  max (block · Wt + b, 0), once as computed and once in the narrower float format. On the extended reals a change of float
  format is the identity and the matrix unit's product into a zero accumulator is the plain sum over k, so the body's
  arithmetic on a block is the specification's projection of that block (`pay1_eq`, `pay2_eq`). A row of the projection
  depends only on the same row of x, so the block computed at point t is block t of the projection of the whole arrays
  (`flushed3_eq`, `flushed4_eq`); the 25 blocks tile the 100000 rows (row r lies in block r / 4000: `cover3`,
  `cover4`), hence after the last point each output array is the projection of the arrays the region found
  (`final3`, `final4`), for any contents V of the buffers at the region's entry.
-/
import proofs.«159773_j77464030151241_2_alg».proof.Proof.Gen.KernelIdeal.Frame
import proofs.«159773_j77464030151241_2_alg».proof.Proof.Spec
import proofs.«159773_j77464030151241_2_alg».proof.Proof.LibLayoutCol
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.Region0

open Cert.KernelIdeal Cert.KernelIdeal.Gen Idealize.ShloMosaic Idealize.ShloMosaic.TcCoe Idealize.SL.Sem
open Idealize.ShloMosaic.ValueIdx
open Idealize.ShloMosaic.Pipeline (Dat)

/-- The product's dimension record read by coordinates: the left index is (output row, k), the right (k, output column). -/
theorem dot_l0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem dot_l1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
theorem dot_r0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
theorem dot_r1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- The body's arithmetic on one block, entry by entry: the projection of the block. The changes of float format and the
    casts to the same shape are the identity, the product into the zero accumulator is the sum over k, the bias row is
    repeated down the rows, and the last step is the maximum with zero. -/
theorem pay1_eq (v0 : Vec Ideal S4000x256 .f32) (v2 : Vec Ideal S256x256 .f32) (v6 : Vec Ideal S1x256 .f32) :
    (k0_pay1 (F := Ideal) v0 v2 v6 : S4000x256.Idx → EReal) = Cert.Spec.proj v0 v2 v6 := by
  funext j
  obtain ⟨p, q, rfl⟩ : ∃ (p : Fin 4000) (q : Fin 256), j = ix2 p q := ⟨j 0, j 1, eq_ix2 j⟩
  unfold k0_pay1
  simp only [shapeCast_self, matmul]
  rw [maximumf_apply, addf_apply, broadcastTo_1b_ab_apply, broadcast_apply]
  rw [Cert.Dense.matmul_zero_eq dot_S4000x256_S256x256_S4000x256_1_0_0_1_n_n rfl rfl dot_l0 dot_l1 dot_r0 dot_r1]
  rfl

/-- The second stored value is the first in the narrower format: the same extended reals. -/
theorem pay2_eq (v0 : Vec Ideal S4000x256 .f32) (v2 : Vec Ideal S256x256 .f32) (v6 : Vec Ideal S1x256 .f32) :
    (k0_pay2 (F := Ideal) v0 v2 v6 : S4000x256.Idx → EReal) = Cert.Spec.proj v0 v2 v6 := by
  unfold k0_pay2
  rw [← pay1_eq]
  rfl

variable (V : (c : Dev nD) → (b : Ref sig .tc) → Buf (Elt Ideal) ((c : Thread nD τ).loc b))

theorem hz : (![0, 0] : Fin 2 → Nat) = fun _ => 0 := funext fun a => by fin_cases a <;> rfl

/-- The index maps over the grid's 25 points: the row-blocked windows sit at block (t, 0), the whole-array ones at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of the block of x at point t is row 4000 t + p of x. -/
theorem iblk_x (c : Dev nD) (t : Fin cfg0.N) (y : S4000x256.Idx) (i : S100000x256.Idx)
    (h0 : (i 0).val = t.val * 4000 + (y 0).val) (h1 : (i 1).val = (y 1).val) :
    (iblk0 V c 0 t : S4000x256.Idx → EReal) y = (V c (Pipeline.arrRef spec0 0) : S100000x256.Idx → EReal) i := by
  obtain ⟨e0, e1, -⟩ := idx_facts t
  unfold iblk0
  rw [View.read_apply]
  have e : (((cfg0.win 0).blk t).view.emb y : S100000x256.Idx) = i := by
    funext a
    apply Fin.ext
    match a with
    | ⟨0, _⟩ => show win0_0.index t (0 : Fin 2) * 4000 + 1 * (y 0).val = (i 0).val; omega
    | ⟨1, _⟩ => show win0_0.index t (1 : Fin 2) * 256 + 1 * (y 1).val = (i 1).val; omega
  exact congrArg (V c (Pipeline.arrRef spec0 0) : S100000x256.Idx → EReal) e

/-- The weight's block at every point is the whole weight. -/
theorem iblk_w (c : Dev nD) (t : Fin cfg0.N) :
    (iblk0 V c 1 t : S256x256.Idx → EReal) = (V c (Pipeline.arrRef spec0 1) : S256x256.Idx → EReal) := by
  obtain ⟨-, -, e0, e1, -⟩ := idx_facts t
  funext y
  unfold iblk0
  rw [View.read_apply]
  have e : (((cfg0.win 1).blk t).view.emb y : S256x256.Idx) = y := by
    funext a
    apply Fin.ext
    match a with
    | ⟨0, _⟩ => show win0_1.index t (0 : Fin 2) * 256 + 1 * (y 0).val = (y 0).val; omega
    | ⟨1, _⟩ => show win0_1.index t (1 : Fin 2) * 256 + 1 * (y 1).val = (y 1).val; omega
  exact congrArg (V c (Pipeline.arrRef spec0 1) : S256x256.Idx → EReal) e

/-- The bias row's block at every point is the whole row. -/
theorem iblk_b (c : Dev nD) (t : Fin cfg0.N) :
    (iblk0 V c 2 t : S1x256.Idx → EReal) = (V c (Pipeline.arrRef spec0 2) : S1x256.Idx → EReal) := by
  obtain ⟨-, -, -, -, e0, e1, -⟩ := idx_facts t
  funext y
  unfold iblk0
  rw [View.read_apply]
  have e : (((cfg0.win 2).blk t).view.emb y : S1x256.Idx) = y := by
    funext a
    apply Fin.ext
    match a with
    | ⟨0, _⟩ => show win0_2.index t (0 : Fin 2) * 1 + 1 * (y 0).val = (y 0).val; omega
    | ⟨1, _⟩ => show win0_2.index t (1 : Fin 2) * 256 + 1 * (y 1).val = (y 1).val; omega
  exact congrArg (V c (Pipeline.arrRef spec0 2) : S1x256.Idx → EReal) e

/-- Over variables: when a block x0 holds rows 4000 n, … of X and the other two operands are whole, the projection of the
    block at (p, q) is the projection of X at (4000 n + p, q): a row of the result needs only that row of x. -/
theorem blk_proj (X : S100000x256.Idx → EReal) (W : S256x256.Idx → EReal) (B : S1x256.Idx → EReal)
    (x0 : S4000x256.Idx → EReal) (x1 : S256x256.Idx → EReal) (x2 : S1x256.Idx → EReal) (n : Nat)
    (h0 : ∀ (y : S4000x256.Idx) (i : S100000x256.Idx), (i 0).val = n * 4000 + (y 0).val → (i 1).val = (y 1).val → x0 y = X i)
    (h1 : x1 = W) (h2 : x2 = B)
    (y : S4000x256.Idx) (i : S100000x256.Idx) (hi0 : (i 0).val = n * 4000 + (y 0).val) (hi1 : (i 1).val = (y 1).val) :
    Cert.Spec.proj x0 x1 x2 y = Cert.Spec.proj X W B i := by
  subst h1 h2
  exact Cert.Spec.proj_congr y i (Fin.ext hi1.symm) (fun k => h0 (ix2 (y 0) k) (ix2 (i 0) k) hi0 rfl)

theorem pay1_blk (X : S100000x256.Idx → EReal) (W : S256x256.Idx → EReal) (B : S1x256.Idx → EReal)
    (x0 : Vec Ideal S4000x256 .f32) (x1 : Vec Ideal S256x256 .f32) (x2 : Vec Ideal S1x256 .f32) (n : Nat)
    (h0 : ∀ (y : S4000x256.Idx) (i : S100000x256.Idx), (i 0).val = n * 4000 + (y 0).val → (i 1).val = (y 1).val → x0 y = X i)
    (h1 : x1 = W) (h2 : x2 = B)
    (y : S4000x256.Idx) (i : S100000x256.Idx) (hi0 : (i 0).val = n * 4000 + (y 0).val) (hi1 : (i 1).val = (y 1).val) :
    (k0_pay1 (F := Ideal) x0 x1 x2 : S4000x256.Idx → EReal) y = Cert.Spec.proj X W B i := by
  rw [pay1_eq]
  exact blk_proj X W B x0 x1 x2 n h0 h1 h2 y i hi0 hi1

theorem pay2_blk (X : S100000x256.Idx → EReal) (W : S256x256.Idx → EReal) (B : S1x256.Idx → EReal)
    (x0 : Vec Ideal S4000x256 .f32) (x1 : Vec Ideal S256x256 .f32) (x2 : Vec Ideal S1x256 .f32) (n : Nat)
    (h0 : ∀ (y : S4000x256.Idx) (i : S100000x256.Idx), (i 0).val = n * 4000 + (y 0).val → (i 1).val = (y 1).val → x0 y = X i)
    (h1 : x1 = W) (h2 : x2 = B)
    (y : S4000x256.Idx) (i : S100000x256.Idx) (hi0 : (i 0).val = n * 4000 + (y 0).val) (hi1 : (i 1).val = (y 1).val) :
    (k0_pay2 (F := Ideal) x0 x1 x2 : S4000x256.Idx → EReal) y = Cert.Spec.proj X W B i := by
  rw [pay2_eq]
  exact blk_proj X W B x0 x1 x2 n h0 h1 h2 y i hi0 hi1

/-- The projection of the three arrays as the region finds them. -/
abbrev G (c : Dev nD) : S100000x256.Idx → EReal :=
  Cert.Spec.proj (V c (Pipeline.arrRef spec0 0) : S100000x256.Idx → EReal) (V c (Pipeline.arrRef spec0 1) : S256x256.Idx → EReal)
    (V c (Pipeline.arrRef spec0 2) : S1x256.Idx → EReal)

/-- What point t writes back to the first output is block t of the projection. -/
theorem flushed3_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S4000x256) hz, View.ld_unit_zero (S := S256x256) hz, View.ld_unit_zero (S := S1x256) hz]
  obtain ⟨-, -, -, -, -, -, e0, e1, -⟩ := idx_facts t
  funext y
  refine pay1_blk _ _ _ (iblk0 V c 0 t) (iblk0 V c 1 t) (iblk0 V c 2 t) t.val (iblk_x V c t) (iblk_w V c t) (iblk_b V c t) y
    (((cfg0.win 3).blk t).view.emb y) ?_ ?_
  · show win0_3.index t (0 : Fin 2) * 4000 + 1 * (y 0).val = _; omega
  · show win0_3.index t (1 : Fin 2) * 256 + 1 * (y 1).val = _; omega

/-- What point t writes back to the second output is block t of the projection. -/
theorem flushed4_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S4000x256) hz, View.ld_unit_zero (S := S256x256) hz, View.ld_unit_zero (S := S1x256) hz]
  obtain ⟨-, -, -, -, -, -, -, -, e0, e1⟩ := idx_facts t
  funext y
  refine pay2_blk _ _ _ (iblk0 V c 0 t) (iblk0 V c 1 t) (iblk0 V c 2 t) t.val (iblk_x V c t) (iblk_w V c t) (iblk_b V c t) y
    (((cfg0.win 4).blk t).view.emb y) ?_ ?_
  · show win0_4.index t (0 : Fin 2) * 4000 + 1 * (y 0).val = _; omega
  · show win0_4.index t (1 : Fin 2) * 256 + 1 * (y 1).val = _; omega

/-- An index of the array is in point t's block iff each coordinate is in the block's range on its axis. -/
theorem mem_blk3 (t : Fin cfg0.N) (i : S100000x256.Idx) :
    i ∈ ((cfg0.win 3).blk t).view.set ↔ ∀ a : Fin 2, win0_3.index t a * S4000x256.size a ≤ (i a).val ∧ (i a).val < win0_3.index t a * S4000x256.size a + S4000x256.size a := by
  show i ∈ ((View.whole main_v4_0).slice (win0_3.rect t)).set ↔ _
  rw [View.set_slice_whole, Rect.mem_set_unit]
  exact Iff.rfl

theorem mem_blk4 (t : Fin cfg0.N) (i : S100000x256.Idx) :
    i ∈ ((cfg0.win 4).blk t).view.set ↔ ∀ a : Fin 2, win0_4.index t a * S4000x256.size a ≤ (i a).val ∧ (i a).val < win0_4.index t a * S4000x256.size a + S4000x256.size a := by
  show i ∈ ((View.whole main_v4_1).slice (win0_4.rect t)).set ↔ _
  rw [View.set_slice_whole, Rect.mem_set_unit]
  exact Iff.rfl

/-- Row r is in the block of point r / 4000. -/
theorem cover3 (i : S100000x256.Idx) : ∃ t : Fin cfg0.N, (cfg0.win 3).flush t = true ∧ i ∈ ((cfg0.win 3).blk t).view.set := by
  have hi0 : (i 0).val < 100000 := (i 0).isLt
  have hi1 : (i 1).val < 256 := (i 1).isLt
  obtain ⟨t, ht⟩ : ∃ t : Fin cfg0.N, t.val = (i 0).val / 4000 :=
    ⟨⟨(i 0).val / 4000, by show _ < grid0.N; rw [N_0]; omega⟩, rfl⟩
  obtain ⟨-, -, -, -, -, -, e0, e1, -⟩ := idx_facts t
  refine ⟨t, flush0_3 t, ?_⟩
  rw [mem_blk3]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 256 ≤ (i 1).val ∧ (i 1).val < win0_3.index t (1 : Fin 2) * 256 + 256; omega

theorem cover4 (i : S100000x256.Idx) : ∃ t : Fin cfg0.N, (cfg0.win 4).flush t = true ∧ i ∈ ((cfg0.win 4).blk t).view.set := by
  have hi0 : (i 0).val < 100000 := (i 0).isLt
  have hi1 : (i 1).val < 256 := (i 1).isLt
  obtain ⟨t, ht⟩ : ∃ t : Fin cfg0.N, t.val = (i 0).val / 4000 :=
    ⟨⟨(i 0).val / 4000, by show _ < grid0.N; rw [N_0]; omega⟩, rfl⟩
  obtain ⟨-, -, -, -, -, -, -, -, e0, e1⟩ := idx_facts t
  refine ⟨t, flush0_4 t, ?_⟩
  rw [mem_blk4]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 256 ≤ (i 1).val ∧ (i 1).val < win0_4.index t (1 : Fin 2) * 256 + 256; omega

/-- After the region, the first output array is the projection of the arrays the region found. -/
theorem final3 (c : Dev nD) : ((dat0 V c).arrAt 3 cfg0.N : S100000x256.Idx → EReal)
    = Cert.Spec.proj (V c (Pipeline.arrRef spec0 0) : S100000x256.Idx → EReal) (V c (Pipeline.arrRef spec0 1) : S256x256.Idx → EReal)
        (V c (Pipeline.arrRef spec0 2) : S1x256.Idx → EReal) :=
  (dat0 V c).arrAt_eq_of_cover 3 (G V c) (fun t _ => flushed3_eq V c t) cover3

/-- After the region, the second output array, in the narrower format, is the same projection. -/
theorem final4 (c : Dev nD) : ((dat0 V c).arrAt 4 cfg0.N : S100000x256.Idx → EReal)
    = Cert.Spec.proj (V c (Pipeline.arrRef spec0 0) : S100000x256.Idx → EReal) (V c (Pipeline.arrRef spec0 1) : S256x256.Idx → EReal)
        (V c (Pipeline.arrRef spec0 2) : S1x256.Idx → EReal) :=
  (dat0 V c).arrAt_eq_of_cover 4 (G V c) (fun t _ => flushed4_eq V c t) cover4

end Cert.Region0

end
-- ==== Proof.Region1.lean ====
/-
  What region 1 (the identity-mapping update of layer 1) leaves in its output array: one function of the arrays it
  finds on entry. The body's one store holds, at row p and column k of a block of 2000 rows,
  max (c1 · xi + c2 · (xi · Wt), 0) with xi = (0.9 · sv) · dv + 0.1 · x0 over the block's own rows; the block written at grid
  point t is rows 2000 t … 2000 t + 1999 of the same expression over the whole arrays, because row r of the update depends
  only on row r of sv, x0 and dv; and the fifty blocks tile the array.
-/
import proofs.«159773_j77464030151241_2_alg».proof.Proof.Gen.KernelIdeal.Frame
import proofs.«159773_j77464030151241_2_alg».proof.Proof.Spec
import proofs.«159773_j77464030151241_2_alg».proof.Proof.LibLayoutCol
import Idealize.ShloMosaic.Lib.Pipeline.Value
import Idealize.ShloMosaic.Lib.ValueLayout

set_option maxRecDepth 16384

noncomputable section

namespace Cert.Region1

open Cert.KernelIdeal Cert.KernelIdeal.Gen
open Idealize.ShloMosaic Idealize.ShloMosaic.TcCoe Idealize.ShloMosaic.ValueIdx Idealize.SL.Sem
open Cert.Dense Cert.Spec

/-- The two mixing constants of this layer, as the float words the body spells. -/
abbrev c1 : EReal := Ideal.ofBits .f32 0x3F183370#32
abbrev c2 : EReal := Ideal.ofBits .f32 0x3ECF991F#32

local notation "D" => dot_S2000x256_S256x256_S2000x256_1_0_0_1_n_n

theorem l0 (i : S2000x256.Idx) (q : (D).contr.Idx) : ((D).lhsIdx i q 0).val = (i 0).val := by
  unfold DotDims.lhsIdx
  rw [dif_neg (show ¬(0 : Fin S2000x256.rank) ∈ (D).lhsBatch by decide), dif_pos (show (0 : Fin S2000x256.rank) ∈ (D).lhsNonContracting by decide)]
  rfl
theorem l1 (i : S2000x256.Idx) (q : (D).contr.Idx) : ((D).lhsIdx i q 1).val = (q ⟨0, by decide⟩).val :=
  (D).lhsIdx_val_of_single rfl i q
theorem r0 (i : S2000x256.Idx) (q : (D).contr.Idx) : ((D).rhsIdx i q 0).val = (q ⟨0, by decide⟩).val :=
  (D).rhsIdx_val_of_single rfl i q
theorem r1 (i : S2000x256.Idx) (q : (D).contr.Idx) : ((D).rhsIdx i q 1).val = (i 1).val := by
  unfold DotDims.rhsIdx
  rw [dif_neg (show ¬(1 : Fin S256x256.rank) ∈ (D).rhsBatch by decide), dif_pos (show (1 : Fin S256x256.rank) ∈ (D).rhsNonContracting by decide)]
  rfl

/-- The residual combination as the body spells it. -/
def xiK (v0 v2 : Vec Ideal S2000x256 .f32) (v4 : Vec Ideal S2000x1 .f32) : FVec Ideal S2000x256 .f32 :=
  addf (mulf (mulf (broadcast S2000x256 (Scalar.ofBits .f32 0x3F666666#32)) v0) (broadcastTo S2000x256 v4 broadcasts_S2000x1_S2000x256))
    (mulf (broadcast S2000x256 (Scalar.ofBits .f32 0x3DCCCCCD#32)) v2)

theorem xiK_eq (v0 v2 : Vec Ideal S2000x256 .f32) (v4 : Vec Ideal S2000x1 .f32) : xiK v0 v2 v4 = Spec.mix v0 v2 v4 := by
  funext j
  obtain ⟨p, q, rfl⟩ : ∃ (p : Fin 2000) (q : Fin 256), j = ix2 p q := ⟨j 0, j 1, eq_ix2 j⟩
  unfold xiK Spec.mix
  show Spec.c90 * v0 (ix2 p q) * (broadcastTo S2000x256 v4 broadcasts_S2000x1_S2000x256 (ix2 p q)) + Spec.c10 * v2 (ix2 p q) = _
  rw [broadcastTo_a1_ab_apply]

/-- The body's payload is the update of the block's own rows. -/
theorem pay_eq (v0 v2 : Vec Ideal S2000x256 .f32) (v4 : Vec Ideal S2000x1 .f32) (v13 : Vec Ideal S256x256 .f32) :
    k1_pay1 (F := Ideal) v0 v2 v4 v13 = Spec.layer c1 c2 v0 v2 v4 v13 := by
  funext j
  unfold k1_pay1
  simp only [shapeCast_self]
  change max (c1 * xiK v0 v2 v4 j + c2 * FloatOps.matmul (F := Ideal) (φ₁ := .bf16) (φ₂ := .bf16) (D) none (xiK v0 v2 v4) v13 (constant S2000x256 .f32 0x00000000#32) j) Spec.zero = _
  rw [Dense.matmul_zero_eq (D) rfl rfl l0 l1 r0 r1, xiK_eq]
  rfl

variable (V : (c : Dev nD) → (b : Ref sig .tc) → Buf (Elt Ideal) ((c : Thread nD τ).loc b))

theorem hz : (![0, 0] : Fin 2 → Nat) = fun _ => 0 := funext fun a => by fin_cases a <;> rfl

/-- The update over the whole arrays as the region finds them. -/
def G (c : Dev nD) : S100000x256.Idx → EReal :=
  Spec.layer c1 c2 (V c main_v36) (V c main_v4_0) (V c main_arg3) (V c main_v39)

/-- The printed index maps, decided over the grid: the row-blocked windows sit at block t, the weights at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the update over the whole arrays. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S2000x256) hz, View.ld_unit_zero (S := S2000x1) hz, View.ld_unit_zero (S := S256x256) hz]
  rw [pay_eq]
  obtain ⟨e00, e01, e10, e11, e20, e21, e30, e31, e40, e41⟩ := idx_facts t
  have ht : t.val < 50 := t.isLt
  have hw : iblk1 V c 3 t = V c main_v39 := by
    funext y
    show V c main_v39 (((cfg1.win 3).blk t).view.emb y) = V c main_v39 y
    refine congrArg _ (funext fun a => Fin.ext ?_)
    match a with
    | ⟨0, _⟩ => show win1_3.index t (0 : Fin 2) * 256 + 1 * (y 0).val = (y 0).val; omega
    | ⟨1, _⟩ => show win1_3.index t (1 : Fin 2) * 256 + 1 * (y 1).val = (y 1).val; omega
  rw [hw]
  funext j
  obtain ⟨p, q, rfl⟩ : ∃ (p : Fin 2000) (q : Fin 256), j = ix2 p q := ⟨j 0, j 1, eq_ix2 j⟩
  have hp : p.val < 2000 := p.isLt
  have hq : q.val < 256 := q.isLt
  let P : Fin 100000 := ⟨t.val * 2000 + p.val, by omega⟩
  have hemb : ((cfg1.win 4).blk t).view.emb (ix2 p q) = (ix2 P q : S100000x256.Idx) := by
    funext a; apply Fin.ext
    match a with
    | ⟨0, _⟩ => show win1_4.index t (0 : Fin 2) * 2000 + 1 * p.val = t.val * 2000 + p.val; omega
    | ⟨1, _⟩ => show win1_4.index t (1 : Fin 2) * 256 + 1 * q.val = q.val; omega
  show Spec.layer c1 c2 (iblk1 V c 0 t) (iblk1 V c 1 t) (iblk1 V c 2 t) (V c main_v39) (ix2 p q) = G V c (((cfg1.win 4).blk t).view.emb (ix2 p q))
  rw [hemb]
  unfold G
  refine Spec.layer_congr p P (fun k => ?_) (fun k => ?_) ?_ q
  · show V c main_v36 (((cfg1.win 0).blk t).view.emb (ix2 p k)) = V c main_v36 (ix2 P k)
    refine congrArg _ (funext fun a => Fin.ext ?_)
    have hk : k.val < 256 := k.isLt
    match a with
    | ⟨0, _⟩ => show win1_0.index t (0 : Fin 2) * 2000 + 1 * p.val = t.val * 2000 + p.val; omega
    | ⟨1, _⟩ => show win1_0.index t (1 : Fin 2) * 256 + 1 * k.val = k.val; omega
  · show V c main_v4_0 (((cfg1.win 1).blk t).view.emb (ix2 p k)) = V c main_v4_0 (ix2 P k)
    refine congrArg _ (funext fun a => Fin.ext ?_)
    have hk : k.val < 256 := k.isLt
    match a with
    | ⟨0, _⟩ => show win1_1.index t (0 : Fin 2) * 2000 + 1 * p.val = t.val * 2000 + p.val; omega
    | ⟨1, _⟩ => show win1_1.index t (1 : Fin 2) * 256 + 1 * k.val = k.val; omega
  · show V c main_arg3 (((cfg1.win 2).blk t).view.emb (ix2 p (0 : Fin 1))) = V c main_arg3 (ix2 P (0 : Fin 1))
    refine congrArg _ (funext fun a => Fin.ext ?_)
    match a with
    | ⟨0, _⟩ => show win1_2.index t (0 : Fin 2) * 2000 + 1 * p.val = t.val * 2000 + p.val; omega
    | ⟨1, _⟩ => show win1_2.index t (1 : Fin 2) * 1 + 1 * 0 = 0; omega

/-- An index of the array is in point t's block iff each coordinate is in the block's range on its axis. -/
theorem mem_blk (t : Fin cfg1.N) (i : S100000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v40).slice (win1_4.rect t)).set ↔ _
  rw [View.set_slice_whole, Rect.mem_set_unit]
  exact Iff.rfl

/-- Row r lies in the block of point r / 2000. -/
theorem cover (i : S100000x256.Idx) :
    ∃ t : Fin cfg1.N, (cfg1.win 4).flush t = true ∧ i ∈ ((cfg1.win 4).blk t).view.set := by
  have hi0 : (i 0).val < 100000 := (i 0).isLt
  have hi1 : (i 1).val < 256 := (i 1).isLt
  let t : Fin cfg1.N := ⟨(i 0).val / 2000, by show (i 0).val / 2000 < 50; omega⟩
  obtain ⟨e00, e01, e10, e11, e20, e21, e30, e31, e40, e41⟩ := idx_facts t
  have htv : t.val = (i 0).val / 2000 := rfl
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- The array after the region: the update over the whole arrays. -/
theorem final (c : Dev nD) : (dat1 V c).arrAt 4 cfg1.N = G V c :=
  (dat1 V c).arrAt_eq_of_cover 4 (G V c) (fun t _ => flushed_eq V c t) cover

end Cert.Region1

end
-- ==== Proof.Region2.lean ====
/-
  What region 2 (the identity-mapping update of layer 2) leaves in its output array: one function of the arrays it
  finds on entry. The body's one store holds, at row p and column k of a block of 2000 rows,
  max (c1 · xi + c2 · (xi · Wt), 0) with xi = (0.9 · sv) · dv + 0.1 · x0 over the block's own rows; the block written at grid
  point t is rows 2000 t … 2000 t + 1999 of the same expression over the whole arrays, because row r of the update depends
  only on row r of sv, x0 and dv; and the fifty blocks tile the array.
-/
import proofs.«159773_j77464030151241_2_alg».proof.Proof.Gen.KernelIdeal.Frame
import proofs.«159773_j77464030151241_2_alg».proof.Proof.Spec
import proofs.«159773_j77464030151241_2_alg».proof.Proof.LibLayoutCol
import Idealize.ShloMosaic.Lib.Pipeline.Value
import Idealize.ShloMosaic.Lib.ValueLayout

set_option maxRecDepth 16384

noncomputable section

namespace Cert.Region2

open Cert.KernelIdeal Cert.KernelIdeal.Gen
open Idealize.ShloMosaic Idealize.ShloMosaic.TcCoe Idealize.ShloMosaic.ValueIdx Idealize.SL.Sem
open Cert.Dense Cert.Spec

/-- The two mixing constants of this layer, as the float words the body spells. -/
abbrev c1 : EReal := Ideal.ofBits .f32 0x3F46E010#32
abbrev c2 : EReal := Ideal.ofBits .f32 0x3E647FBE#32

local notation "D" => dot_S2000x256_S256x256_S2000x256_1_0_0_1_n_n

theorem l0 (i : S2000x256.Idx) (q : (D).contr.Idx) : ((D).lhsIdx i q 0).val = (i 0).val := by
  unfold DotDims.lhsIdx
  rw [dif_neg (show ¬(0 : Fin S2000x256.rank) ∈ (D).lhsBatch by decide), dif_pos (show (0 : Fin S2000x256.rank) ∈ (D).lhsNonContracting by decide)]
  rfl
theorem l1 (i : S2000x256.Idx) (q : (D).contr.Idx) : ((D).lhsIdx i q 1).val = (q ⟨0, by decide⟩).val :=
  (D).lhsIdx_val_of_single rfl i q
theorem r0 (i : S2000x256.Idx) (q : (D).contr.Idx) : ((D).rhsIdx i q 0).val = (q ⟨0, by decide⟩).val :=
  (D).rhsIdx_val_of_single rfl i q
theorem r1 (i : S2000x256.Idx) (q : (D).contr.Idx) : ((D).rhsIdx i q 1).val = (i 1).val := by
  unfold DotDims.rhsIdx
  rw [dif_neg (show ¬(1 : Fin S256x256.rank) ∈ (D).rhsBatch by decide), dif_pos (show (1 : Fin S256x256.rank) ∈ (D).rhsNonContracting by decide)]
  rfl

/-- The residual combination as the body spells it. -/
def xiK (v0 v2 : Vec Ideal S2000x256 .f32) (v4 : Vec Ideal S2000x1 .f32) : FVec Ideal S2000x256 .f32 :=
  addf (mulf (mulf (broadcast S2000x256 (Scalar.ofBits .f32 0x3F666666#32)) v0) (broadcastTo S2000x256 v4 broadcasts_S2000x1_S2000x256))
    (mulf (broadcast S2000x256 (Scalar.ofBits .f32 0x3DCCCCCD#32)) v2)

theorem xiK_eq (v0 v2 : Vec Ideal S2000x256 .f32) (v4 : Vec Ideal S2000x1 .f32) : xiK v0 v2 v4 = Spec.mix v0 v2 v4 := by
  funext j
  obtain ⟨p, q, rfl⟩ : ∃ (p : Fin 2000) (q : Fin 256), j = ix2 p q := ⟨j 0, j 1, eq_ix2 j⟩
  unfold xiK Spec.mix
  show Spec.c90 * v0 (ix2 p q) * (broadcastTo S2000x256 v4 broadcasts_S2000x1_S2000x256 (ix2 p q)) + Spec.c10 * v2 (ix2 p q) = _
  rw [broadcastTo_a1_ab_apply]

/-- The body's payload is the update of the block's own rows. -/
theorem pay_eq (v0 v2 : Vec Ideal S2000x256 .f32) (v4 : Vec Ideal S2000x1 .f32) (v13 : Vec Ideal S256x256 .f32) :
    k2_pay1 (F := Ideal) v0 v2 v4 v13 = Spec.layer c1 c2 v0 v2 v4 v13 := by
  funext j
  unfold k2_pay1
  simp only [shapeCast_self]
  change max (c1 * xiK v0 v2 v4 j + c2 * FloatOps.matmul (F := Ideal) (φ₁ := .bf16) (φ₂ := .bf16) (D) none (xiK v0 v2 v4) v13 (constant S2000x256 .f32 0x00000000#32) j) Spec.zero = _
  rw [Dense.matmul_zero_eq (D) rfl rfl l0 l1 r0 r1, xiK_eq]
  rfl

variable (V : (c : Dev nD) → (b : Ref sig .tc) → Buf (Elt Ideal) ((c : Thread nD τ).loc b))

theorem hz : (![0, 0] : Fin 2 → Nat) = fun _ => 0 := funext fun a => by fin_cases a <;> rfl

/-- The update over the whole arrays as the region finds them. -/
def G (c : Dev nD) : S100000x256.Idx → EReal :=
  Spec.layer c1 c2 (V c main_v65) (V c main_v4_0) (V c main_arg3) (V c main_v68)

/-- The printed index maps, decided over the grid: the row-blocked windows sit at block t, the weights at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the update over the whole arrays. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S2000x256) hz, View.ld_unit_zero (S := S2000x1) hz, View.ld_unit_zero (S := S256x256) hz]
  rw [pay_eq]
  obtain ⟨e00, e01, e10, e11, e20, e21, e30, e31, e40, e41⟩ := idx_facts t
  have ht : t.val < 50 := t.isLt
  have hw : iblk2 V c 3 t = V c main_v68 := by
    funext y
    show V c main_v68 (((cfg2.win 3).blk t).view.emb y) = V c main_v68 y
    refine congrArg _ (funext fun a => Fin.ext ?_)
    match a with
    | ⟨0, _⟩ => show win2_3.index t (0 : Fin 2) * 256 + 1 * (y 0).val = (y 0).val; omega
    | ⟨1, _⟩ => show win2_3.index t (1 : Fin 2) * 256 + 1 * (y 1).val = (y 1).val; omega
  rw [hw]
  funext j
  obtain ⟨p, q, rfl⟩ : ∃ (p : Fin 2000) (q : Fin 256), j = ix2 p q := ⟨j 0, j 1, eq_ix2 j⟩
  have hp : p.val < 2000 := p.isLt
  have hq : q.val < 256 := q.isLt
  let P : Fin 100000 := ⟨t.val * 2000 + p.val, by omega⟩
  have hemb : ((cfg2.win 4).blk t).view.emb (ix2 p q) = (ix2 P q : S100000x256.Idx) := by
    funext a; apply Fin.ext
    match a with
    | ⟨0, _⟩ => show win2_4.index t (0 : Fin 2) * 2000 + 1 * p.val = t.val * 2000 + p.val; omega
    | ⟨1, _⟩ => show win2_4.index t (1 : Fin 2) * 256 + 1 * q.val = q.val; omega
  show Spec.layer c1 c2 (iblk2 V c 0 t) (iblk2 V c 1 t) (iblk2 V c 2 t) (V c main_v68) (ix2 p q) = G V c (((cfg2.win 4).blk t).view.emb (ix2 p q))
  rw [hemb]
  unfold G
  refine Spec.layer_congr p P (fun k => ?_) (fun k => ?_) ?_ q
  · show V c main_v65 (((cfg2.win 0).blk t).view.emb (ix2 p k)) = V c main_v65 (ix2 P k)
    refine congrArg _ (funext fun a => Fin.ext ?_)
    have hk : k.val < 256 := k.isLt
    match a with
    | ⟨0, _⟩ => show win2_0.index t (0 : Fin 2) * 2000 + 1 * p.val = t.val * 2000 + p.val; omega
    | ⟨1, _⟩ => show win2_0.index t (1 : Fin 2) * 256 + 1 * k.val = k.val; omega
  · show V c main_v4_0 (((cfg2.win 1).blk t).view.emb (ix2 p k)) = V c main_v4_0 (ix2 P k)
    refine congrArg _ (funext fun a => Fin.ext ?_)
    have hk : k.val < 256 := k.isLt
    match a with
    | ⟨0, _⟩ => show win2_1.index t (0 : Fin 2) * 2000 + 1 * p.val = t.val * 2000 + p.val; omega
    | ⟨1, _⟩ => show win2_1.index t (1 : Fin 2) * 256 + 1 * k.val = k.val; omega
  · show V c main_arg3 (((cfg2.win 2).blk t).view.emb (ix2 p (0 : Fin 1))) = V c main_arg3 (ix2 P (0 : Fin 1))
    refine congrArg _ (funext fun a => Fin.ext ?_)
    match a with
    | ⟨0, _⟩ => show win2_2.index t (0 : Fin 2) * 2000 + 1 * p.val = t.val * 2000 + p.val; omega
    | ⟨1, _⟩ => show win2_2.index t (1 : Fin 2) * 1 + 1 * 0 = 0; omega

/-- An index of the array is in point t's block iff each coordinate is in the block's range on its axis. -/
theorem mem_blk (t : Fin cfg2.N) (i : S100000x256.Idx) :
    i ∈ ((cfg2.win 4).blk t).view.set ↔ ∀ a : Fin 2, win2_4.index t a * S2000x256.size a ≤ (i a).val ∧ (i a).val < win2_4.index t a * S2000x256.size a + S2000x256.size a := by
  show i ∈ ((View.whole main_v69).slice (win2_4.rect t)).set ↔ _
  rw [View.set_slice_whole, Rect.mem_set_unit]
  exact Iff.rfl

/-- Row r lies in the block of point r / 2000. -/
theorem cover (i : S100000x256.Idx) :
    ∃ t : Fin cfg2.N, (cfg2.win 4).flush t = true ∧ i ∈ ((cfg2.win 4).blk t).view.set := by
  have hi0 : (i 0).val < 100000 := (i 0).isLt
  have hi1 : (i 1).val < 256 := (i 1).isLt
  let t : Fin cfg2.N := ⟨(i 0).val / 2000, by show (i 0).val / 2000 < 50; omega⟩
  obtain ⟨e00, e01, e10, e11, e20, e21, e30, e31, e40, e41⟩ := idx_facts t
  have htv : t.val = (i 0).val / 2000 := rfl
  refine ⟨t, flush2_4 t, ?_⟩
  rw [mem_blk]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 256 ≤ (i 1).val ∧ (i 1).val < win2_4.index t (1 : Fin 2) * 256 + 256; omega

/-- The array after the region: the update over the whole arrays. -/
theorem final (c : Dev nD) : (dat2 V c).arrAt 4 cfg2.N = G V c :=
  (dat2 V c).arrAt_eq_of_cover 4 (G V c) (fun t _ => flushed_eq V c t) cover

end Cert.Region2

end
-- ==== Proof.Region3.lean ====
/-
  What region 3 (the identity-mapping update of layer 3) leaves in its output array: one function of the arrays it
  finds on entry. The body's one store holds, at row p and column k of a block of 2000 rows,
  max (c1 · xi + c2 · (xi · Wt), 0) with xi = (0.9 · sv) · dv + 0.1 · x0 over the block's own rows; the block written at grid
  point t is rows 2000 t … 2000 t + 1999 of the same expression over the whole arrays, because row r of the update depends
  only on row r of sv, x0 and dv; and the fifty blocks tile the array.
-/
import proofs.«159773_j77464030151241_2_alg».proof.Proof.Gen.KernelIdeal.Frame
import proofs.«159773_j77464030151241_2_alg».proof.Proof.Spec
import proofs.«159773_j77464030151241_2_alg».proof.Proof.LibLayoutCol
import Idealize.ShloMosaic.Lib.Pipeline.Value
import Idealize.ShloMosaic.Lib.ValueLayout

set_option maxRecDepth 16384

noncomputable section

namespace Cert.Region3

open Cert.KernelIdeal Cert.KernelIdeal.Gen
open Idealize.ShloMosaic Idealize.ShloMosaic.TcCoe Idealize.ShloMosaic.ValueIdx Idealize.SL.Sem
open Cert.Dense Cert.Spec

/-- The two mixing constants of this layer, as the float words the body spells. -/
abbrev c1 : EReal := Ideal.ofBits .f32 0x3F588995#32
abbrev c2 : EReal := Ideal.ofBits .f32 0x3E1DD9AD#32

local notation "D" => dot_S2000x256_S256x256_S2000x256_1_0_0_1_n_n

theorem l0 (i : S2000x256.Idx) (q : (D).contr.Idx) : ((D).lhsIdx i q 0).val = (i 0).val := by
  unfold DotDims.lhsIdx
  rw [dif_neg (show ¬(0 : Fin S2000x256.rank) ∈ (D).lhsBatch by decide), dif_pos (show (0 : Fin S2000x256.rank) ∈ (D).lhsNonContracting by decide)]
  rfl
theorem l1 (i : S2000x256.Idx) (q : (D).contr.Idx) : ((D).lhsIdx i q 1).val = (q ⟨0, by decide⟩).val :=
  (D).lhsIdx_val_of_single rfl i q
theorem r0 (i : S2000x256.Idx) (q : (D).contr.Idx) : ((D).rhsIdx i q 0).val = (q ⟨0, by decide⟩).val :=
  (D).rhsIdx_val_of_single rfl i q
theorem r1 (i : S2000x256.Idx) (q : (D).contr.Idx) : ((D).rhsIdx i q 1).val = (i 1).val := by
  unfold DotDims.rhsIdx
  rw [dif_neg (show ¬(1 : Fin S256x256.rank) ∈ (D).rhsBatch by decide), dif_pos (show (1 : Fin S256x256.rank) ∈ (D).rhsNonContracting by decide)]
  rfl

/-- The residual combination as the body spells it. -/
def xiK (v0 v2 : Vec Ideal S2000x256 .f32) (v4 : Vec Ideal S2000x1 .f32) : FVec Ideal S2000x256 .f32 :=
  addf (mulf (mulf (broadcast S2000x256 (Scalar.ofBits .f32 0x3F666666#32)) v0) (broadcastTo S2000x256 v4 broadcasts_S2000x1_S2000x256))
    (mulf (broadcast S2000x256 (Scalar.ofBits .f32 0x3DCCCCCD#32)) v2)

theorem xiK_eq (v0 v2 : Vec Ideal S2000x256 .f32) (v4 : Vec Ideal S2000x1 .f32) : xiK v0 v2 v4 = Spec.mix v0 v2 v4 := by
  funext j
  obtain ⟨p, q, rfl⟩ : ∃ (p : Fin 2000) (q : Fin 256), j = ix2 p q := ⟨j 0, j 1, eq_ix2 j⟩
  unfold xiK Spec.mix
  show Spec.c90 * v0 (ix2 p q) * (broadcastTo S2000x256 v4 broadcasts_S2000x1_S2000x256 (ix2 p q)) + Spec.c10 * v2 (ix2 p q) = _
  rw [broadcastTo_a1_ab_apply]

/-- The body's payload is the update of the block's own rows. -/
theorem pay_eq (v0 v2 : Vec Ideal S2000x256 .f32) (v4 : Vec Ideal S2000x1 .f32) (v13 : Vec Ideal S256x256 .f32) :
    k3_pay1 (F := Ideal) v0 v2 v4 v13 = Spec.layer c1 c2 v0 v2 v4 v13 := by
  funext j
  unfold k3_pay1
  simp only [shapeCast_self]
  change max (c1 * xiK v0 v2 v4 j + c2 * FloatOps.matmul (F := Ideal) (φ₁ := .bf16) (φ₂ := .bf16) (D) none (xiK v0 v2 v4) v13 (constant S2000x256 .f32 0x00000000#32) j) Spec.zero = _
  rw [Dense.matmul_zero_eq (D) rfl rfl l0 l1 r0 r1, xiK_eq]
  rfl

variable (V : (c : Dev nD) → (b : Ref sig .tc) → Buf (Elt Ideal) ((c : Thread nD τ).loc b))

theorem hz : (![0, 0] : Fin 2 → Nat) = fun _ => 0 := funext fun a => by fin_cases a <;> rfl

/-- The update over the whole arrays as the region finds them. -/
def G (c : Dev nD) : S100000x256.Idx → EReal :=
  Spec.layer c1 c2 (V c main_v94) (V c main_v4_0) (V c main_arg3) (V c main_v97)

/-- The printed index maps, decided over the grid: the row-blocked windows sit at block t, the weights at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the update over the whole arrays. -/
theorem flushed_eq (c : Dev nD) (t : Fin cfg3.N) :
    (dat3 V c).flushed 4 t = ((cfg3.win 4).blk t).view.read (Elt Ideal) (G V c) := by
  show (cfg3.win 4).cut (grid3.coords t) ((dat3 V c).after 4 t) = _
  rw [after3_4]
  unfold out3_4
  rw [View.canon_unit_zero hz]
  simp only [View.ld_unit_zero (S := S2000x256) hz, View.ld_unit_zero (S := S2000x1) hz, View.ld_unit_zero (S := S256x256) hz]
  rw [pay_eq]
  obtain ⟨e00, e01, e10, e11, e20, e21, e30, e31, e40, e41⟩ := idx_facts t
  have ht : t.val < 50 := t.isLt
  have hw : iblk3 V c 3 t = V c main_v97 := by
    funext y
    show V c main_v97 (((cfg3.win 3).blk t).view.emb y) = V c main_v97 y
    refine congrArg _ (funext fun a => Fin.ext ?_)
    match a with
    | ⟨0, _⟩ => show win3_3.index t (0 : Fin 2) * 256 + 1 * (y 0).val = (y 0).val; omega
    | ⟨1, _⟩ => show win3_3.index t (1 : Fin 2) * 256 + 1 * (y 1).val = (y 1).val; omega
  rw [hw]
  funext j
  obtain ⟨p, q, rfl⟩ : ∃ (p : Fin 2000) (q : Fin 256), j = ix2 p q := ⟨j 0, j 1, eq_ix2 j⟩
  have hp : p.val < 2000 := p.isLt
  have hq : q.val < 256 := q.isLt
  let P : Fin 100000 := ⟨t.val * 2000 + p.val, by omega⟩
  have hemb : ((cfg3.win 4).blk t).view.emb (ix2 p q) = (ix2 P q : S100000x256.Idx) := by
    funext a; apply Fin.ext
    match a with
    | ⟨0, _⟩ => show win3_4.index t (0 : Fin 2) * 2000 + 1 * p.val = t.val * 2000 + p.val; omega
    | ⟨1, _⟩ => show win3_4.index t (1 : Fin 2) * 256 + 1 * q.val = q.val; omega
  show Spec.layer c1 c2 (iblk3 V c 0 t) (iblk3 V c 1 t) (iblk3 V c 2 t) (V c main_v97) (ix2 p q) = G V c (((cfg3.win 4).blk t).view.emb (ix2 p q))
  rw [hemb]
  unfold G
  refine Spec.layer_congr p P (fun k => ?_) (fun k => ?_) ?_ q
  · show V c main_v94 (((cfg3.win 0).blk t).view.emb (ix2 p k)) = V c main_v94 (ix2 P k)
    refine congrArg _ (funext fun a => Fin.ext ?_)
    have hk : k.val < 256 := k.isLt
    match a with
    | ⟨0, _⟩ => show win3_0.index t (0 : Fin 2) * 2000 + 1 * p.val = t.val * 2000 + p.val; omega
    | ⟨1, _⟩ => show win3_0.index t (1 : Fin 2) * 256 + 1 * k.val = k.val; omega
  · show V c main_v4_0 (((cfg3.win 1).blk t).view.emb (ix2 p k)) = V c main_v4_0 (ix2 P k)
    refine congrArg _ (funext fun a => Fin.ext ?_)
    have hk : k.val < 256 := k.isLt
    match a with
    | ⟨0, _⟩ => show win3_1.index t (0 : Fin 2) * 2000 + 1 * p.val = t.val * 2000 + p.val; omega
    | ⟨1, _⟩ => show win3_1.index t (1 : Fin 2) * 256 + 1 * k.val = k.val; omega
  · show V c main_arg3 (((cfg3.win 2).blk t).view.emb (ix2 p (0 : Fin 1))) = V c main_arg3 (ix2 P (0 : Fin 1))
    refine congrArg _ (funext fun a => Fin.ext ?_)
    match a with
    | ⟨0, _⟩ => show win3_2.index t (0 : Fin 2) * 2000 + 1 * p.val = t.val * 2000 + p.val; omega
    | ⟨1, _⟩ => show win3_2.index t (1 : Fin 2) * 1 + 1 * 0 = 0; omega

/-- An index of the array is in point t's block iff each coordinate is in the block's range on its axis. -/
theorem mem_blk (t : Fin cfg3.N) (i : S100000x256.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole main_v98).slice (win3_4.rect t)).set ↔ _
  rw [View.set_slice_whole, Rect.mem_set_unit]
  exact Iff.rfl

/-- Row r lies in the block of point r / 2000. -/
theorem cover (i : S100000x256.Idx) :
    ∃ t : Fin cfg3.N, (cfg3.win 4).flush t = true ∧ i ∈ ((cfg3.win 4).blk t).view.set := by
  have hi0 : (i 0).val < 100000 := (i 0).isLt
  have hi1 : (i 1).val < 256 := (i 1).isLt
  let t : Fin cfg3.N := ⟨(i 0).val / 2000, by show (i 0).val / 2000 < 50; omega⟩
  obtain ⟨e00, e01, e10, e11, e20, e21, e30, e31, e40, e41⟩ := idx_facts t
  have htv : t.val = (i 0).val / 2000 := rfl
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 256 ≤ (i 1).val ∧ (i 1).val < win3_4.index t (1 : Fin 2) * 256 + 256; omega

/-- The array after the region: the update over the whole arrays. -/
theorem final (c : Dev nD) : (dat3 V c).arrAt 4 cfg3.N = G V c :=
  (dat3 V c).arrAt_eq_of_cover 4 (G V c) (fun t _ => flushed_eq V c t) cover

end Cert.Region3

end
-- ==== Proof.Region4.lean ====
/-
  What the last region leaves in its output array.

  The region's grid has 50 points; point t stages rows 2000 t … 2000 t + 1999 of the vertex sums sv and of the anchor x0
  (both [100000, 256]) and of the degree column [100000, 1], the whole transposed layer weight and output weight
  [256, 256] and the whole output bias row [1, 256], and writes back one [2000, 256] block: with
  xi = 0.9 · sv · deg + 0.1 · x0, the block max (c1 · xi + c2 · (xi · Wl), 0) · Wout + bout. On the extended reals a change
  of float format is the identity and the matrix unit's product into a zero accumulator is the plain sum over k, so the
  body's arithmetic on a block is the specification's last layer of that block (`pay1_eq`). A row of the last layer depends
  only on the same row of sv, x0 and the degree column, so the block computed at point t is block t of the last layer of the
  whole arrays (`flushed6_eq`); the 50 blocks tile the 100000 rows (row r lies in block r / 2000: `cover6`), hence after
  the last point the output array is the last layer of the arrays the region found (`final6`), for any contents V of the
  buffers at the region's entry.
-/
import proofs.«159773_j77464030151241_2_alg».proof.Proof.Gen.KernelIdeal.Frame
import proofs.«159773_j77464030151241_2_alg».proof.Proof.Spec
import proofs.«159773_j77464030151241_2_alg».proof.Proof.LibLayoutCol
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.Region4

open Cert.KernelIdeal Cert.KernelIdeal.Gen Idealize.ShloMosaic Idealize.ShloMosaic.TcCoe Idealize.SL.Sem
open Idealize.ShloMosaic.ValueIdx
open Idealize.ShloMosaic.Pipeline (Dat)

/-- The product's dimension record read by coordinates: the left index is (output row, k), the right (k, output column). -/
theorem dot_l0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem dot_l1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem dot_r0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem dot_r1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The initial-residual combination as the body spells it — 0.9 · sv times the degree column repeated along the
    columns, plus 0.1 · x0 — is the specification's, entry by entry. -/
theorem mix_eq (v0 v2 : Vec Ideal S2000x256 .f32) (v4 : Vec Ideal S2000x1 .f32) :
    (addf (mulf (mulf (broadcast S2000x256 (FloatOps.ofBits (F := Ideal) .f32 0x3F666666#32)) v0)
              (broadcastTo S2000x256 v4 broadcasts_S2000x1_S2000x256))
          (mulf (broadcast S2000x256 (FloatOps.ofBits (F := Ideal) .f32 0x3DCCCCCD#32)) v2) : FVec Ideal S2000x256 .f32)
      = Cert.Spec.mix v0 v2 v4 := by
  funext j
  obtain ⟨p, q, rfl⟩ : ∃ (p : Fin 2000) (q : Fin 256), j = ix2 p q := ⟨j 0, j 1, eq_ix2 j⟩
  rw [addf_apply, mulf_apply, mulf_apply, mulf_apply, broadcast_apply, broadcast_apply, broadcastTo_a1_ab_apply]
  rfl

/-- The body's arithmetic on one block, entry by entry: the last update followed by the output projection. The changes of
    float format and the casts to the same shape are the identity, each product into the zero accumulator is the sum over
    k, and the bias row is repeated down the rows. -/
theorem pay1_eq (v0 v2 : Vec Ideal S2000x256 .f32) (v4 : Vec Ideal S2000x1 .f32) (v13 v25 : Vec Ideal S256x256 .f32) (v29 : Vec Ideal S1x256 .f32) :
    (k4_pay1 (F := Ideal) v0 v2 v4 v13 v25 v29 : S2000x256.Idx → EReal)
      = Cert.Spec.fin (Ideal.ofBits .f32 0x3F61D8F9#32) (Ideal.ofBits .f32 0x3DF1383B#32) v0 v2 v4 v13 v25 v29 := by
  funext j
  obtain ⟨p, q, rfl⟩ : ∃ (p : Fin 2000) (q : Fin 256), j = ix2 p q := ⟨j 0, j 1, eq_ix2 j⟩
  unfold k4_pay1
  simp only [shapeCast_self, matmul]
  rw [mix_eq, addf_apply, broadcastTo_1b_ab_apply]
  rw [Cert.Dense.matmul_zero_eq dot_S2000x256_S256x256_S2000x256_1_0_0_1_n_n rfl rfl dot_l0 dot_l1 dot_r0 dot_r1]
  show Cert.Dense.mm _ _ (ix2 p q) + v29 (ix2 (0 : Fin 1) q)
    = Cert.Dense.mm (Cert.Spec.layer _ _ v0 v2 v4 v13) v25 (ix2 p q) + v29 (ix2 (0 : Fin 1) q)
  refine congrArg (· + v29 (ix2 (0 : Fin 1) q)) (Cert.Dense.mm_congr (ix2 p q) (ix2 p q) (fun k => ?_) (fun k => rfl))
  show (truncf .bf16 _ bitsLt_bf16_f32 : FVec Ideal S2000x256 .bf16) (ix2 p k) = Cert.Spec.layer _ _ v0 v2 v4 v13 (ix2 p k)
  rw [truncf_apply, maximumf_apply, addf_apply, mulf_apply, mulf_apply, broadcast_apply, broadcast_apply, broadcast_apply]
  rw [Cert.Dense.matmul_zero_eq dot_S2000x256_S256x256_S2000x256_1_0_0_1_n_n rfl rfl dot_l0 dot_l1 dot_r0 dot_r1]
  rfl

variable (V : (c : Dev nD) → (b : Ref sig .tc) → Buf (Elt Ideal) ((c : Thread nD τ).loc b))

theorem hz : (![0, 0] : Fin 2 → Nat) = fun _ => 0 := funext fun a => by fin_cases a <;> rfl

/-- The index maps over the grid's 50 points: the row-blocked windows sit at block (t, 0), the whole-array ones at (0, 0). -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row p of the block of the vertex sums at point t is row 2000 t + p of the array. -/
theorem iblk_sv (c : Dev nD) (t : Fin cfg4.N) (y : S2000x256.Idx) (i : S100000x256.Idx)
    (h0 : (i 0).val = t.val * 2000 + (y 0).val) (h1 : (i 1).val = (y 1).val) :
    (iblk4 V c 0 t : S2000x256.Idx → EReal) y = (V c (Pipeline.arrRef spec4 0) : S100000x256.Idx → EReal) i := by
  have e0 := (idx_facts t).1
  have e1 := (idx_facts t).2.1
  unfold iblk4
  rw [View.read_apply]
  have e : (((cfg4.win 0).blk t).view.emb y : S100000x256.Idx) = i := by
    funext a
    apply Fin.ext
    match a with
    | ⟨0, _⟩ => show win4_0.index t (0 : Fin 2) * 2000 + 1 * (y 0).val = (i 0).val; omega
    | ⟨1, _⟩ => show win4_0.index t (1 : Fin 2) * 256 + 1 * (y 1).val = (i 1).val; omega
  exact congrArg (V c (Pipeline.arrRef spec4 0) : S100000x256.Idx → EReal) e

/-- Row p of the block of the anchor at point t is row 2000 t + p of the array. -/
theorem iblk_x0 (c : Dev nD) (t : Fin cfg4.N) (y : S2000x256.Idx) (i : S100000x256.Idx)
    (h0 : (i 0).val = t.val * 2000 + (y 0).val) (h1 : (i 1).val = (y 1).val) :
    (iblk4 V c 1 t : S2000x256.Idx → EReal) y = (V c (Pipeline.arrRef spec4 1) : S100000x256.Idx → EReal) i := by
  have e0 := (idx_facts t).2.2.1
  have e1 := (idx_facts t).2.2.2.1
  unfold iblk4
  rw [View.read_apply]
  have e : (((cfg4.win 1).blk t).view.emb y : S100000x256.Idx) = i := by
    funext a
    apply Fin.ext
    match a with
    | ⟨0, _⟩ => show win4_1.index t (0 : Fin 2) * 2000 + 1 * (y 0).val = (i 0).val; omega
    | ⟨1, _⟩ => show win4_1.index t (1 : Fin 2) * 256 + 1 * (y 1).val = (i 1).val; omega
  exact congrArg (V c (Pipeline.arrRef spec4 1) : S100000x256.Idx → EReal) e

/-- Row p of the block of the degree column at point t is row 2000 t + p of the column. -/
theorem iblk_dv (c : Dev nD) (t : Fin cfg4.N) (y : S2000x1.Idx) (i : S100000x1.Idx)
    (h0 : (i 0).val = t.val * 2000 + (y 0).val) (h1 : (i 1).val = (y 1).val) :
    (iblk4 V c 2 t : S2000x1.Idx → EReal) y = (V c (Pipeline.arrRef spec4 2) : S100000x1.Idx → EReal) i := by
  have e0 := (idx_facts t).2.2.2.2.1
  have e1 := (idx_facts t).2.2.2.2.2.1
  unfold iblk4
  rw [View.read_apply]
  have e : (((cfg4.win 2).blk t).view.emb y : S100000x1.Idx) = i := by
    funext a
    apply Fin.ext
    match a with
    | ⟨0, _⟩ => show win4_2.index t (0 : Fin 2) * 2000 + 1 * (y 0).val = (i 0).val; omega
    | ⟨1, _⟩ => show win4_2.index t (1 : Fin 2) * 1 + 1 * (y 1).val = (i 1).val; omega
  exact congrArg (V c (Pipeline.arrRef spec4 2) : S100000x1.Idx → EReal) e

/-- The layer weight's block at every point is the whole weight. -/
theorem iblk_wl (c : Dev nD) (t : Fin cfg4.N) :
    (iblk4 V c 3 t : S256x256.Idx → EReal) = (V c (Pipeline.arrRef spec4 3) : S256x256.Idx → EReal) := by
  have e0 := (idx_facts t).2.2.2.2.2.2.1
  have e1 := (idx_facts t).2.2.2.2.2.2.2.1
  funext y
  unfold iblk4
  rw [View.read_apply]
  have e : (((cfg4.win 3).blk t).view.emb y : S256x256.Idx) = y := by
    funext a
    apply Fin.ext
    match a with
    | ⟨0, _⟩ => show win4_3.index t (0 : Fin 2) * 256 + 1 * (y 0).val = (y 0).val; omega
    | ⟨1, _⟩ => show win4_3.index t (1 : Fin 2) * 256 + 1 * (y 1).val = (y 1).val; omega
  exact congrArg (V c (Pipeline.arrRef spec4 3) : S256x256.Idx → EReal) e

/-- The output weight's block at every point is the whole weight. -/
theorem iblk_wo (c : Dev nD) (t : Fin cfg4.N) :
    (iblk4 V c 4 t : S256x256.Idx → EReal) = (V c (Pipeline.arrRef spec4 4) : S256x256.Idx → EReal) := by
  have e0 := (idx_facts t).2.2.2.2.2.2.2.2.1
  have e1 := (idx_facts t).2.2.2.2.2.2.2.2.2.1
  funext y
  unfold iblk4
  rw [View.read_apply]
  have e : (((cfg4.win 4).blk t).view.emb y : S256x256.Idx) = y := by
    funext a
    apply Fin.ext
    match a with
    | ⟨0, _⟩ => show win4_4.index t (0 : Fin 2) * 256 + 1 * (y 0).val = (y 0).val; omega
    | ⟨1, _⟩ => show win4_4.index t (1 : Fin 2) * 256 + 1 * (y 1).val = (y 1).val; omega
  exact congrArg (V c (Pipeline.arrRef spec4 4) : S256x256.Idx → EReal) e

/-- The output bias row's block at every point is the whole row. -/
theorem iblk_bo (c : Dev nD) (t : Fin cfg4.N) :
    (iblk4 V c 5 t : S1x256.Idx → EReal) = (V c (Pipeline.arrRef spec4 5) : S1x256.Idx → EReal) := by
  have e0 := (idx_facts t).2.2.2.2.2.2.2.2.2.2.1
  have e1 := (idx_facts t).2.2.2.2.2.2.2.2.2.2.2.1
  funext y
  unfold iblk4
  rw [View.read_apply]
  have e : (((cfg4.win 5).blk t).view.emb y : S1x256.Idx) = y := by
    funext a
    apply Fin.ext
    match a with
    | ⟨0, _⟩ => show win4_5.index t (0 : Fin 2) * 1 + 1 * (y 0).val = (y 0).val; omega
    | ⟨1, _⟩ => show win4_5.index t (1 : Fin 2) * 256 + 1 * (y 1).val = (y 1).val; omega
  exact congrArg (V c (Pipeline.arrRef spec4 5) : S1x256.Idx → EReal) e

/-- Over variables: when the three row-blocked operands hold rows 2000 n, … of their arrays and the other three are whole,
    the last layer of the blocks at (p, q) is the last layer of the arrays at (2000 n + p, q): a row of the result needs
    only that row of the vertex sums, of the anchor and of the degree column. -/
theorem blk_fin (c1 c2 : EReal) (SV X0 : S100000x256.Idx → EReal) (DV : S100000x1.Idx → EReal)
    (WL WO : S256x256.Idx → EReal) (B : S1x256.Idx → EReal)
    (x0 x1 : S2000x256.Idx → EReal) (x2 : S2000x1.Idx → EReal) (x3 x4 : S256x256.Idx → EReal) (x5 : S1x256.Idx → EReal) (n : Nat)
    (h0 : ∀ (y : S2000x256.Idx) (i : S100000x256.Idx), (i 0).val = n * 2000 + (y 0).val → (i 1).val = (y 1).val → x0 y = SV i)
    (h1 : ∀ (y : S2000x256.Idx) (i : S100000x256.Idx), (i 0).val = n * 2000 + (y 0).val → (i 1).val = (y 1).val → x1 y = X0 i)
    (h2 : ∀ (y : S2000x1.Idx) (i : S100000x1.Idx), (i 0).val = n * 2000 + (y 0).val → (i 1).val = (y 1).val → x2 y = DV i)
    (h3 : x3 = WL) (h4 : x4 = WO) (h5 : x5 = B)
    (y : S2000x256.Idx) (i : S100000x256.Idx) (hi0 : (i 0).val = n * 2000 + (y 0).val) (hi1 : (i 1).val = (y 1).val) :
    Cert.Spec.fin c1 c2 x0 x1 x2 x3 x4 x5 y = Cert.Spec.fin c1 c2 SV X0 DV WL WO B i := by
  subst h3 h4 h5
  obtain ⟨p, q, rfl⟩ : ∃ (p : Fin 2000) (q : Fin 256), y = ix2 p q := ⟨y 0, y 1, eq_ix2 y⟩
  obtain ⟨p', q', rfl⟩ : ∃ (p' : Fin 100000) (q' : Fin 256), i = ix2 p' q' := ⟨i 0, i 1, eq_ix2 i⟩
  obtain rfl : q' = q := Fin.ext hi1
  exact Cert.Spec.fin_congr p p' (fun k => h0 (ix2 p k) (ix2 p' k) hi0 rfl) (fun k => h1 (ix2 p k) (ix2 p' k) hi0 rfl)
    (h2 (ix2 p (0 : Fin 1)) (ix2 p' (0 : Fin 1)) hi0 rfl) q'

theorem pay1_blk (SV X0 : S100000x256.Idx → EReal) (DV : S100000x1.Idx → EReal)
    (WL WO : S256x256.Idx → EReal) (B : S1x256.Idx → EReal)
    (x0 x1 : Vec Ideal S2000x256 .f32) (x2 : Vec Ideal S2000x1 .f32) (x3 x4 : Vec Ideal S256x256 .f32) (x5 : Vec Ideal S1x256 .f32) (n : Nat)
    (h0 : ∀ (y : S2000x256.Idx) (i : S100000x256.Idx), (i 0).val = n * 2000 + (y 0).val → (i 1).val = (y 1).val → x0 y = SV i)
    (h1 : ∀ (y : S2000x256.Idx) (i : S100000x256.Idx), (i 0).val = n * 2000 + (y 0).val → (i 1).val = (y 1).val → x1 y = X0 i)
    (h2 : ∀ (y : S2000x1.Idx) (i : S100000x1.Idx), (i 0).val = n * 2000 + (y 0).val → (i 1).val = (y 1).val → x2 y = DV i)
    (h3 : x3 = WL) (h4 : x4 = WO) (h5 : x5 = B)
    (y : S2000x256.Idx) (i : S100000x256.Idx) (hi0 : (i 0).val = n * 2000 + (y 0).val) (hi1 : (i 1).val = (y 1).val) :
    (k4_pay1 (F := Ideal) x0 x1 x2 x3 x4 x5 : S2000x256.Idx → EReal) y
      = Cert.Spec.fin (Ideal.ofBits .f32 0x3F61D8F9#32) (Ideal.ofBits .f32 0x3DF1383B#32) SV X0 DV WL WO B i := by
  rw [pay1_eq]
  exact blk_fin _ _ SV X0 DV WL WO B x0 x1 x2 x3 x4 x5 n h0 h1 h2 h3 h4 h5 y i hi0 hi1

/-- The last layer of the six arrays as the region finds them. -/
abbrev G (c : Dev nD) : S100000x256.Idx → EReal :=
  Cert.Spec.fin (Ideal.ofBits .f32 0x3F61D8F9#32) (Ideal.ofBits .f32 0x3DF1383B#32)
    (V c (Pipeline.arrRef spec4 0) : S100000x256.Idx → EReal) (V c (Pipeline.arrRef spec4 1) : S100000x256.Idx → EReal)
    (V c (Pipeline.arrRef spec4 2) : S100000x1.Idx → EReal) (V c (Pipeline.arrRef spec4 3) : S256x256.Idx → EReal)
    (V c (Pipeline.arrRef spec4 4) : S256x256.Idx → EReal) (V c (Pipeline.arrRef spec4 5) : S1x256.Idx → EReal)

/-- What point t writes back is block t of the last layer of the whole arrays. -/
theorem flushed6_eq (c : Dev nD) (t : Fin cfg4.N) :
    (dat4 V c).flushed 6 t = ((cfg4.win 6).blk t).view.read (Elt Ideal) (G V c) := by
  show (cfg4.win 6).cut (grid4.coords t) ((dat4 V c).after 6 t) = _
  rw [after4_6]
  unfold out4_6
  rw [View.canon_unit_zero hz]
  simp only [View.ld_unit_zero (S := S2000x256) hz, View.ld_unit_zero (S := S2000x1) hz, View.ld_unit_zero (S := S256x256) hz,
    View.ld_unit_zero (S := S1x256) hz]
  have e0 := (idx_facts t).2.2.2.2.2.2.2.2.2.2.2.2.1
  have e1 := (idx_facts t).2.2.2.2.2.2.2.2.2.2.2.2.2
  funext y
  refine pay1_blk _ _ _ _ _ _ (iblk4 V c 0 t) (iblk4 V c 1 t) (iblk4 V c 2 t) (iblk4 V c 3 t) (iblk4 V c 4 t) (iblk4 V c 5 t) t.val
    (iblk_sv V c t) (iblk_x0 V c t) (iblk_dv V c t) (iblk_wl V c t) (iblk_wo V c t) (iblk_bo V c t) y
    (((cfg4.win 6).blk t).view.emb y) ?_ ?_
  · show win4_6.index t (0 : Fin 2) * 2000 + 1 * (y 0).val = _; omega
  · show win4_6.index t (1 : Fin 2) * 256 + 1 * (y 1).val = _; omega

/-- An index of the array is in point t's block iff each coordinate is in the block's range on its axis. -/
theorem mem_blk6 (t : Fin cfg4.N) (i : S100000x256.Idx) :
    i ∈ ((cfg4.win 6).blk t).view.set ↔ ∀ a : Fin 2, win4_6.index t a * S2000x256.size a ≤ (i a).val ∧ (i a).val < win4_6.index t a * S2000x256.size a + S2000x256.size a := by
  show i ∈ ((View.whole main_v127).slice (win4_6.rect t)).set ↔ _
  rw [View.set_slice_whole, Rect.mem_set_unit]
  exact Iff.rfl

/-- Row r is in the block of point r / 2000. -/
theorem cover6 (i : S100000x256.Idx) : ∃ t : Fin cfg4.N, (cfg4.win 6).flush t = true ∧ i ∈ ((cfg4.win 6).blk t).view.set := by
  have hi0 : (i 0).val < 100000 := (i 0).isLt
  have hi1 : (i 1).val < 256 := (i 1).isLt
  obtain ⟨t, ht⟩ : ∃ t : Fin cfg4.N, t.val = (i 0).val / 2000 :=
    ⟨⟨(i 0).val / 2000, by show _ < grid4.N; rw [N_4]; omega⟩, rfl⟩
  have e0 := (idx_facts t).2.2.2.2.2.2.2.2.2.2.2.2.1
  have e1 := (idx_facts t).2.2.2.2.2.2.2.2.2.2.2.2.2
  refine ⟨t, flush4_6 t, ?_⟩
  rw [mem_blk6]
  intro a
  match a with
  | ⟨0, _⟩ => show win4_6.index t (0 : Fin 2) * 2000 ≤ (i 0).val ∧ (i 0).val < win4_6.index t (0 : Fin 2) * 2000 + 2000; omega
  | ⟨1, _⟩ => show win4_6.index t (1 : Fin 2) * 256 ≤ (i 1).val ∧ (i 1).val < win4_6.index t (1 : Fin 2) * 256 + 256; omega

/-- After the region, the output array is the last layer of the arrays the region found. -/
theorem final6 (c : Dev nD) : ((dat4 V c).arrAt 6 cfg4.N : S100000x256.Idx → EReal)
    = Cert.Spec.fin (Ideal.ofBits .f32 0x3F61D8F9#32) (Ideal.ofBits .f32 0x3DF1383B#32)
        (V c (Pipeline.arrRef spec4 0) : S100000x256.Idx → EReal) (V c (Pipeline.arrRef spec4 1) : S100000x256.Idx → EReal)
        (V c (Pipeline.arrRef spec4 2) : S100000x1.Idx → EReal) (V c (Pipeline.arrRef spec4 3) : S256x256.Idx → EReal)
        (V c (Pipeline.arrRef spec4 4) : S256x256.Idx → EReal) (V c (Pipeline.arrRef spec4 5) : S1x256.Idx → EReal) :=
  (dat4 V c).arrAt_eq_of_cover 6 (G V c) (fun t _ => flushed6_eq V c t) cover6

end Cert.Region4

end
-- ==== Proof.Chain.lean ====
/-
  The contents of the kernel program's buffers at each of its ten segment boundaries, followed from the launch to the
  return: the arguments and what the host stretches computed from them are carried unchanged across the regions that do
  not write them, each region's output array is the layer's function of the arrays the region found, and so the result
  array ends at the four rounds of message passing and updates, then the output projection, of the arguments.
-/
import proofs.«159773_j77464030151241_2_alg».proof.Proof.Gen.KernelIdeal.Frame
import proofs.«159773_j77464030151241_2_alg».proof.Proof.HostOps
import proofs.«159773_j77464030151241_2_alg».proof.Proof.Net
import proofs.«159773_j77464030151241_2_alg».proof.Proof.Region0
import proofs.«159773_j77464030151241_2_alg».proof.Proof.Region1
import proofs.«159773_j77464030151241_2_alg».proof.Proof.Region2
import proofs.«159773_j77464030151241_2_alg».proof.Proof.Region3
import proofs.«159773_j77464030151241_2_alg».proof.Proof.Region4

set_option maxRecDepth 16384

noncomputable section

namespace Cert.Chain

open Cert.KernelIdeal Cert.KernelIdeal.Gen Cert.Agg Cert.HostOps
open Cert.Net (tr rs wl0 wl1 wl2 wl3)
open Idealize.ShloMosaic Idealize.ShloMosaic.TcCoe Idealize.SL.Sem

variable (m : (ℓ : Loc nD τ sig) → Buf (Elt Ideal) ℓ) (ρ : Dev nD → PrngReg) (c : Dev nD)

/-! ## The values: the network of Net.lean at the launch contents of the arguments -/

abbrev X0 : Spec.Mat 100000 256 := Net.X0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
abbrev SC : FVec Ideal S20000x1 .f32 := Net.SC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
abbrev round (X : Spec.Mat 100000 256) : Spec.Mat 100000 256 := Net.round (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) X
abbrev X1 : Spec.Mat 100000 256 := Net.X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
abbrev X2 : Spec.Mat 100000 256 := Net.X2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
abbrev X3 : Spec.Mat 100000 256 := Net.X3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
abbrev OUT : Spec.Mat 100000 256 := Net.OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-! ## Boundary 1: after the first stretch -/

theorem W1_main_arg0 : W1 m ρ c (Proc.devRef .tc main_arg0) = m ((c : Thread nD τ).loc main_arg0) := s0_main_arg0 (W0 m ρ c)
theorem W1_main_arg1 : W1 m ρ c (Proc.devRef .tc main_arg1) = m ((c : Thread nD τ).loc main_arg1) := s0_main_arg1 (W0 m ρ c)
theorem W1_main_arg2 : W1 m ρ c (Proc.devRef .tc main_arg2) = m ((c : Thread nD τ).loc main_arg2) := s0_main_arg2 (W0 m ρ c)
theorem W1_main_arg3 : W1 m ρ c (Proc.devRef .tc main_arg3) = m ((c : Thread nD τ).loc main_arg3) := s0_main_arg3 (W0 m ρ c)
theorem W1_main_arg4 : W1 m ρ c (Proc.devRef .tc main_arg4) = m ((c : Thread nD τ).loc main_arg4) := s0_main_arg4 (W0 m ρ c)
theorem W1_main_arg7 : W1 m ρ c (Proc.devRef .tc main_arg7) = m ((c : Thread nD τ).loc main_arg7) := s0_main_arg7 (W0 m ρ c)
theorem W1_main_v0 : W1 m ρ c (Proc.devRef .tc main_v0) = tr (m ((c : Thread nD τ).loc main_arg5)) := s0_v0 (W0 m ρ c)
theorem W1_main_v1 : W1 m ρ c (Proc.devRef .tc main_v1) = tr (m ((c : Thread nD τ).loc main_arg8)) := s0_v1 (W0 m ρ c)
theorem W1_main_v2 : W1 m ρ c (Proc.devRef .tc main_v2) = rs (m ((c : Thread nD τ).loc main_arg6)) := s0_v2 (W0 m ρ c)
theorem W1_main_v3 : W1 m ρ c (Proc.devRef .tc main_v3) = rs (m ((c : Thread nD τ).loc main_arg9)) := s0_v3 (W0 m ρ c)

/-! ## Boundary 2: after region 0 -/

theorem W2_main_arg1 : W2 m ρ c (Proc.devRef .tc main_arg1) = m ((c : Thread nD τ).loc main_arg1) :=
  (W2_of_ne m ρ c main_arg1 (by decide)).trans (W1_main_arg1 m ρ c)
theorem W2_main_arg2 : W2 m ρ c (Proc.devRef .tc main_arg2) = m ((c : Thread nD τ).loc main_arg2) :=
  (W2_of_ne m ρ c main_arg2 (by decide)).trans (W1_main_arg2 m ρ c)
theorem W2_main_arg3 : W2 m ρ c (Proc.devRef .tc main_arg3) = m ((c : Thread nD τ).loc main_arg3) :=
  (W2_of_ne m ρ c main_arg3 (by decide)).trans (W1_main_arg3 m ρ c)
theorem W2_main_arg4 : W2 m ρ c (Proc.devRef .tc main_arg4) = m ((c : Thread nD τ).loc main_arg4) :=
  (W2_of_ne m ρ c main_arg4 (by decide)).trans (W1_main_arg4 m ρ c)
theorem W2_main_arg7 : W2 m ρ c (Proc.devRef .tc main_arg7) = m ((c : Thread nD τ).loc main_arg7) :=
  (W2_of_ne m ρ c main_arg7 (by decide)).trans (W1_main_arg7 m ρ c)
theorem W2_main_v1 : W2 m ρ c (Proc.devRef .tc main_v1) = tr (m ((c : Thread nD τ).loc main_arg8)) :=
  (W2_of_ne m ρ c main_v1 (by decide)).trans (W1_main_v1 m ρ c)
theorem W2_main_v3 : W2 m ρ c (Proc.devRef .tc main_v3) = rs (m ((c : Thread nD τ).loc main_arg9)) :=
  (W2_of_ne m ρ c main_v3 (by decide)).trans (W1_main_v3 m ρ c)
theorem W2_main_v4_0 : W2 m ρ c (Proc.devRef .tc main_v4_0) = X0 m c := by
  rw [show W2 m ρ c (Proc.devRef .tc main_v4_0) = (dat0 (V1 m ρ) c).arrAt 3 cfg0.N from W2_arr m ρ c 3, Region0.final3]
  show Spec.proj (W1 m ρ c (Proc.devRef .tc main_arg0)) (W1 m ρ c (Proc.devRef .tc main_v0)) (W1 m ρ c (Proc.devRef .tc main_v2)) = _
  rw [W1_main_arg0, W1_main_v0, W1_main_v2]; rfl
theorem W2_main_v4_1 : W2 m ρ c (Proc.devRef .tc main_v4_1) = X0 m c := by
  rw [show W2 m ρ c (Proc.devRef .tc main_v4_1) = (dat0 (V1 m ρ) c).arrAt 4 cfg0.N from W2_arr m ρ c 4, Region0.final4]
  show Spec.proj (W1 m ρ c (Proc.devRef .tc main_arg0)) (W1 m ρ c (Proc.devRef .tc main_v0)) (W1 m ρ c (Proc.devRef .tc main_v2)) = _
  rw [W1_main_arg0, W1_main_v0, W1_main_v2]; rfl

/-! ## Boundary 3: after the stretch before region 1 -/

theorem W3_main_arg1 : W3 m ρ c (Proc.devRef .tc main_arg1) = m ((c : Thread nD τ).loc main_arg1) :=
  (s1_main_arg1 (W2 m ρ c)).trans (W2_main_arg1 m ρ c)
theorem W3_main_arg2 : W3 m ρ c (Proc.devRef .tc main_arg2) = m ((c : Thread nD τ).loc main_arg2) :=
  (s1_main_arg2 (W2 m ρ c)).trans (W2_main_arg2 m ρ c)
theorem W3_main_arg3 : W3 m ρ c (Proc.devRef .tc main_arg3) = m ((c : Thread nD τ).loc main_arg3) :=
  (s1_main_arg3 (W2 m ρ c)).trans (W2_main_arg3 m ρ c)
theorem W3_main_arg7 : W3 m ρ c (Proc.devRef .tc main_arg7) = m ((c : Thread nD τ).loc main_arg7) :=
  (s1_main_arg7 (W2 m ρ c)).trans (W2_main_arg7 m ρ c)
theorem W3_main_v1 : W3 m ρ c (Proc.devRef .tc main_v1) = tr (m ((c : Thread nD τ).loc main_arg8)) :=
  (s1_main_v1 (W2 m ρ c)).trans (W2_main_v1 m ρ c)
theorem W3_main_v3 : W3 m ρ c (Proc.devRef .tc main_v3) = rs (m ((c : Thread nD τ).loc main_arg9)) :=
  (s1_main_v3 (W2 m ρ c)).trans (W2_main_v3 m ρ c)
theorem W3_main_v4_0 : W3 m ρ c (Proc.devRef .tc main_v4_0) = X0 m c :=
  (s1_main_v4_0 (W2 m ρ c)).trans (W2_main_v4_0 m ρ c)
theorem W3_main_v11 : W3 m ρ c (Proc.devRef .tc main_v11) = SC m c := by
  rw [show W3 m ρ c (Proc.devRef .tc main_v11) = _ from s1_v11 (W2 m ρ c), W2_main_arg2, W2_main_arg4]; rfl
theorem W3_sv : W3 m ρ c (Proc.devRef .tc main_v36) = round m c (X0 m c) := by
  rw [show W3 m ρ c (Proc.devRef .tc main_v36) = _ from s1_sv (W2 m ρ c), W2_main_v4_1, W2_main_arg1, W2_main_arg2, W2_main_arg4]; rfl
theorem W3_wt : W3 m ρ c (Proc.devRef .tc main_v39) = wl0 (m ((c : Thread nD τ).loc main_arg7)) := by
  rw [show W3 m ρ c (Proc.devRef .tc main_v39) = _ from s1_wt (W2 m ρ c), W2_main_arg7]

/-! ## Boundary 4: after region 1 -/

theorem W4_main_arg1 : W4 m ρ c (Proc.devRef .tc main_arg1) = m ((c : Thread nD τ).loc main_arg1) :=
  (W4_of_ne m ρ c main_arg1 (by decide)).trans (W3_main_arg1 m ρ c)
theorem W4_main_arg2 : W4 m ρ c (Proc.devRef .tc main_arg2) = m ((c : Thread nD τ).loc main_arg2) :=
  (W4_of_ne m ρ c main_arg2 (by decide)).trans (W3_main_arg2 m ρ c)
theorem W4_main_arg7 : W4 m ρ c (Proc.devRef .tc main_arg7) = m ((c : Thread nD τ).loc main_arg7) :=
  (W4_of_ne m ρ c main_arg7 (by decide)).trans (W3_main_arg7 m ρ c)
theorem W4_main_v1 : W4 m ρ c (Proc.devRef .tc main_v1) = tr (m ((c : Thread nD τ).loc main_arg8)) :=
  (W4_of_ne m ρ c main_v1 (by decide)).trans (W3_main_v1 m ρ c)
theorem W4_main_v3 : W4 m ρ c (Proc.devRef .tc main_v3) = rs (m ((c : Thread nD τ).loc main_arg9)) :=
  (W4_of_ne m ρ c main_v3 (by decide)).trans (W3_main_v3 m ρ c)
theorem W4_main_v11 : W4 m ρ c (Proc.devRef .tc main_v11) = SC m c :=
  (W4_of_ne m ρ c main_v11 (by decide)).trans (W3_main_v11 m ρ c)
theorem W4_main_v4_0 : W4 m ρ c (Proc.devRef .tc main_v4_0) = X0 m c :=
  ((W4_arr m ρ c 1).trans (((dat1 (V3 m ρ) c).arrAt_in 1 rfl _).trans (A_eq1 (V3 m ρ) c 1))).trans (W3_main_v4_0 m ρ c)
theorem W4_main_arg3 : W4 m ρ c (Proc.devRef .tc main_arg3) = m ((c : Thread nD τ).loc main_arg3) :=
  ((W4_arr m ρ c 2).trans (((dat1 (V3 m ρ) c).arrAt_in 2 rfl _).trans (A_eq1 (V3 m ρ) c 2))).trans (W3_main_arg3 m ρ c)
theorem W4_main_v40 : W4 m ρ c (Proc.devRef .tc main_v40) = X1 m c := by
  rw [show W4 m ρ c (Proc.devRef .tc main_v40) = (dat1 (V3 m ρ) c).arrAt 4 cfg1.N from W4_arr m ρ c 4, Region1.final]
  show Spec.layer Region1.c1 Region1.c2 (W3 m ρ c (Proc.devRef .tc main_v36)) (W3 m ρ c (Proc.devRef .tc main_v4_0)) (W3 m ρ c (Proc.devRef .tc main_arg3)) (W3 m ρ c (Proc.devRef .tc main_v39)) = _
  rw [W3_sv, W3_main_v4_0, W3_main_arg3, W3_wt]; rfl

/-! ## Boundary 5: after the stretch before region 2 -/

theorem W5_main_arg1 : W5 m ρ c (Proc.devRef .tc main_arg1) = m ((c : Thread nD τ).loc main_arg1) :=
  (s2_main_arg1 (W4 m ρ c)).trans (W4_main_arg1 m ρ c)
theorem W5_main_arg2 : W5 m ρ c (Proc.devRef .tc main_arg2) = m ((c : Thread nD τ).loc main_arg2) :=
  (s2_main_arg2 (W4 m ρ c)).trans (W4_main_arg2 m ρ c)
theorem W5_main_arg3 : W5 m ρ c (Proc.devRef .tc main_arg3) = m ((c : Thread nD τ).loc main_arg3) :=
  (s2_main_arg3 (W4 m ρ c)).trans (W4_main_arg3 m ρ c)
theorem W5_main_arg7 : W5 m ρ c (Proc.devRef .tc main_arg7) = m ((c : Thread nD τ).loc main_arg7) :=
  (s2_main_arg7 (W4 m ρ c)).trans (W4_main_arg7 m ρ c)
theorem W5_main_v1 : W5 m ρ c (Proc.devRef .tc main_v1) = tr (m ((c : Thread nD τ).loc main_arg8)) :=
  (s2_main_v1 (W4 m ρ c)).trans (W4_main_v1 m ρ c)
theorem W5_main_v3 : W5 m ρ c (Proc.devRef .tc main_v3) = rs (m ((c : Thread nD τ).loc main_arg9)) :=
  (s2_main_v3 (W4 m ρ c)).trans (W4_main_v3 m ρ c)
theorem W5_main_v4_0 : W5 m ρ c (Proc.devRef .tc main_v4_0) = X0 m c :=
  (s2_main_v4_0 (W4 m ρ c)).trans (W4_main_v4_0 m ρ c)
theorem W5_main_v11 : W5 m ρ c (Proc.devRef .tc main_v11) = SC m c :=
  (s2_main_v11 (W4 m ρ c)).trans (W4_main_v11 m ρ c)
theorem W5_sv : W5 m ρ c (Proc.devRef .tc main_v65) = round m c (X1 m c) := by
  rw [show W5 m ρ c (Proc.devRef .tc main_v65) = _ from s2_sv (W4 m ρ c), W4_main_v40, W4_main_arg1, W4_main_arg2, W4_main_v11]; rfl
theorem W5_wt : W5 m ρ c (Proc.devRef .tc main_v68) = wl1 (m ((c : Thread nD τ).loc main_arg7)) := by
  rw [show W5 m ρ c (Proc.devRef .tc main_v68) = _ from s2_wt (W4 m ρ c), W4_main_arg7]

/-! ## Boundary 6: after region 2 -/

theorem W6_main_arg1 : W6 m ρ c (Proc.devRef .tc main_arg1) = m ((c : Thread nD τ).loc main_arg1) :=
  (W6_of_ne m ρ c main_arg1 (by decide)).trans (W5_main_arg1 m ρ c)
theorem W6_main_arg2 : W6 m ρ c (Proc.devRef .tc main_arg2) = m ((c : Thread nD τ).loc main_arg2) :=
  (W6_of_ne m ρ c main_arg2 (by decide)).trans (W5_main_arg2 m ρ c)
theorem W6_main_arg7 : W6 m ρ c (Proc.devRef .tc main_arg7) = m ((c : Thread nD τ).loc main_arg7) :=
  (W6_of_ne m ρ c main_arg7 (by decide)).trans (W5_main_arg7 m ρ c)
theorem W6_main_v1 : W6 m ρ c (Proc.devRef .tc main_v1) = tr (m ((c : Thread nD τ).loc main_arg8)) :=
  (W6_of_ne m ρ c main_v1 (by decide)).trans (W5_main_v1 m ρ c)
theorem W6_main_v3 : W6 m ρ c (Proc.devRef .tc main_v3) = rs (m ((c : Thread nD τ).loc main_arg9)) :=
  (W6_of_ne m ρ c main_v3 (by decide)).trans (W5_main_v3 m ρ c)
theorem W6_main_v11 : W6 m ρ c (Proc.devRef .tc main_v11) = SC m c :=
  (W6_of_ne m ρ c main_v11 (by decide)).trans (W5_main_v11 m ρ c)
theorem W6_main_v4_0 : W6 m ρ c (Proc.devRef .tc main_v4_0) = X0 m c :=
  ((W6_arr m ρ c 1).trans (((dat2 (V5 m ρ) c).arrAt_in 1 rfl _).trans (A_eq2 (V5 m ρ) c 1))).trans (W5_main_v4_0 m ρ c)
theorem W6_main_arg3 : W6 m ρ c (Proc.devRef .tc main_arg3) = m ((c : Thread nD τ).loc main_arg3) :=
  ((W6_arr m ρ c 2).trans (((dat2 (V5 m ρ) c).arrAt_in 2 rfl _).trans (A_eq2 (V5 m ρ) c 2))).trans (W5_main_arg3 m ρ c)
theorem W6_main_v69 : W6 m ρ c (Proc.devRef .tc main_v69) = X2 m c := by
  rw [show W6 m ρ c (Proc.devRef .tc main_v69) = (dat2 (V5 m ρ) c).arrAt 4 cfg2.N from W6_arr m ρ c 4, Region2.final]
  show Spec.layer Region2.c1 Region2.c2 (W5 m ρ c (Proc.devRef .tc main_v65)) (W5 m ρ c (Proc.devRef .tc main_v4_0)) (W5 m ρ c (Proc.devRef .tc main_arg3)) (W5 m ρ c (Proc.devRef .tc main_v68)) = _
  rw [W5_sv, W5_main_v4_0, W5_main_arg3, W5_wt]; rfl

/-! ## Boundary 7: after the stretch before region 3 -/

theorem W7_main_arg1 : W7 m ρ c (Proc.devRef .tc main_arg1) = m ((c : Thread nD τ).loc main_arg1) :=
  (s3_main_arg1 (W6 m ρ c)).trans (W6_main_arg1 m ρ c)
theorem W7_main_arg2 : W7 m ρ c (Proc.devRef .tc main_arg2) = m ((c : Thread nD τ).loc main_arg2) :=
  (s3_main_arg2 (W6 m ρ c)).trans (W6_main_arg2 m ρ c)
theorem W7_main_arg3 : W7 m ρ c (Proc.devRef .tc main_arg3) = m ((c : Thread nD τ).loc main_arg3) :=
  (s3_main_arg3 (W6 m ρ c)).trans (W6_main_arg3 m ρ c)
theorem W7_main_arg7 : W7 m ρ c (Proc.devRef .tc main_arg7) = m ((c : Thread nD τ).loc main_arg7) :=
  (s3_main_arg7 (W6 m ρ c)).trans (W6_main_arg7 m ρ c)
theorem W7_main_v1 : W7 m ρ c (Proc.devRef .tc main_v1) = tr (m ((c : Thread nD τ).loc main_arg8)) :=
  (s3_main_v1 (W6 m ρ c)).trans (W6_main_v1 m ρ c)
theorem W7_main_v3 : W7 m ρ c (Proc.devRef .tc main_v3) = rs (m ((c : Thread nD τ).loc main_arg9)) :=
  (s3_main_v3 (W6 m ρ c)).trans (W6_main_v3 m ρ c)
theorem W7_main_v4_0 : W7 m ρ c (Proc.devRef .tc main_v4_0) = X0 m c :=
  (s3_main_v4_0 (W6 m ρ c)).trans (W6_main_v4_0 m ρ c)
theorem W7_main_v11 : W7 m ρ c (Proc.devRef .tc main_v11) = SC m c :=
  (s3_main_v11 (W6 m ρ c)).trans (W6_main_v11 m ρ c)
theorem W7_sv : W7 m ρ c (Proc.devRef .tc main_v94) = round m c (X2 m c) := by
  rw [show W7 m ρ c (Proc.devRef .tc main_v94) = _ from s3_sv (W6 m ρ c), W6_main_v69, W6_main_arg1, W6_main_arg2, W6_main_v11]; rfl
theorem W7_wt : W7 m ρ c (Proc.devRef .tc main_v97) = wl2 (m ((c : Thread nD τ).loc main_arg7)) := by
  rw [show W7 m ρ c (Proc.devRef .tc main_v97) = _ from s3_wt (W6 m ρ c), W6_main_arg7]

/-! ## Boundary 8: after region 3 -/

theorem W8_main_arg1 : W8 m ρ c (Proc.devRef .tc main_arg1) = m ((c : Thread nD τ).loc main_arg1) :=
  (W8_of_ne m ρ c main_arg1 (by decide)).trans (W7_main_arg1 m ρ c)
theorem W8_main_arg2 : W8 m ρ c (Proc.devRef .tc main_arg2) = m ((c : Thread nD τ).loc main_arg2) :=
  (W8_of_ne m ρ c main_arg2 (by decide)).trans (W7_main_arg2 m ρ c)
theorem W8_main_arg7 : W8 m ρ c (Proc.devRef .tc main_arg7) = m ((c : Thread nD τ).loc main_arg7) :=
  (W8_of_ne m ρ c main_arg7 (by decide)).trans (W7_main_arg7 m ρ c)
theorem W8_main_v1 : W8 m ρ c (Proc.devRef .tc main_v1) = tr (m ((c : Thread nD τ).loc main_arg8)) :=
  (W8_of_ne m ρ c main_v1 (by decide)).trans (W7_main_v1 m ρ c)
theorem W8_main_v3 : W8 m ρ c (Proc.devRef .tc main_v3) = rs (m ((c : Thread nD τ).loc main_arg9)) :=
  (W8_of_ne m ρ c main_v3 (by decide)).trans (W7_main_v3 m ρ c)
theorem W8_main_v11 : W8 m ρ c (Proc.devRef .tc main_v11) = SC m c :=
  (W8_of_ne m ρ c main_v11 (by decide)).trans (W7_main_v11 m ρ c)
theorem W8_main_v4_0 : W8 m ρ c (Proc.devRef .tc main_v4_0) = X0 m c :=
  ((W8_arr m ρ c 1).trans (((dat3 (V7 m ρ) c).arrAt_in 1 rfl _).trans (A_eq3 (V7 m ρ) c 1))).trans (W7_main_v4_0 m ρ c)
theorem W8_main_arg3 : W8 m ρ c (Proc.devRef .tc main_arg3) = m ((c : Thread nD τ).loc main_arg3) :=
  ((W8_arr m ρ c 2).trans (((dat3 (V7 m ρ) c).arrAt_in 2 rfl _).trans (A_eq3 (V7 m ρ) c 2))).trans (W7_main_arg3 m ρ c)
theorem W8_main_v98 : W8 m ρ c (Proc.devRef .tc main_v98) = X3 m c := by
  rw [show W8 m ρ c (Proc.devRef .tc main_v98) = (dat3 (V7 m ρ) c).arrAt 4 cfg3.N from W8_arr m ρ c 4, Region3.final]
  show Spec.layer Region3.c1 Region3.c2 (W7 m ρ c (Proc.devRef .tc main_v94)) (W7 m ρ c (Proc.devRef .tc main_v4_0)) (W7 m ρ c (Proc.devRef .tc main_arg3)) (W7 m ρ c (Proc.devRef .tc main_v97)) = _
  rw [W7_sv, W7_main_v4_0, W7_main_arg3, W7_wt]; rfl

/-! ## Boundary 9: after the stretch before region 4 -/

theorem W9_main_arg1 : W9 m ρ c (Proc.devRef .tc main_arg1) = m ((c : Thread nD τ).loc main_arg1) :=
  (s4_main_arg1 (W8 m ρ c)).trans (W8_main_arg1 m ρ c)
theorem W9_main_arg2 : W9 m ρ c (Proc.devRef .tc main_arg2) = m ((c : Thread nD τ).loc main_arg2) :=
  (s4_main_arg2 (W8 m ρ c)).trans (W8_main_arg2 m ρ c)
theorem W9_main_arg3 : W9 m ρ c (Proc.devRef .tc main_arg3) = m ((c : Thread nD τ).loc main_arg3) :=
  (s4_main_arg3 (W8 m ρ c)).trans (W8_main_arg3 m ρ c)
theorem W9_main_arg7 : W9 m ρ c (Proc.devRef .tc main_arg7) = m ((c : Thread nD τ).loc main_arg7) :=
  (s4_main_arg7 (W8 m ρ c)).trans (W8_main_arg7 m ρ c)
theorem W9_main_v1 : W9 m ρ c (Proc.devRef .tc main_v1) = tr (m ((c : Thread nD τ).loc main_arg8)) :=
  (s4_main_v1 (W8 m ρ c)).trans (W8_main_v1 m ρ c)
theorem W9_main_v3 : W9 m ρ c (Proc.devRef .tc main_v3) = rs (m ((c : Thread nD τ).loc main_arg9)) :=
  (s4_main_v3 (W8 m ρ c)).trans (W8_main_v3 m ρ c)
theorem W9_main_v4_0 : W9 m ρ c (Proc.devRef .tc main_v4_0) = X0 m c :=
  (s4_main_v4_0 (W8 m ρ c)).trans (W8_main_v4_0 m ρ c)
theorem W9_main_v11 : W9 m ρ c (Proc.devRef .tc main_v11) = SC m c :=
  (s4_main_v11 (W8 m ρ c)).trans (W8_main_v11 m ρ c)
theorem W9_sv : W9 m ρ c (Proc.devRef .tc main_v123) = round m c (X3 m c) := by
  rw [show W9 m ρ c (Proc.devRef .tc main_v123) = _ from s4_sv (W8 m ρ c), W8_main_v98, W8_main_arg1, W8_main_arg2, W8_main_v11]; rfl
theorem W9_wt : W9 m ρ c (Proc.devRef .tc main_v126) = wl3 (m ((c : Thread nD τ).loc main_arg7)) := by
  rw [show W9 m ρ c (Proc.devRef .tc main_v126) = _ from s4_wt (W8 m ρ c), W8_main_arg7]

/-! ## Boundary 10: after region 4 -/

/-- The result array at the return. -/
theorem W10_result : W10 m ρ c (Proc.devRef .tc main_v127) = OUT m c := by
  rw [show W10 m ρ c (Proc.devRef .tc main_v127) = (dat4 (V9 m ρ) c).arrAt 6 cfg4.N from W10_arr m ρ c 6, Region4.final6]
  show Spec.fin _ _ (W9 m ρ c (Proc.devRef .tc main_v123)) (W9 m ρ c (Proc.devRef .tc main_v4_0)) (W9 m ρ c (Proc.devRef .tc main_arg3)) (W9 m ρ c (Proc.devRef .tc main_v126)) (W9 m ρ c (Proc.devRef .tc main_v1)) (W9 m ρ c (Proc.devRef .tc main_v3)) = _
  rw [W9_sv, W9_main_v4_0, W9_main_arg3, W9_wt, W9_main_v1, W9_main_v3]; rfl

end Cert.Chain

end
-- ==== Proof.RefLayers.lean ====
/-
  The reference program's dense stages are the network's layers, entry by entry, on the extended reals.

  The reference computes the input projection max (x · W0ᵀ + b0, 0), then four times the update
  max (c1 · xi + c2 · (xi · Wt), 0) of xi = 0.9 · (sv · dv) + 0.1 · x0, where sv is the layer's raw vertex sum, dv the
  vertex degree scale (one entry per row, repeated along the row) and x0 the projection, and last the output
  projection X · Woutᵀ + bout. Each scalar is a rank-0 constant repeated over the whole array; a bias is a vector made
  a one-row matrix and repeated down the rows; a product of matrices is the sum over the shared axis. Read at an
  entry (p, q) these are the specification's "proj", "mix", "layer" and "lin"; the one law used is the associativity of
  the product, which joins 0.9 · (sv · dv) with (0.9 · sv) · dv.
-/
import proofs.«159773_j77464030151241_2_alg».proof.Proof.Gen.ReferenceIdeal.Read
import proofs.«159773_j77464030151241_2_alg».proof.Proof.Spec
import proofs.«159773_j77464030151241_2_alg».proof.Proof.LibColRow
import Idealize.ShloMosaic.Lib.IdealHost

noncomputable section

namespace Cert.RefLayers

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- An f32 array of shape S at a float instance F; at the exact instance, a function from S's indices to the
    extended reals. -/
abbrev Arr (F : FTy → Type) (S : Shape) : Type := (⟨S, .f32⟩ : BufTy).Contents (Elt F)

variable {F : FTy → Type} [FloatOps F]

/-! ## The reference's building blocks, read at an entry -/

/-- A scalar constant repeated over the [100000, 256] array. -/
def splatH (c : BitVec 32) : Arr F S100000x256 :=
  broadcastInDim S100000x256 ![] bcast_S_S100000x256 (constant (F := F) S_ .f32 c)

theorem splatH_apply (c : BitVec 32) (i : S100000x256.Idx) : splatH (F := Ideal) c i = Ideal.ofBits .f32 c := by
  unfold splatH
  rw [broadcastInDim_scalar_apply]
  rfl

/-- The host's product of a [100000, 256] matrix with a [256, 256] matrix. -/
def dotH (X : Arr F S100000x256) (W : Arr F S256x256) : Arr F S100000x256 :=
  Host.dotGeneral dot_S100000x256_S256x256_S100000x256_1_0_0_1_n_n none X W

/-- The host's product at an entry is the sum over the shared axis. -/
theorem dotH_apply (X : Arr Ideal S100000x256) (W : Arr Ideal S256x256) (i : S100000x256.Idx) :
    dotH (F := Ideal) X W i = Cert.Dense.mm X W i := by
  unfold dotH
  exact Cert.Dense.dotGeneral_eq dot_S100000x256_S256x256_S100000x256_1_0_0_1_n_n rfl rfl
    lhs_main_v1_0 lhs_main_v1_1 rhs_main_v1_0 rhs_main_v1_1 none .single X W i

/-- A bias vector made a one-row matrix and repeated down the 100000 rows. -/
def biasH (b : Arr F S256) : Arr F S100000x256 :=
  broadcastInDim S100000x256 ![0, 1] bcast_S1x256_S100000x256_0_1 (broadcastInDim S1x256 ![1] bcast_S256_S1x256_1 b)

theorem biasH_apply (b : Arr Ideal S256) (p : Fin 100000) (q : Fin 256) :
    biasH (F := Ideal) b (ix2 p q) = Cert.Dense.row b (ix2 (0 : Fin 1) q) := by
  unfold biasH Cert.Dense.row
  rw [broadcastInDim_1b_ab_apply, broadcastInDim_b_1b_apply]

/-- A dense layer as the reference spells it: the product plus the repeated bias. -/
def linH (X : Arr F S100000x256) (W : Arr F S256x256) (b : Arr F S256) : Arr F S100000x256 :=
  addf (dotH X W) (biasH b)

theorem linH_eq (X : Arr Ideal S100000x256) (W : Arr Ideal S256x256) (b : Arr Ideal S256) :
    linH (F := Ideal) X W b = Cert.Dense.lin X W (Cert.Dense.row b) := by
  funext i
  obtain ⟨p, q, rfl⟩ : ∃ (p : Fin 100000) (q : Fin 256), i = ix2 p q := ⟨i 0, i 1, eq_ix2 i⟩
  unfold linH Cert.Dense.lin
  rw [addf_apply, dotH_apply, biasH_apply]

/-- The initial-residual combination as the reference spells it: 0.9 · (sv · dv) + 0.1 · x0, the degree column
    repeated along each row. -/
def mixH (Sv X0 : Arr F S100000x256) (dV : Arr F S100000x1) : Arr F S100000x256 :=
  addf (mulf (splatH 0x3F666666#32) (mulf Sv (broadcastInDim S100000x256 ![0, 1] bcast_S100000x1_S100000x256_0_1 dV)))
    (mulf (splatH 0x3DCCCCCD#32) X0)

theorem mixH_eq (Sv X0 : Arr Ideal S100000x256) (dV : Arr Ideal S100000x1) : mixH (F := Ideal) Sv X0 dV = Cert.Spec.mix Sv X0 dV := by
  funext i
  obtain ⟨p, q, rfl⟩ : ∃ (p : Fin 100000) (q : Fin 256), i = ix2 p q := ⟨i 0, i 1, eq_ix2 i⟩
  unfold mixH Cert.Spec.mix
  rw [addf_apply, mulf_apply, mulf_apply, mulf_apply, splatH_apply, splatH_apply, broadcastInDim_a1_ab_apply, mul_assoc]

/-- One layer as the reference spells it: max (c1 · xi + c2 · (xi · Wt), 0) of xi = mixH sv x0 dv, the two scalars
    the float words c1 and c2. -/
def layerH (c1 c2 : BitVec 32) (Sv X0 : Arr F S100000x256) (dV : Arr F S100000x1) (Wt : Arr F S256x256) :
    Arr F S100000x256 :=
  maximumf (addf (mulf (splatH c1) (mixH Sv X0 dV)) (mulf (splatH c2) (dotH (mixH Sv X0 dV) Wt)))
    (splatH 0x00000000#32)

theorem layerH_eq (c1 c2 : BitVec 32) (Sv X0 : Arr Ideal S100000x256) (dV : Arr Ideal S100000x1)
    (Wt : Arr Ideal S256x256) :
    layerH (F := Ideal) c1 c2 Sv X0 dV Wt = Cert.Spec.layer (Ideal.ofBits .f32 c1) (Ideal.ofBits .f32 c2) Sv X0 dV Wt := by
  funext i
  unfold layerH Cert.Spec.layer
  rw [maximumf_apply, addf_apply, mulf_apply, mulf_apply, splatH_apply, splatH_apply, splatH_apply, dotH_apply, mixH_eq]

/-! ## The reference's stages are these blocks (by unfolding), hence the specification's layers -/

/-- The input projection: max (x · W0ᵀ + b0, 0). -/
theorem proj_eq (x0 : (⟨S100000x256, .f32⟩ : BufTy).Contents (Elt Ideal)) (x5 : (⟨S256x256, .f32⟩ : BufTy).Contents (Elt Ideal)) (x6 : (⟨S256, .f32⟩ : BufTy).Contents (Elt Ideal)) :
    val_main_v5 (F := Ideal) x0 x5 x6 = Cert.Spec.proj x0 (val_main_v0 (F := Ideal) x5) (Cert.Dense.row x6) := by
  have h : val_main_v5 (F := Ideal) x0 x5 x6
      = maximumf (F := Ideal) (φ := .f32) (linH (F := Ideal) x0 (val_main_v0 (F := Ideal) x5) x6) (splatH (F := Ideal) 0x00000000#32) := rfl
  rw [h, linH_eq]
  funext i
  unfold Cert.Spec.proj
  rw [maximumf_apply, splatH_apply]

/-- The first layer, from the first raw vertex sum. -/
theorem layer1_eq (x0 : (⟨S100000x256, .f32⟩ : BufTy).Contents (Elt Ideal)) (x1 x2 : (⟨S300000, .i32⟩ : BufTy).Contents (Elt Ideal)) (x3 : (⟨S100000x1, .f32⟩ : BufTy).Contents (Elt Ideal))
    (x4 : (⟨S20000x1, .f32⟩ : BufTy).Contents (Elt Ideal)) (x5 : (⟨S256x256, .f32⟩ : BufTy).Contents (Elt Ideal)) (x6 : (⟨S256, .f32⟩ : BufTy).Contents (Elt Ideal)) (x7 : (⟨S4x256x256, .f32⟩ : BufTy).Contents (Elt Ideal)) :
    val_main_v52 (F := Ideal) x0 x1 x2 x3 x4 x5 x6 x7
      = Cert.Spec.layer (Ideal.ofBits .f32 0x3F183370#32) (Ideal.ofBits .f32 0x3ECF991F#32)
          (val_main_v35 (F := Ideal) x0 x1 x2 x4 x5 x6) (val_main_v5 (F := Ideal) x0 x5 x6) x3
          (val_main_v47 (F := Ideal) x7) :=
  (rfl : val_main_v52 (F := Ideal) x0 x1 x2 x3 x4 x5 x6 x7
      = layerH (F := Ideal) 0x3F183370#32 0x3ECF991F#32 (val_main_v35 (F := Ideal) x0 x1 x2 x4 x5 x6)
          (val_main_v5 (F := Ideal) x0 x5 x6) x3 (val_main_v47 (F := Ideal) x7)).trans (layerH_eq _ _ _ _ _ _)

/-- The second layer. -/
theorem layer2_eq (x0 : (⟨S100000x256, .f32⟩ : BufTy).Contents (Elt Ideal)) (x1 x2 : (⟨S300000, .i32⟩ : BufTy).Contents (Elt Ideal)) (x3 : (⟨S100000x1, .f32⟩ : BufTy).Contents (Elt Ideal))
    (x4 : (⟨S20000x1, .f32⟩ : BufTy).Contents (Elt Ideal)) (x5 : (⟨S256x256, .f32⟩ : BufTy).Contents (Elt Ideal)) (x6 : (⟨S256, .f32⟩ : BufTy).Contents (Elt Ideal)) (x7 : (⟨S4x256x256, .f32⟩ : BufTy).Contents (Elt Ideal)) :
    val_main_v93 (F := Ideal) x0 x1 x2 x3 x4 x5 x6 x7
      = Cert.Spec.layer (Ideal.ofBits .f32 0x3F46E010#32) (Ideal.ofBits .f32 0x3E647FBE#32)
          (val_main_v76 (F := Ideal) x0 x1 x2 x3 x4 x5 x6 x7) (val_main_v5 (F := Ideal) x0 x5 x6) x3
          (val_main_v88 (F := Ideal) x7) :=
  (rfl : val_main_v93 (F := Ideal) x0 x1 x2 x3 x4 x5 x6 x7
      = layerH (F := Ideal) 0x3F46E010#32 0x3E647FBE#32 (val_main_v76 (F := Ideal) x0 x1 x2 x3 x4 x5 x6 x7)
          (val_main_v5 (F := Ideal) x0 x5 x6) x3 (val_main_v88 (F := Ideal) x7)).trans (layerH_eq _ _ _ _ _ _)

/-- The third layer. -/
theorem layer3_eq (x0 : (⟨S100000x256, .f32⟩ : BufTy).Contents (Elt Ideal)) (x1 x2 : (⟨S300000, .i32⟩ : BufTy).Contents (Elt Ideal)) (x3 : (⟨S100000x1, .f32⟩ : BufTy).Contents (Elt Ideal))
    (x4 : (⟨S20000x1, .f32⟩ : BufTy).Contents (Elt Ideal)) (x5 : (⟨S256x256, .f32⟩ : BufTy).Contents (Elt Ideal)) (x6 : (⟨S256, .f32⟩ : BufTy).Contents (Elt Ideal)) (x7 : (⟨S4x256x256, .f32⟩ : BufTy).Contents (Elt Ideal)) :
    val_main_v134 (F := Ideal) x0 x1 x2 x3 x4 x5 x6 x7
      = Cert.Spec.layer (Ideal.ofBits .f32 0x3F588995#32) (Ideal.ofBits .f32 0x3E1DD9AD#32)
          (val_main_v117 (F := Ideal) x0 x1 x2 x3 x4 x5 x6 x7) (val_main_v5 (F := Ideal) x0 x5 x6) x3
          (val_main_v129 (F := Ideal) x7) :=
  (rfl : val_main_v134 (F := Ideal) x0 x1 x2 x3 x4 x5 x6 x7
      = layerH (F := Ideal) 0x3F588995#32 0x3E1DD9AD#32 (val_main_v117 (F := Ideal) x0 x1 x2 x3 x4 x5 x6 x7)
          (val_main_v5 (F := Ideal) x0 x5 x6) x3 (val_main_v129 (F := Ideal) x7)).trans (layerH_eq _ _ _ _ _ _)

/-- The fourth layer. -/
theorem layer4_eq (x0 : (⟨S100000x256, .f32⟩ : BufTy).Contents (Elt Ideal)) (x1 x2 : (⟨S300000, .i32⟩ : BufTy).Contents (Elt Ideal)) (x3 : (⟨S100000x1, .f32⟩ : BufTy).Contents (Elt Ideal))
    (x4 : (⟨S20000x1, .f32⟩ : BufTy).Contents (Elt Ideal)) (x5 : (⟨S256x256, .f32⟩ : BufTy).Contents (Elt Ideal)) (x6 : (⟨S256, .f32⟩ : BufTy).Contents (Elt Ideal)) (x7 : (⟨S4x256x256, .f32⟩ : BufTy).Contents (Elt Ideal)) :
    val_main_v175 (F := Ideal) x0 x1 x2 x3 x4 x5 x6 x7
      = Cert.Spec.layer (Ideal.ofBits .f32 0x3F61D8F9#32) (Ideal.ofBits .f32 0x3DF1383B#32)
          (val_main_v158 (F := Ideal) x0 x1 x2 x3 x4 x5 x6 x7) (val_main_v5 (F := Ideal) x0 x5 x6) x3
          (val_main_v170 (F := Ideal) x7) :=
  (rfl : val_main_v175 (F := Ideal) x0 x1 x2 x3 x4 x5 x6 x7
      = layerH (F := Ideal) 0x3F61D8F9#32 0x3DF1383B#32 (val_main_v158 (F := Ideal) x0 x1 x2 x3 x4 x5 x6 x7)
          (val_main_v5 (F := Ideal) x0 x5 x6) x3 (val_main_v170 (F := Ideal) x7)).trans (layerH_eq _ _ _ _ _ _)

/-- The output projection of the fourth layer: X · Woutᵀ + bout. -/
theorem out_eq (x0 : (⟨S100000x256, .f32⟩ : BufTy).Contents (Elt Ideal)) (x1 x2 : (⟨S300000, .i32⟩ : BufTy).Contents (Elt Ideal)) (x3 : (⟨S100000x1, .f32⟩ : BufTy).Contents (Elt Ideal))
    (x4 : (⟨S20000x1, .f32⟩ : BufTy).Contents (Elt Ideal)) (x5 : (⟨S256x256, .f32⟩ : BufTy).Contents (Elt Ideal)) (x6 : (⟨S256, .f32⟩ : BufTy).Contents (Elt Ideal)) (x7 : (⟨S4x256x256, .f32⟩ : BufTy).Contents (Elt Ideal)) (x8 : (⟨S256x256, .f32⟩ : BufTy).Contents (Elt Ideal)) (x9 : (⟨S256, .f32⟩ : BufTy).Contents (Elt Ideal)) :
    val_main_v180 (F := Ideal) x0 x1 x2 x3 x4 x5 x6 x7 x8 x9
      = Cert.Dense.lin (val_main_v175 (F := Ideal) x0 x1 x2 x3 x4 x5 x6 x7) (val_main_v176 (F := Ideal) x8)
          (Cert.Dense.row x9) :=
  (rfl : val_main_v180 (F := Ideal) x0 x1 x2 x3 x4 x5 x6 x7 x8 x9
      = linH (F := Ideal) (val_main_v175 (F := Ideal) x0 x1 x2 x3 x4 x5 x6 x7) (val_main_v176 (F := Ideal) x8) x9).trans
    (linH_eq _ _ _)

end Cert.RefLayers

end
-- ==== Proof.Bridge.lean ====
/-
  The kernel program's network and the reference program's last stage are the same array.

  Stage by stage: a transposed weight, a slice of the stacked weights made a matrix and transposed, and a bias made a
  one-row matrix are the same arrays in both programs (the first two by unfolding; the bias is a reshape on one side
  and a broadcast along a new leading axis on the other, equal entry by entry). Hence the two input projections agree.
  One round of message passing is the same function of its input in both programs, so the raw vertex sums agree as
  soon as the rounds' inputs do; each layer's update is the specification's "layer" of the raw sums, the projection
  and the degree scale on both sides, and the output projection is its "lin". Chaining the four rounds gives the
  equality of the results. The raw sums are never opened: they are compared as whole arrays.
-/
import proofs.«159773_j77464030151241_2_alg».proof.Proof.Net
import proofs.«159773_j77464030151241_2_alg».proof.Proof.RefLayers
import proofs.«159773_j77464030151241_2_alg».proof.Proof.LibColRow
import Idealize.ShloMosaic.Lib.ValueLayout

noncomputable section

namespace Cert.Bridge

open Cert.ReferenceIdeal Cert.ReferenceIdeal.Read Idealize.ShloMosaic Idealize.ShloMosaic.ValueIdx

/-! ## Weights and biases -/

/-- A transposed square weight is the reference's transposed weight. -/
theorem tr_eq_v0 (w : (⟨S256x256, .f32⟩ : BufTy).Contents (Elt Ideal)) : Cert.Net.tr w = val_main_v0 (F := Ideal) w := rfl
theorem tr_eq_v176 (w : (⟨S256x256, .f32⟩ : BufTy).Contents (Elt Ideal)) : Cert.Net.tr w = val_main_v176 (F := Ideal) w := rfl

/-- Slice k of the stacked weights, as a matrix, transposed. -/
theorem wl0_eq (w : (⟨S4x256x256, .f32⟩ : BufTy).Contents (Elt Ideal)) : Cert.Net.wl0 w = val_main_v47 (F := Ideal) w := rfl
theorem wl1_eq (w : (⟨S4x256x256, .f32⟩ : BufTy).Contents (Elt Ideal)) : Cert.Net.wl1 w = val_main_v88 (F := Ideal) w := rfl
theorem wl2_eq (w : (⟨S4x256x256, .f32⟩ : BufTy).Contents (Elt Ideal)) : Cert.Net.wl2 w = val_main_v129 (F := Ideal) w := rfl
theorem wl3_eq (w : (⟨S4x256x256, .f32⟩ : BufTy).Contents (Elt Ideal)) : Cert.Net.wl3 w = val_main_v170 (F := Ideal) w := rfl

/-- A bias vector reshaped to one row reads, at (0, q), the vector at q. -/
theorem rs_eq (b : (⟨S256, .f32⟩ : BufTy).Contents (Elt Ideal)) : Cert.Net.rs b = Cert.Dense.row b := by
  funext i
  obtain ⟨u, q, rfl⟩ : ∃ (u : Fin 1) (q : Fin 256), i = ix2 u q := ⟨i 0, i 1, eq_ix2 i⟩
  unfold Cert.Net.rs Cert.Dense.row
  exact shapeCast_a_1a_apply b _ u q

section
variable (x0 : (⟨S100000x256, .f32⟩ : BufTy).Contents (Elt Ideal)) (x1 x2 : (⟨S300000, .i32⟩ : BufTy).Contents (Elt Ideal))
  (x3 : (⟨S100000x1, .f32⟩ : BufTy).Contents (Elt Ideal)) (x4 : (⟨S20000x1, .f32⟩ : BufTy).Contents (Elt Ideal))
  (x5 : (⟨S256x256, .f32⟩ : BufTy).Contents (Elt Ideal)) (x6 : (⟨S256, .f32⟩ : BufTy).Contents (Elt Ideal))
  (x7 : (⟨S4x256x256, .f32⟩ : BufTy).Contents (Elt Ideal)) (x8 : (⟨S256x256, .f32⟩ : BufTy).Contents (Elt Ideal))
  (x9 : (⟨S256, .f32⟩ : BufTy).Contents (Elt Ideal))

/-! ## The rounds of message passing -/

/-- The kernel program's round of any X is the reference's round of X. -/
theorem round_eq (X : Cert.Spec.Mat 100000 256) :
    Cert.Net.round x0 x1 x2 x3 x4 x5 x6 x7 x8 x9 X = Cert.Agg.aggR X x1 x2 x4 := by
  unfold Cert.Net.round Cert.Net.SC
  exact Cert.Agg.agg_eq X x1 x2 x4

/-- The reference's four raw vertex sums are its round of the projection and of the first three layers. -/
theorem agg1 : Cert.Agg.aggR (val_main_v5 (F := Ideal) x0 x5 x6) x1 x2 x4 = val_main_v35 (F := Ideal) x0 x1 x2 x4 x5 x6 := rfl
theorem agg2 : Cert.Agg.aggR (val_main_v52 (F := Ideal) x0 x1 x2 x3 x4 x5 x6 x7) x1 x2 x4
    = val_main_v76 (F := Ideal) x0 x1 x2 x3 x4 x5 x6 x7 := rfl
theorem agg3 : Cert.Agg.aggR (val_main_v93 (F := Ideal) x0 x1 x2 x3 x4 x5 x6 x7) x1 x2 x4
    = val_main_v117 (F := Ideal) x0 x1 x2 x3 x4 x5 x6 x7 := rfl
theorem agg4 : Cert.Agg.aggR (val_main_v134 (F := Ideal) x0 x1 x2 x3 x4 x5 x6 x7) x1 x2 x4
    = val_main_v158 (F := Ideal) x0 x1 x2 x3 x4 x5 x6 x7 := rfl

/-! ## The stages -/

/-- The input projection. -/
theorem X0_eq : Cert.Net.X0 x0 x1 x2 x3 x4 x5 x6 x7 x8 x9 = val_main_v5 (F := Ideal) x0 x5 x6 := by
  unfold Cert.Net.X0
  rw [Cert.RefLayers.proj_eq, tr_eq_v0, rs_eq]

/-- The first layer. -/
theorem X1_eq : Cert.Net.X1 x0 x1 x2 x3 x4 x5 x6 x7 x8 x9 = val_main_v52 (F := Ideal) x0 x1 x2 x3 x4 x5 x6 x7 := by
  unfold Cert.Net.X1
  rw [round_eq, X0_eq, agg1, wl0_eq, Cert.RefLayers.layer1_eq]

/-- The second layer. -/
theorem X2_eq : Cert.Net.X2 x0 x1 x2 x3 x4 x5 x6 x7 x8 x9 = val_main_v93 (F := Ideal) x0 x1 x2 x3 x4 x5 x6 x7 := by
  unfold Cert.Net.X2
  rw [round_eq, X1_eq, X0_eq, agg2, wl1_eq, Cert.RefLayers.layer2_eq]

/-- The third layer. -/
theorem X3_eq : Cert.Net.X3 x0 x1 x2 x3 x4 x5 x6 x7 x8 x9 = val_main_v134 (F := Ideal) x0 x1 x2 x3 x4 x5 x6 x7 := by
  unfold Cert.Net.X3
  rw [round_eq, X2_eq, X0_eq, agg3, wl2_eq, Cert.RefLayers.layer3_eq]

/-- The result: the fourth layer followed by the output projection. -/
theorem out_eq : Cert.Net.OUT x0 x1 x2 x3 x4 x5 x6 x7 x8 x9 = val_main_v180 (F := Ideal) x0 x1 x2 x3 x4 x5 x6 x7 x8 x9 := by
  unfold Cert.Net.OUT Cert.Spec.fin
  rw [round_eq, X3_eq, X0_eq, agg4, wl3_eq, tr_eq_v176, rs_eq, Cert.RefLayers.out_eq, Cert.RefLayers.layer4_eq]

end

end Cert.Bridge

end
-- ==== Proof.lean ====
/-
  A four-layer hypergraph network: an input projection X0 = max (x · W0ᵀ + b0, 0); four times, one round of message
  passing (the rows of X gathered at the incidence pairs' vertices and summed per hyperedge, each hyperedge's sum divided
  by its incidence count c = max (count, 1) and scaled by its degree weight d, the scaled rows gathered at the pairs'
  hyperedges and summed per vertex into Sv) followed by the update X = max (c1 · Xi + c2 · (Xi · Wlᵀ), 0) of
  Xi = 0.9 · Sv · dv + 0.1 · X0; and an output projection X · Woutᵀ + bout.

  The kernel program computes the dense parts in five regions over blocks of rows (the projection; three updates; the last
  update fused with the output projection) and the message passing in host operations between them, with the hyperedge
  scale d / c computed once; the reference computes everything in host operations and scales by (· / c) · d. On the
  extended reals the two agree entry by entry: a region's block is the layer's expression restricted to the block's rows
  (each row of an update depends only on the same row of its row-indexed operands), the blocks tile the arrays, a matrix
  product into a zero accumulator and the host's product are the same sum over the contracted axis, the changes of
  float format are the identity, and S · (d / c) = (S / c) · d for c ≥ 1 by associativity and commutativity of the
  product alone — so the precondition is never opened. The frames of the two kernel programs are the generated ones, the
  reference's frame is its generated run with the result dropped, and no operation was rewritten by the idealization.
-/
import proofs.«159773_j77464030151241_2_alg».proof.Defs
import proofs.«159773_j77464030151241_2_alg».proof.Proof.Gen.Kernel
import proofs.«159773_j77464030151241_2_alg».proof.Proof.Gen.Kernel.Frame
import proofs.«159773_j77464030151241_2_alg».proof.Proof.Gen.KernelIdeal
import proofs.«159773_j77464030151241_2_alg».proof.Proof.Gen.KernelIdeal.Frame
import proofs.«159773_j77464030151241_2_alg».proof.Proof.Gen.ReferenceIdeal
import proofs.«159773_j77464030151241_2_alg».proof.Proof.Gen.ReferenceIdeal.Run
import proofs.«159773_j77464030151241_2_alg».proof.Proof.Gen.ReferenceIdeal.Read
import proofs.«159773_j77464030151241_2_alg».proof.Proof.Gen.Pre_finite_inputs
import proofs.«159773_j77464030151241_2_alg».proof.Proof.KRun
import proofs.«159773_j77464030151241_2_alg».proof.Proof.Chain
import proofs.«159773_j77464030151241_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network's value at the launch contents of the arguments. -/
theorem algebraic : Cert.algebraic_KernelIdeal_ReferenceIdeal := by
  intro m ρ m' ρ' _ hagree
  refine ⟨fun c => Cert.Chain.OUT m c, ?_, ?_⟩
  · exact (θ_run Cert.KernelIdeal.defs _ _).mono
      (fun r h c => ⟨(h c).1.trans (Cert.Chain.W10_result m ρ c), (h c).2⟩) (Cert.KRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v180_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact (Cert.Bridge.out_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
